-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v197) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x20 : Shape := ⟨2, ![128, 20]⟩
abbrev S20 : Shape := ⟨1, ![20]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x20 : S_.BroadcastsInDim S128x20 (![] : Fin 0 → Fin S128x20.rank)
  reducesTo_S128x20_S_d0_1 : S128x20.ReducesTo [0, 1] S_
  bcast_S_S20 : S_.BroadcastsInDim S20 (![] : Fin 0 → Fin S20.rank)
  reducesTo_S20_S_d0 : S20.ReducesTo [0] S_

variable [Facts]

def fn_part3 {F : FTy → Type} [FloatOps F] (main_arg13 : FVec F S20 .f32) (main_v48 : IVec S_ 1) (main_v49 : FVec F S128x20 .f32) (main_v50 : FVec F S128x20 .f32) : IVec S_ 1 :=
  let main_v51 : IVec S128x20 1 := cmpf .olt main_v49 main_v50
  let main_c_19 : IVec S_ 1 := constantI S_ 1 1#1
  let main_v52 : IVec S_ 1 := (fun x v => Host.reduce IntOp.andi x v reducesTo_S128x20_S_d0_1 h_S_) main_v51 main_c_19
  let main_v53 : IVec S_ 1 := andi main_v48 main_v52
  let main_v54 : FVec F S20 .f32 := Host.absf main_arg13
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  main_v58

def fn_part2 {F : FTy → Type} [FloatOps F] (main_arg9 : FVec F S5x128 .f32) (main_arg10 : FVec F S128x128 .f32) (main_arg11 : FVec F S128 .f32) (main_arg12 : FVec F S128x20 .f32) (main_arg13 : FVec F S20 .f32) (main_v33 : IVec S_ 1) : IVec S_ 1 :=
  let main_v34 : FVec F S5x128 .f32 := Host.absf main_arg9
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x20 .f32 := Host.absf main_arg12
  let main_cst_18 : FVec F S_ .f32 := constant S_ .f32 0x7F800000#32
  let main_v50 : FVec F S128x20 .f32 := broadcastInDim S128x20 ![] bcast_S_S128x20 main_cst_18
  fn_part3 (F := F) main_arg13 main_v48 main_v49 main_v50

def fn_part1 {F : FTy → Type} [FloatOps F] (main_arg6 : FVec F S5x128 .f32) (main_arg7 : FVec F S5x128 .f32) (main_arg8 : FVec F S5x128 .f32) (main_arg9 : FVec F S5x128 .f32) (main_arg10 : FVec F S128x128 .f32) (main_arg11 : FVec F S128 .f32) (main_arg12 : FVec F S128x20 .f32) (main_arg13 : FVec F S20 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg7
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg8
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x800000 32) (main_arg2 : FVec F S800000 .f32) (main_arg3 : IVec S50000 32) (main_arg4 : FVec F S5x128x128 .f32) (main_arg5 : FVec F S5x128 .f32) (main_arg6 : FVec F S5x128 .f32) (main_arg7 : FVec F S5x128 .f32) (main_arg8 : FVec F S5x128 .f32) (main_arg9 : FVec F S5x128 .f32) (main_arg10 : FVec F S128x128 .f32) (main_arg11 : FVec F S128 .f32) (main_arg12 : FVec F S128x20 .f32) (main_arg13 : FVec F S20 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S5x128x128 .f32 := Host.absf main_arg4
  let main_cst_2 : FVec F S_ .f32 := constant S_ .f32 0x7F800000#32
  let main_v10 : FVec F S5x128x128 .f32 := broadcastInDim S5x128x128 ![] bcast_S_S5x128x128 main_cst_2
  let main_v11 : IVec S5x128x128 1 := cmpf .olt main_v9 main_v10
  let main_c_3 : IVec S_ 1 := constantI S_ 1 1#1
  let main_v12 : IVec S_ 1 := (fun x v => Host.reduce IntOp.andi x v reducesTo_S5x128x128_S_d0_1_2 h_S_) main_v11 main_c_3
  let main_v13 : IVec S_ 1 := andi main_v8 main_v12
  let main_v14 : FVec F S5x128 .f32 := Host.absf main_arg5
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x20 : Shape := ⟨2, ![128, 20]⟩
abbrev S20 : Shape := ⟨1, ![20]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S5000x128 : Shape := ⟨2, ![5000, 128]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S1x20 : Shape := ⟨2, ![1, 20]⟩
abbrev S64x20 : Shape := ⟨2, ![64, 20]⟩

abbrev nBuf : Space → Nat
  | .hbm => 238
  | .vmem => 76
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S5x128x128, .f32⟩
  | 5 => ⟨S5x128, .f32⟩
  | 6 => ⟨S5x128, .f32⟩
  | 7 => ⟨S5x128, .f32⟩
  | 8 => ⟨S5x128, .f32⟩
  | 9 => ⟨S5x128, .f32⟩
  | 10 => ⟨S128x128, .f32⟩
  | 11 => ⟨S128, .f32⟩
  | 12 => ⟨S128x20, .f32⟩
  | 13 => ⟨S20, .f32⟩
  | 14 => ⟨S1x800000, .i32⟩
  | 15 => ⟨S800000, .i32⟩
  | 16 => ⟨S1x800000, .i32⟩
  | 17 => ⟨S800000, .i32⟩
  | 18 => ⟨S50000, .i32⟩
  | 19 => ⟨S850000, .i32⟩
  | 20 => ⟨S850000, .i32⟩
  | 21 => ⟨S_, .f32⟩
  | 22 => ⟨S50000, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S1x128x128, .f32⟩
  | 57 => ⟨S128x128, .f32⟩
  | 58 => ⟨S50000x128, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x1, .f32⟩
  | 69 => ⟨S850000x128, .f32⟩
  | 70 => ⟨S850000x128, .f32⟩
  | 71 => ⟨S_, .f32⟩
  | 72 => ⟨S50000x128, .f32⟩
  | 73 => ⟨S850000x1, .i32⟩
  | 74 => ⟨S50000x128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S50000x128, .f32⟩
  | 91 => ⟨S1x128x128, .f32⟩
  | 92 => ⟨S128x128, .f32⟩
  | 93 => ⟨S50000x128, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x128, .f32⟩
  | 103 => ⟨S850000x1, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S50000x128, .f32⟩
  | 126 => ⟨S1x128x128, .f32⟩
  | 127 => ⟨S128x128, .f32⟩
  | _ => ⟨S50000x128, .f32⟩

abbrev hbmTy0_1 (i : Nat) : BufTy := match i % 128 with
  | 0 => ⟨S50000x128, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000x128, .f32⟩
  | 10 => ⟨S850000x1, .f32⟩
  | 11 => ⟨S850000x128, .f32⟩
  | 12 => ⟨S850000x128, .f32⟩
  | 13 => ⟨S_, .f32⟩
  | 14 => ⟨S50000x128, .f32⟩
  | 15 => ⟨S850000x1, .i32⟩
  | 16 => ⟨S50000x128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S50000x128, .f32⟩
  | 33 => ⟨S1x128x128, .f32⟩
  | 34 => ⟨S128x128, .f32⟩
  | 35 => ⟨S50000x128, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x128, .f32⟩
  | 45 => ⟨S850000x1, .f32⟩
  | 46 => ⟨S850000x128, .f32⟩
  | 47 => ⟨S850000x128, .f32⟩
  | 48 => ⟨S_, .f32⟩
  | 49 => ⟨S50000x128, .f32⟩
  | 50 => ⟨S850000x1, .i32⟩
  | 51 => ⟨S50000x128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S1x128, .f32⟩
  | 64 => ⟨S1x128, .f32⟩
  | 65 => ⟨S1x128, .f32⟩
  | 66 => ⟨S1x128, .f32⟩
  | 67 => ⟨S50000x128, .f32⟩
  | 68 => ⟨S1x128x128, .f32⟩
  | 69 => ⟨S128x128, .f32⟩
  | 70 => ⟨S50000x128, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x128, .f32⟩
  | 80 => ⟨S850000x1, .f32⟩
  | 81 => ⟨S850000x128, .f32⟩
  | 82 => ⟨S850000x128, .f32⟩
  | 83 => ⟨S_, .f32⟩
  | 84 => ⟨S50000x128, .f32⟩
  | 85 => ⟨S850000x1, .i32⟩
  | 86 => ⟨S50000x128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S50000x128, .f32⟩
  | 103 => ⟨S_, .f32⟩
  | 104 => ⟨S64x128, .f32⟩
  | 105 => ⟨S50000x1, .i32⟩
  | 106 => ⟨S64x128, .f32⟩
  | 107 => ⟨S1x128, .f32⟩
  | 108 => ⟨S1x20, .f32⟩
  | 109 => ⟨S64x20, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S64x128, .f32⟩
  | .local _ .vmem, ⟨71, _⟩ => ⟨S128x128, .f32⟩
  | .local _ .vmem, ⟨72, _⟩ => ⟨S1x128, .f32⟩
  | .local _ .vmem, ⟨73, _⟩ => ⟨S128x20, .f32⟩
  | .local _ .vmem, ⟨74, _⟩ => ⟨S1x20, .f32⟩
  | .local _ .vmem, ⟨75, _⟩ => ⟨S64x20, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_9 : Ref sig .tc := ⟨.hbm, 94, rfl⟩
abbrev main_v67 : Ref sig .tc := ⟨.hbm, 95, rfl⟩
abbrev main_v68 : Ref sig .tc := ⟨.hbm, 96, rfl⟩
abbrev main_c_10 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_11 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_12 : Ref sig .tc := ⟨.hbm, 129, rfl⟩
abbrev main_v99 : Ref sig .tc := ⟨.hbm, 130, rfl⟩
abbrev main_v100 : Ref sig .tc := ⟨.hbm, 131, rfl⟩
abbrev main_c_13 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_14 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_c_15 : Ref sig .tc := ⟨.hbm, 164, rfl⟩
abbrev main_v131 : Ref sig .tc := ⟨.hbm, 165, rfl⟩
abbrev main_v132 : Ref sig .tc := ⟨.hbm, 166, rfl⟩
abbrev main_c_16 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_17 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_c_18 : Ref sig .tc := ⟨.hbm, 199, rfl⟩
abbrev main_v163 : Ref sig .tc := ⟨.hbm, 200, rfl⟩
abbrev main_v164 : Ref sig .tc := ⟨.hbm, 201, rfl⟩
abbrev main_c_19 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_20 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_cst_21 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg5_0 : Ref sig .tc := ⟨.vmem, 53, rfl⟩
abbrev cc7_stg6_0 : Ref sig .tc := ⟨.vmem, 54, rfl⟩
abbrev cc7_stg6_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg2_0 : Ref sig .tc := ⟨.vmem, 64, rfl⟩
abbrev cc9_stg3_0 : Ref sig .tc := ⟨.vmem, 65, rfl⟩
abbrev cc9_stg4_0 : Ref sig .tc := ⟨.vmem, 66, rfl⟩
abbrev cc9_stg5_0 : Ref sig .tc := ⟨.vmem, 67, rfl⟩
abbrev cc9_stg6_0 : Ref sig .tc := ⟨.vmem, 68, rfl⟩
abbrev cc9_stg6_1 : Ref sig .tc := ⟨.vmem, 69, rfl⟩
abbrev cc10_stg0_0 : Ref sig .tc := ⟨.vmem, 70, rfl⟩
abbrev cc10_stg1_0 : Ref sig .tc := ⟨.vmem, 71, rfl⟩
abbrev cc10_stg2_0 : Ref sig .tc := ⟨.vmem, 72, rfl⟩
abbrev cc10_stg3_0 : Ref sig .tc := ⟨.vmem, 73, rfl⟩
abbrev cc10_stg4_0 : Ref sig .tc := ⟨.vmem, 74, rfl⟩
abbrev cc10_stg5_0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem3_0 : DmaSem sig := 51
abbrev cc7_sem4_0 : DmaSem sig := 52
abbrev cc7_sem5_0 : DmaSem sig := 53
abbrev cc7_sem6_0 : DmaSem sig := 54
abbrev cc7_sem6_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc9_sem0_0 : DmaSem sig := 61
abbrev cc9_sem0_1 : DmaSem sig := 62
abbrev cc9_sem1_0 : DmaSem sig := 63
abbrev cc9_sem2_0 : DmaSem sig := 64
abbrev cc9_sem3_0 : DmaSem sig := 65
abbrev cc9_sem4_0 : DmaSem sig := 66
abbrev cc9_sem5_0 : DmaSem sig := 67
abbrev cc9_sem6_0 : DmaSem sig := 68
abbrev cc9_sem6_1 : DmaSem sig := 69
abbrev cc10_sem0_0 : DmaSem sig := 70
abbrev cc10_sem1_0 : DmaSem sig := 71
abbrev cc10_sem2_0 : DmaSem sig := 72
abbrev cc10_sem3_0 : DmaSem sig := 73
abbrev cc10_sem4_0 : DmaSem sig := 74
abbrev cc10_sem5_0 : DmaSem sig := 75

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S64x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x20 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x20 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x20 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  slices_S5x128x128_S1x128x128_0_0_0 : S5x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S5x128_S1x128_0_0 : S5x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  shapeCasts_S20_S1x20 : S20.ShapeCasts S1x20
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  inb_S128x20_S128x20_0_0 : ∀ a, (![0, 0] : Fin 2 → Nat) a + S128x20.size a ≤ S128x20.size a
  h_S128x20 : 0 < S128x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S64x20 : S1x20.Broadcasts S64x20
  inb_S64x20_S64x20_0_0 : ∀ a, (![0, 0] : Fin 2 → Nat) a + S64x20.size a ≤ S64x20.size a
  h_S64x20 : 0 < S64x20.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x20_S64x20_1_0_0_1_n_n_wf : DotDims.WF S64x128 S128x20 S64x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S50000x128.size a
  hwx7_6 : ∀ i : grid7.Coords, EltTy.bits .f32 = 32 ∨ (Rect.block (s := S50000x128) S5000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x128.size a ≤ S50000x128.size a
  hwx9_6 : ∀ i : grid9.Coords, EltTy.bits .f32 = 32 ∨ (Rect.block (s := S50000x128) S5000x128.size (cc9_transform_6 i) (hinb9_6 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S64x128.size a ≤ S64x128.size a
  hwx10_0 : ∀ i : grid10.Coords, EltTy.bits .f32 = 32 ∨ (Rect.block (s := S64x128) S64x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x20.size a ≤ S128x20.size a
  hwx10_3 : ∀ i : grid10.Coords, EltTy.bits .f32 = 32 ∨ (Rect.block (s := S128x20) S128x20.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x20.size a ≤ S1x20.size a
  hwx10_4 : ∀ i : grid10.Coords, EltTy.bits .f32 = 32 ∨ (Rect.block (s := S1x20) S1x20.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x20.size a ≤ S64x20.size a
  hwx10_5 : ∀ i : grid10.Coords, EltTy.bits .f32 = 32 ∨ (Rect.block (s := S64x20) S64x20.size (cc10_transform_5 i) (hinb10_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x20_S64x20_1_0_0_1_n_n : DotDims S64x128 S128x20 S64x20 where
  lhsContracting := [1]
  rhsContracting := [0]
  lhsNonContracting := [0]
  rhsNonContracting := [1]
  lhsBatch := []
  rhsBatch := []
  wf := dot_S64x128_S128x20_S64x20_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v95) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v111) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v122) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v124) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v125) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v126) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v127) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v127) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v129) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v130) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v143) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v154) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v155) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v156) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v157) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v158) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v159) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v159) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v161) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v162) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v175) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v186) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v187) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v188) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v189) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v190) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v191) S5000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v194) S64x128.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg10) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v195) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg12) S128x20.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v196) S1x20.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v197) S64x20.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x20 : Shape := ⟨2, ![128, 20]⟩
abbrev S20 : Shape := ⟨1, ![20]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S1x128 : Shape := ⟨2, ![1, 128]⟩
abbrev S850000x128 : Shape := ⟨2, ![850000, 128]⟩
abbrev S64x128 : Shape := ⟨2, ![64, 128]⟩
abbrev S50000x1 : Shape := ⟨2, ![50000, 1]⟩
abbrev S64x20 : Shape := ⟨2, ![64, 20]⟩
abbrev S1x20 : Shape := ⟨2, ![1, 20]⟩

abbrev nBuf : Space → Nat
  | .hbm => 326
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S5x128x128, .f32⟩
  | 5 => ⟨S5x128, .f32⟩
  | 6 => ⟨S5x128, .f32⟩
  | 7 => ⟨S5x128, .f32⟩
  | 8 => ⟨S5x128, .f32⟩
  | 9 => ⟨S5x128, .f32⟩
  | 10 => ⟨S128x128, .f32⟩
  | 11 => ⟨S128, .f32⟩
  | 12 => ⟨S128x20, .f32⟩
  | 13 => ⟨S20, .f32⟩
  | 14 => ⟨S1x800000, .i32⟩
  | 15 => ⟨S800000, .i32⟩
  | 16 => ⟨S1x800000, .i32⟩
  | 17 => ⟨S800000, .i32⟩
  | 18 => ⟨S50000, .i32⟩
  | 19 => ⟨S850000, .i32⟩
  | 20 => ⟨S850000, .i32⟩
  | 21 => ⟨S_, .f32⟩
  | 22 => ⟨S50000, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S1x128x128, .f32⟩
  | 57 => ⟨S128x128, .f32⟩
  | 58 => ⟨S1x128, .f32⟩
  | 59 => ⟨S128, .f32⟩
  | 60 => ⟨S50000x128, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x128, .f32⟩
  | 70 => ⟨S850000x1, .f32⟩
  | 71 => ⟨S850000x128, .f32⟩
  | 72 => ⟨S850000x128, .f32⟩
  | 73 => ⟨S_, .f32⟩
  | 74 => ⟨S50000x128, .f32⟩
  | 75 => ⟨S850000x1, .i32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S1x128x128, .f32⟩
  | 108 => ⟨S128x128, .f32⟩
  | 109 => ⟨S1x128, .f32⟩
  | 110 => ⟨S128, .f32⟩
  | 111 => ⟨S50000x128, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x128, .f32⟩
  | 121 => ⟨S850000x1, .f32⟩
  | 122 => ⟨S850000x128, .f32⟩
  | 123 => ⟨S850000x128, .f32⟩
  | 124 => ⟨S_, .f32⟩
  | 125 => ⟨S50000x128, .f32⟩
  | 126 => ⟨S850000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S1x128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S128, .f32⟩
  | 13 => ⟨S_, .f32⟩
  | 14 => ⟨S128, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S1x128x128, .f32⟩
  | 31 => ⟨S128x128, .f32⟩
  | 32 => ⟨S1x128, .f32⟩
  | 33 => ⟨S128, .f32⟩
  | 34 => ⟨S50000x128, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000x128, .f32⟩
  | 44 => ⟨S850000x1, .f32⟩
  | 45 => ⟨S850000x128, .f32⟩
  | 46 => ⟨S850000x128, .f32⟩
  | 47 => ⟨S_, .f32⟩
  | 48 => ⟨S50000x128, .f32⟩
  | 49 => ⟨S850000x1, .i32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S1x128x128, .f32⟩
  | 82 => ⟨S128x128, .f32⟩
  | 83 => ⟨S1x128, .f32⟩
  | 84 => ⟨S128, .f32⟩
  | 85 => ⟨S50000x128, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S850000x1, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S50000x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S128, .f32⟩
  | 112 => ⟨S_, .f32⟩
  | 113 => ⟨S128, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S_, .f32⟩
  | 2 => ⟨S50000x128, .f32⟩
  | 3 => ⟨S50000x128, .f32⟩
  | 4 => ⟨S1x128x128, .f32⟩
  | 5 => ⟨S128x128, .f32⟩
  | 6 => ⟨S1x128, .f32⟩
  | 7 => ⟨S128, .f32⟩
  | 8 => ⟨S50000x128, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000x128, .f32⟩
  | 18 => ⟨S850000x1, .f32⟩
  | 19 => ⟨S850000x128, .f32⟩
  | 20 => ⟨S850000x128, .f32⟩
  | 21 => ⟨S_, .f32⟩
  | 22 => ⟨S50000x128, .f32⟩
  | 23 => ⟨S850000x1, .i32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S1x128, .f32⟩
  | 34 => ⟨S128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S_, .f32⟩
  | 53 => ⟨S64x128, .f32⟩
  | 54 => ⟨S50000x1, .i32⟩
  | 55 => ⟨S64x128, .f32⟩
  | 56 => ⟨S_, .f32⟩
  | 57 => ⟨S64x128, .f32⟩
  | 58 => ⟨S64x128, .f32⟩
  | 59 => ⟨S64x128, .f32⟩
  | 60 => ⟨S1x128, .f32⟩
  | 61 => ⟨S64x128, .f32⟩
  | 62 => ⟨S64x128, .f32⟩
  | 63 => ⟨S_, .f32⟩
  | 64 => ⟨S64x128, .f32⟩
  | 65 => ⟨S64x128, .f32⟩
  | 66 => ⟨S64x20, .f32⟩
  | 67 => ⟨S1x20, .f32⟩
  | 68 => ⟨S64x20, .f32⟩
  | 69 => ⟨S64x20, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call1_cst : Ref sig .tc := ⟨.hbm, 80, rfl⟩
abbrev main_call1_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_10 : Ref sig .tc := ⟨.hbm, 112, rfl⟩
abbrev main_v82 : Ref sig .tc := ⟨.hbm, 113, rfl⟩
abbrev main_v83 : Ref sig .tc := ⟨.hbm, 114, rfl⟩
abbrev main_c_11 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_12 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call2_cst : Ref sig .tc := ⟨.hbm, 131, rfl⟩
abbrev main_call2_v0 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_13 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_c_14 : Ref sig .tc := ⟨.hbm, 163, rfl⟩
abbrev main_v127 : Ref sig .tc := ⟨.hbm, 164, rfl⟩
abbrev main_v128 : Ref sig .tc := ⟨.hbm, 165, rfl⟩
abbrev main_c_15 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_16 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_call3_cst : Ref sig .tc := ⟨.hbm, 182, rfl⟩
abbrev main_call3_v0 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_17 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_c_18 : Ref sig .tc := ⟨.hbm, 214, rfl⟩
abbrev main_v172 : Ref sig .tc := ⟨.hbm, 215, rfl⟩
abbrev main_v173 : Ref sig .tc := ⟨.hbm, 216, rfl⟩
abbrev main_c_19 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_cst_20 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_cst_21 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_call4_cst : Ref sig .tc := ⟨.hbm, 257, rfl⟩
abbrev main_call4_v0 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_c_22 : Ref sig .tc := ⟨.hbm, 265, rfl⟩
abbrev main_v217 : Ref sig .tc := ⟨.hbm, 266, rfl⟩
abbrev main_v218 : Ref sig .tc := ⟨.hbm, 267, rfl⟩
abbrev main_c_23 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_cst_24 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_cst_25 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_cst_26 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_call5_cst : Ref sig .tc := ⟨.hbm, 312, rfl⟩
abbrev main_call5_v0 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_call6_cst : Ref sig .tc := ⟨.hbm, 319, rfl⟩
abbrev main_call6_v0 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S1x128_S64x128_0_1 : S1x128.BroadcastsInDim S64x128 (![0, 1] : Fin 2 → Fin S64x128.rank)
  bcast_S20_S1x20_1 : S20.BroadcastsInDim S1x20 (![1] : Fin 1 → Fin S1x20.rank)
  bcast_S1x20_S64x20_0_1 : S1x20.BroadcastsInDim S64x20 (![0, 1] : Fin 2 → Fin S64x20.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x20_S64x20_1_0_0_1_n_n_wf : DotDims.WF S64x128 S128x20 S64x20 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x20_S64x20_1_0_0_1_n_n : DotDims S64x128 S128x20 S64x20 where
  lhsContracting := [1]
  rhsContracting := [0]
  lhsNonContracting := [0]
  rhsNonContracting := [1]
  lhsBatch := []
  rhsBatch := []
  wf := dot_S64x128_S128x20_S64x20_1_0_0_1_n_n_wf

class Facts : Prop extends Facts₀ where

variable [Facts]
-- ==== Proof.KernelRun.lean ====
/-
  The idealized kernel's run with its result NAMED. Every weakly fair execution of the eleven-region program
  terminates without a fault, the fourteen argument arrays end as launched, and the result array ends holding
  what the last segment boundary holds at the result's buffer: the fold of the host stretches and of the regions'
  write-backs from the launch memory (`Gen.W24`). The launch over the program's twenty-four segments is the one
  the frame uses; only the final state is read at one more buffer.
-/
import proofs.«125410_j42923903156343_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run: the result array at the last boundary's contents, the arguments unchanged. The final state agrees
    with the last boundary's contents on every unscoped buffer; the result's buffer is one of them. -/
theorem run : θ_run defs (onTc (τ := τ) (main (F := F))) ⟨m, fun _ => 0, ρ⟩ (fun r => ∀ c : Dev nD,
      r.2.mem ((c.tc : Thread nD τ).loc main_v197) = W24 m ρ c (Proc.devRef .tc main_v197)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v197 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c)⟩)

end Cert.KernelIdeal.RunValue

end
-- ==== Proof.Spec.lean ====
/-
  The three whole-array functions the graph network is made of, stated once, index by index, on the extended
  reals, over literal shapes:

  * `mm n p x w` — rows of `x` against columns of `w`: entry (r, c) is the sum over k < 128 of x(r,k)·w(k,c);
  * the layer epilogue — the aggregated rows plus a bias row, then the batch-norm affine
    (h − mean)·(var + ε)^(-1/2)·γ + β, every parameter a [1,128] row read at the entry's column, with the
    rectifier max(·, 0) before the affine (layers 0–2), after it (layer 3) or absent (layer 4);
  * `head` — the pooled features rectified, through two dense layers with a rectifier between them.

  ε and 0 are kept as their binary words: both programs spell the same words, so they are never evaluated.
-/
import Idealize.ShloMosaic.PureOps.Ideal
import Idealize.ShloMosaic.Lib.ValueIdx

noncomputable section

namespace GcnSpec

open Idealize.ShloMosaic Idealize.ShloMosaic.ValueIdx

/-- A two-axis array of extended reals with literal extents. -/
abbrev Arr (a b : Nat) := (⟨2, ![a, b]⟩ : Shape).Idx → Elt Ideal .f32

/-- The batch-norm ε, as its binary word. -/
abbrev eps : Elt Ideal .f32 := Ideal.ofBits .f32 0x3727C5AC#32
/-- Zero, as its binary word. -/
abbrev zero : Elt Ideal .f32 := Ideal.ofBits .f32 0x00000000#32

/-- Rows against columns: entry (r, c) is the sum over k of x(r,k)·w(k,c). -/
def mm (n p : Nat) (x : Arr n 128) (w : Arr 128 p) : Arr n p :=
  fun i => ∑ k : Fin 128, x (ix2 (i 0) k) * w (ix2 k (i 1))

/-- The batch-norm affine on one entry: (h − mean)·(var + ε)^(-1/2)·γ + β. -/
def bn (h mean var gamma beta : Elt Ideal .f32) : Elt Ideal .f32 :=
  (h - mean) * Ideal.rsqrt (var + eps) * gamma + beta

/-- A [1,q] parameter row read at the column of a two-axis index. -/
abbrev atCol {n q : Nat} (v : Arr 1 q) (i : (⟨2, ![n, q]⟩ : Shape).Idx) : Elt Ideal .f32 := v (ix2 (0 : Fin 1) (i 1))

/-- Layers 0–2: bias, rectifier, then the affine. -/
def affReluBefore (agg : Arr 50000 128) (b gamma beta mean var : Arr 1 128) : Arr 50000 128 :=
  fun i => bn (max (agg i + atCol b i) zero) (atCol mean i) (atCol var i) (atCol gamma i) (atCol beta i)

/-- Layer 3: bias, the affine, then the rectifier. -/
def affReluAfter (agg : Arr 50000 128) (b gamma beta mean var : Arr 1 128) : Arr 50000 128 :=
  fun i => max (bn (agg i + atCol b i) (atCol mean i) (atCol var i) (atCol gamma i) (atCol beta i)) zero

/-- Layer 4: bias and the affine, no rectifier. -/
def affPlain (agg : Arr 50000 128) (b gamma beta mean var : Arr 1 128) : Arr 50000 128 :=
  fun i => bn (agg i + atCol b i) (atCol mean i) (atCol var i) (atCol gamma i) (atCol beta i)

/-- The head: rectified pooled features, a dense layer with bias and rectifier, a second dense layer with bias. -/
def head (g : Arr 64 128) (w1 : Arr 128 128) (b1 : Arr 1 128) (w2 : Arr 128 20) (b2 : Arr 1 20) : Arr 64 20 :=
  fun i => mm 64 20 (fun j => max (mm 64 128 (fun l => max (g l) zero) w1 j + atCol b1 j) zero) w2 i + atCol b2 i

end GcnSpec

end
-- ==== Proof.RefSpec.lean ====
/-
  The reference's host operations, read as the whole-array functions of the specification.

  * A `dot_general` contracting the rows' axis against the weight's first axis is rows against columns (`mm`).
  * A [1,128] parameter slice, reshaped to [128], broadcast to [1,128] and then down the 50000 rows, is at entry
    (r, c) the slice's entry (0, c); so the reference's bias add, rectifier and batch-norm affine, written with
    whole-array broadcasts, are entry by entry the layer epilogue of the specification.
  * The head's two dense layers with their broadcast bias rows are `head`.
-/
import proofs.«125410_j42923903156343_1_alg».proof.Proof.RefRead
import proofs.«125410_j42923903156343_1_alg».proof.Proof.Spec
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read Idealize.ShloMosaic Idealize.ShloMosaic.TcCoe Idealize.ShloMosaic.ValueIdx

/-! ## Rows and scalars broadcast, read at an index -/

/-- A [128] row broadcast to [1,128] and then down the 50000 rows: entry (r, q) is the row's entry q. -/
theorem rows_of_row_apply (v : FVec Ideal S128 .f32) (r : Fin 50000) (q : Fin 128) :
    broadcastInDim S50000x128 ![0, 1] bcast_S1x128_S50000x128_0_1 (broadcastInDim S1x128 ![1] bcast_S128_S1x128_1 v) (ix2 r q) = v (ix1 q) := by
  refine (broadcastInDim_apply _ bcast_S1x128_S50000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 v (ix2 (0 : Fin 1) q) (ix1 q) (fun a => match a with
    | ⟨0, _⟩ => by show q.val = if (128 : Nat) = 1 then 0 else q.val; rw [if_neg (by decide)])

/-- A [1,128] slice reshaped to [128]: entry q is the slice's entry (0, q). -/
theorem row_of_slice_apply (y : FVec Ideal S1x128 .f32) (q : Fin 128) :
    shapeCast S128 y shapeCasts_S1x128_S128 (ix1 q) = y (ix2 (0 : Fin 1) q) :=
  shapeCast_apply y shapeCasts_S1x128_S128 (ix1 q) (ix2 (0 : Fin 1) q)
    (by rewrite [Shape.rowMajor_val_two, Shape.rowMajor_val_one]; show 0 * 128 + q.val = q.val; omega)

/-- A scalar broadcast over [50000,128]: every entry is the scalar. -/
theorem splat_apply (z : FVec Ideal S_ .f32) (i : S50000x128.Idx) :
    broadcastInDim S50000x128 ![] bcast_S_S50000x128 z i = z (fun a => a.elim0) :=
  broadcastInDim_apply _ bcast_S_S50000x128 z i (fun a => a.elim0) (fun a => a.elim0)

/-- A scalar broadcast over [128]: every entry is the scalar. -/
theorem splat128_apply (z : FVec Ideal S_ .f32) (k : S128.Idx) :
    broadcastInDim S128 ![] bcast_S_S128 z k = z (fun a => a.elim0) :=
  broadcastInDim_apply _ bcast_S_S128 z k (fun a => a.elim0) (fun a => a.elim0)

/-! ## The dense transform -/

/-- Rows against columns read at entry (r, q). -/
theorem mm_at {n p : Nat} (x : GcnSpec.Arr n 128) (w : GcnSpec.Arr 128 p) (r : Fin n) (q : Fin p) :
    GcnSpec.mm n p x w (ix2 r q) = ∑ k : Fin 128, x (ix2 r k) * w (ix2 k q) := rfl

/-- The host's contraction of the rows' second axis against the weight's first is rows against columns. -/
theorem dense_eq (x : FVec Ideal S50000x128 .f32) (w : FVec Ideal S128x128 .f32) :
    Host.dotGeneral (F := Ideal) dot_S50000x128_S128x128_S50000x128_1_0_0_1_n_n none x w = GcnSpec.mm 50000 128 x w := by
  funext i
  obtain ⟨r, q, rfl⟩ : ∃ (r : Fin 50000) (q : Fin 128), i = ix2 r q := ⟨i 0, i 1, eq_ix2 i⟩
  simp only [Host.dotGeneral]
  refine ((Ideal.dotGeneral_apply dot_S50000x128_S128x128_S50000x128_1_0_0_1_n_n none _ x w (ix2 r q)).trans ?_).trans (mm_at x w r q).symm
  rw [← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r q) ((ValueIdx.contrEquiv1 dot_S50000x128_S128x128_S50000x128_1_0_0_1_n_n 128 rfl rfl).symm k) = ix2 r k := funext fun a => Fin.ext (by
    match a with
    | ⟨0, _⟩ => exact lhs_main_v36_0 _ _
    | ⟨1, _⟩ => exact (lhs_main_v36_1 _ _).trans hk)
  have er : dot_S50000x128_S128x128_S50000x128_1_0_0_1_n_n.rhsIdx (ix2 r q) ((ValueIdx.contrEquiv1 dot_S50000x128_S128x128_S50000x128_1_0_0_1_n_n 128 rfl rfl).symm k) = ix2 k q := funext fun a => Fin.ext (by
    match a with
    | ⟨0, _⟩ => exact (rhs_main_v36_0 _ _).trans hk
    | ⟨1, _⟩ => exact rhs_main_v36_1 _ _)
  exact congrArg₂ (· * ·) (congrArg x el) (congrArg w er)

/-- The host's contraction for a [64,128] array against a [128,128] one is rows against columns. -/
theorem dense_head1 (x : FVec Ideal S64x128 .f32) (w : FVec Ideal S128x128 .f32) :
    Host.dotGeneral (F := Ideal) dot_S64x128_S128x128_S64x128_1_0_0_1_n_n none x w = GcnSpec.mm 64 128 x w := by
  funext i
  obtain ⟨r, q, rfl⟩ : ∃ (r : Fin 64) (q : Fin 128), i = ix2 r q := ⟨i 0, i 1, eq_ix2 i⟩
  simp only [Host.dotGeneral]
  refine ((Ideal.dotGeneral_apply dot_S64x128_S128x128_S64x128_1_0_0_1_n_n none _ x w (ix2 r q)).trans ?_).trans (mm_at x w r q).symm
  rw [← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 r q) ((ValueIdx.contrEquiv1 dot_S64x128_S128x128_S64x128_1_0_0_1_n_n 128 rfl rfl).symm k) = ix2 r k := funext fun a => Fin.ext (by
    match a with
    | ⟨0, _⟩ => exact lhs_main_v260_0 _ _
    | ⟨1, _⟩ => exact (lhs_main_v260_1 _ _).trans hk)
  have er : dot_S64x128_S128x128_S64x128_1_0_0_1_n_n.rhsIdx (ix2 r q) ((ValueIdx.contrEquiv1 dot_S64x128_S128x128_S64x128_1_0_0_1_n_n 128 rfl rfl).symm k) = ix2 k q := funext fun a => Fin.ext (by
    match a with
    | ⟨0, _⟩ => exact (rhs_main_v260_0 _ _).trans hk
    | ⟨1, _⟩ => exact rhs_main_v260_1 _ _)
  exact congrArg₂ (· * ·) (congrArg x el) (congrArg w er)

/-- The host's contraction for a [64,128] array against a [128,20] one is rows against columns. -/
theorem dense_head2 (x : FVec Ideal S64x128 .f32) (w : FVec Ideal S128x20 .f32) :
    Host.dotGeneral (F := Ideal) dot_S64x128_S128x20_S64x20_1_0_0_1_n_n none x w = GcnSpec.mm 64 20 x w := by
  funext i
  obtain ⟨r, q, rfl⟩ : ∃ (r : Fin 64) (q : Fin 20), i = ix2 r q := ⟨i 0, i 1, eq_ix2 i⟩
  simp only [Host.dotGeneral]
  refine ((Ideal.dotGeneral_apply dot_S64x128_S128x20_S64x20_1_0_0_1_n_n none _ x w (ix2 r q)).trans ?_).trans (mm_at x w r q).symm
  rw [← Equiv.sum_comp (ValueIdx.contrEquiv1 dot_S64x128_S128x20_S64x20_1_0_0_1_n_n 128 rfl rfl).symm]
  refine Finset.sum_congr rfl fun k _ => ?_
  have hk := ValueIdx.contrEquiv1_symm_val dot_S64x128_S128x20_S64x20_1_0_0_1_n_n 128 rfl rfl k
  have el : dot_S64x128_S128x20_S64x20_1_0_0_1_n_n.lhsIdx (ix2 r q) ((ValueIdx.contrEquiv1 dot_S64x128_S128x20_S64x20_1_0_0_1_n_n 128 rfl rfl).symm k) = ix2 r k := funext fun a => Fin.ext (by
    match a with
    | ⟨0, _⟩ => exact lhs_main_v265_0 _ _
    | ⟨1, _⟩ => exact (lhs_main_v265_1 _ _).trans hk)
  have er : dot_S64x128_S128x20_S64x20_1_0_0_1_n_n.rhsIdx (ix2 r q) ((ValueIdx.contrEquiv1 dot_S64x128_S128x20_S64x20_1_0_0_1_n_n 128 rfl rfl).symm k) = ix2 k q := funext fun a => Fin.ext (by
    match a with
    | ⟨0, _⟩ => exact (rhs_main_v265_0 _ _).trans hk
    | ⟨1, _⟩ => exact rhs_main_v265_1 _ _)
  exact congrArg₂ (· * ·) (congrArg x el) (congrArg w er)

/-! ## The layer epilogue -/

/-- A [128] row laid down the 50000 rows. -/
abbrev rowsOf (v : FVec Ideal S128 .f32) : FVec Ideal S50000x128 .f32 :=
  broadcastInDim S50000x128 ![0, 1] bcast_S1x128_S50000x128_0_1 (broadcastInDim S1x128 ![1] bcast_S128_S1x128_1 v)
/-- A [1,128] slice as a [128] row. -/
abbrev flat (y : FVec Ideal S1x128 .f32) : FVec Ideal S128 .f32 := shapeCast S128 y shapeCasts_S1x128_S128
/-- The all-zero [50000,128] array the rectifier compares against. -/
abbrev zeros : FVec Ideal S50000x128 .f32 :=
  broadcastInDim S50000x128 ![] bcast_S_S50000x128 (constant (F := Ideal) S_ .f32 0x00000000#32)
/-- (var + ε)^(-1/2) on a [128] row. -/
abbrev invStd (var : FVec Ideal S1x128 .f32) : FVec Ideal S128 .f32 :=
  Host.rsqrt (F := Ideal) (addf (F := Ideal) (flat var) (broadcastInDim S128 ![] bcast_S_S128 (constant (F := Ideal) S_ .f32 0x3727C5AC#32)))

theorem rowsOf_flat_apply (y : FVec Ideal S1x128 .f32) (r : Fin 50000) (q : Fin 128) :
    rowsOf (flat y) (ix2 r q) = y (ix2 (0 : Fin 1) q) :=
  (rows_of_row_apply (flat y) r q).trans (row_of_slice_apply y q)

theorem rowsOf_invStd_apply (var : FVec Ideal S1x128 .f32) (r : Fin 50000) (q : Fin 128) :
    rowsOf (invStd var) (ix2 r q) = Ideal.rsqrt (var (ix2 (0 : Fin 1) q) + GcnSpec.eps) := by
  refine (rows_of_row_apply (invStd var) r q).trans ?_
  show Ideal.rsqrt (shapeCast S128 var shapeCasts_S1x128_S128 (ix1 q) + broadcastInDim S128 ![] bcast_S_S128 (constant (F := Ideal) S_ .f32 0x3727C5AC#32) (ix1 q))
    = Ideal.rsqrt (var (ix2 (0 : Fin 1) q) + constant (F := Ideal) S_ .f32 0x3727C5AC#32 (fun a => a.elim0))
  rw [row_of_slice_apply, splat128_apply]

theorem zeros_apply (i : S50000x128.Idx) : zeros i = GcnSpec.zero := (splat_apply _ i).trans rfl

section Epilogue
variable (agg : FVec Ideal S50000x128 .f32) (b g be mu var : FVec Ideal S1x128 .f32)

/-- Bias, rectifier, then the affine: the reference's whole-array operations are the specification's entries. -/
theorem aff_before :
    addf (F := Ideal) (mulf (F := Ideal) (mulf (F := Ideal) (subf (F := Ideal) (maximumf (F := Ideal) (addf (F := Ideal) agg (rowsOf (flat b))) zeros) (rowsOf (flat mu))) (rowsOf (invStd var))) (rowsOf (flat g))) (rowsOf (flat be))
      = GcnSpec.affReluBefore agg b g be mu var := by
  funext i
  obtain ⟨r, q, rfl⟩ : ∃ (r : Fin 50000) (q : Fin 128), i = ix2 r q := ⟨i 0, i 1, eq_ix2 i⟩
  simp only [addf_apply, mulf_apply, subf_apply, maximumf_apply, rowsOf_flat_apply, rowsOf_invStd_apply, zeros_apply]
  rfl

/-- Bias, the affine, then the rectifier. -/
theorem aff_after :
    maximumf (F := Ideal) (addf (F := Ideal) (mulf (F := Ideal) (mulf (F := Ideal) (subf (F := Ideal) (addf (F := Ideal) agg (rowsOf (flat b))) (rowsOf (flat mu))) (rowsOf (invStd var))) (rowsOf (flat g))) (rowsOf (flat be))) zeros
      = GcnSpec.affReluAfter agg b g be mu var := by
  funext i
  obtain ⟨r, q, rfl⟩ : ∃ (r : Fin 50000) (q : Fin 128), i = ix2 r q := ⟨i 0, i 1, eq_ix2 i⟩
  simp only [addf_apply, mulf_apply, subf_apply, maximumf_apply, rowsOf_flat_apply, rowsOf_invStd_apply, zeros_apply]
  rfl

/-- Bias and the affine. -/
theorem aff_plain :
    addf (F := Ideal) (mulf (F := Ideal) (mulf (F := Ideal) (subf (F := Ideal) (addf (F := Ideal) agg (rowsOf (flat b))) (rowsOf (flat mu))) (rowsOf (invStd var))) (rowsOf (flat g))) (rowsOf (flat be))
      = GcnSpec.affPlain agg b g be mu var := by
  funext i
  obtain ⟨r, q, rfl⟩ : ∃ (r : Fin 50000) (q : Fin 128), i = ix2 r q := ⟨i 0, i 1, eq_ix2 i⟩
  simp only [addf_apply, mulf_apply, subf_apply, maximumf_apply, rowsOf_flat_apply, rowsOf_invStd_apply, zeros_apply]
  rfl

end Epilogue

/-! ## The head -/

theorem splat64_apply (z : FVec Ideal S_ .f32) (i : S64x128.Idx) :
    broadcastInDim S64x128 ![] bcast_S_S64x128 z i = z (fun a => a.elim0) :=
  broadcastInDim_apply _ bcast_S_S64x128 z i (fun a => a.elim0) (fun a => a.elim0)

/-- A [128] row laid down 64 rows: entry (r, q) is the row's entry q. -/
theorem rows64_apply (v : FVec Ideal S128 .f32) (r : Fin 64) (q : Fin 128) :
    broadcastInDim S64x128 ![0, 1] bcast_S1x128_S64x128_0_1 (broadcastInDim S1x128 ![1] bcast_S128_S1x128_1 v) (ix2 r q) = v (ix1 q) := by
  refine (broadcastInDim_apply _ bcast_S1x128_S64x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 v (ix2 (0 : Fin 1) q) (ix1 q) (fun a => match a with
    | ⟨0, _⟩ => by show q.val = if (128 : Nat) = 1 then 0 else q.val; rw [if_neg (by decide)])

/-- A [20] row laid down 64 rows: entry (r, q) is the row's entry q. -/
theorem rows20_apply (v : FVec Ideal S20 .f32) (r : Fin 64) (q : Fin 20) :
    broadcastInDim S64x20 ![0, 1] bcast_S1x20_S64x20_0_1 (broadcastInDim S1x20 ![1] bcast_S20_S1x20_1 v) (ix2 r q) = v (ix1 q) := by
  refine (broadcastInDim_apply _ bcast_S1x20_S64x20_0_1 _ (ix2 r q) (ix2 (0 : Fin 1) q) (fun a => match a with
    | ⟨0, _⟩ => by show 0 = if (1 : Nat) = 1 then 0 else r.val; rw [if_pos rfl]
    | ⟨1, _⟩ => by show q.val = if (20 : Nat) = 1 then 0 else q.val; rw [if_neg (by decide)])).trans ?_
  exact broadcastInDim_apply _ bcast_S20_S1x20_1 v (ix2 (0 : Fin 1) q) (ix1 q) (fun a => match a with
    | ⟨0, _⟩ => by show q.val = if (20 : Nat) = 1 then 0 else q.val; rw [if_neg (by decide)])

/-- The all-zero [64,128] array the head's rectifiers compare against. -/
abbrev zeros64 : FVec Ideal S64x128 .f32 :=
  broadcastInDim S64x128 ![] bcast_S_S64x128 (constant (F := Ideal) S_ .f32 0x00000000#32)
/-- A [128] row laid down 64 rows. -/
abbrev rows64 (v : FVec Ideal S128 .f32) : FVec Ideal S64x128 .f32 :=
  broadcastInDim S64x128 ![0, 1] bcast_S1x128_S64x128_0_1 (broadcastInDim S1x128 ![1] bcast_S128_S1x128_1 v)
/-- A [20] row laid down 64 rows. -/
abbrev rows20 (v : FVec Ideal S20 .f32) : FVec Ideal S64x20 .f32 :=
  broadcastInDim S64x20 ![0, 1] bcast_S1x20_S64x20_0_1 (broadcastInDim S1x20 ![1] bcast_S20_S1x20_1 v)

theorem zeros64_apply (i : S64x128.Idx) : zeros64 i = GcnSpec.zero := (splat64_apply _ i).trans rfl
theorem rows64_at (v : FVec Ideal S128 .f32) (r : Fin 64) (q : Fin 128) : rows64 v (ix2 r q) = v (ix1 q) := rows64_apply v r q
theorem rows20_at (v : FVec Ideal S20 .f32) (r : Fin 64) (q : Fin 20) : rows20 v (ix2 r q) = v (ix1 q) := rows20_apply v r q

/-- The reference's head — rectified pooled features, two dense layers with broadcast bias rows and a rectifier
    between — is the specification's, for any [1,128] and [1,20] rows that hold the two biases. -/
theorem head_eq (g : FVec Ideal S64x128 .f32) (w1 : FVec Ideal S128x128 .f32) (b1v : FVec Ideal S128 .f32)
    (w2 : FVec Ideal S128x20 .f32) (b2v : FVec Ideal S20 .f32)
    (b1 : GcnSpec.Arr 1 128) (b2 : GcnSpec.Arr 1 20)
    (h1 : ∀ q : Fin 128, b1 (ix2 (0 : Fin 1) q) = b1v (ix1 q)) (h2 : ∀ q : Fin 20, b2 (ix2 (0 : Fin 1) q) = b2v (ix1 q)) :
    addf (F := Ideal) (Host.dotGeneral (F := Ideal) dot_S64x128_S128x20_S64x20_1_0_0_1_n_n none
        (maximumf (F := Ideal) (addf (F := Ideal) (Host.dotGeneral (F := Ideal) dot_S64x128_S128x128_S64x128_1_0_0_1_n_n none
            (maximumf (F := Ideal) g zeros64) w1) (rows64 b1v)) zeros64) w2)
      (rows20 b2v)
      = GcnSpec.head g w1 b1 w2 b2 := by
  have e1 : maximumf (F := Ideal) g zeros64 = fun l => max (g l) GcnSpec.zero := funext fun l => by
    show max (g l) (zeros64 l) = max (g l) GcnSpec.zero
    rw [zeros64_apply]
  rw [e1, dense_head1]
  have e2 : maximumf (F := Ideal) (addf (F := Ideal) (GcnSpec.mm 64 128 (fun l => max (g l) GcnSpec.zero) w1) (rows64 b1v)) zeros64
      = fun j => max (GcnSpec.mm 64 128 (fun l => max (g l) GcnSpec.zero) w1 j + GcnSpec.atCol b1 j) GcnSpec.zero := funext fun j => by
    obtain ⟨r, q, rfl⟩ : ∃ (r : Fin 64) (q : Fin 128), j = ix2 r q := ⟨j 0, j 1, eq_ix2 j⟩
    show max (GcnSpec.mm 64 128 _ w1 (ix2 r q) + rows64 b1v (ix2 r q)) (zeros64 (ix2 r q))
      = max (GcnSpec.mm 64 128 _ w1 (ix2 r q) + b1 (ix2 (0 : Fin 1) q)) GcnSpec.zero
    rw [zeros64_apply, rows64_at, h1 q]
  rw [e2, dense_head2]
  funext i
  obtain ⟨r, q, rfl⟩ : ∃ (r : Fin 64) (q : Fin 20), i = ix2 r q := ⟨i 0, i 1, eq_ix2 i⟩
  show GcnSpec.mm 64 20 _ w2 (ix2 r q) + rows20 b2v (ix2 r q) = GcnSpec.mm 64 20 _ w2 (ix2 r q) + b2 (ix2 (0 : Fin 1) q)
  rw [rows20_at, h2 q]

/-! ## The reference's stages, layer by layer

Each dense transform is `mm` of the previous layer's output and that layer's weight slice; each layer's output is the
epilogue of the aggregated rows and that layer's five parameter slices; the result is `head` of the pooled rows. -/

section Stages
variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S50000, .i32⟩ : BufTy).Contents (Elt Ideal))
  (x4 : (⟨S5x128x128, .f32⟩ : BufTy).Contents (Elt Ideal)) (x5 x6 x7 x8 x9 : (⟨S5x128, .f32⟩ : BufTy).Contents (Elt Ideal))
  (x10 : (⟨S128x128, .f32⟩ : BufTy).Contents (Elt Ideal)) (x11 : (⟨S128, .f32⟩ : BufTy).Contents (Elt Ideal))
  (x12 : (⟨S128x20, .f32⟩ : BufTy).Contents (Elt Ideal)) (x13 : (⟨S20, .f32⟩ : BufTy).Contents (Elt Ideal))

theorem dense0 : val_main_v36 (F := Ideal) x0 x4 = GcnSpec.mm 50000 128 (x0) (val_main_v33 (F := Ideal) x4) :=
  dense_eq _ _
theorem layer0 : val_main_v76 (F := Ideal) x0 x1 x2 x4 x5 x6 x7 x8 x9
    = GcnSpec.affReluBefore (val_main_v49 (F := Ideal) x0 x1 x2 x4) (val_main_v34 (F := Ideal) x5) (val_main_v67 (F := Ideal) x6) (val_main_v72 (F := Ideal) x7) (val_main_v54 (F := Ideal) x8) (val_main_v59 (F := Ideal) x9) :=
  aff_before _ _ _ _ _ _

theorem dense1 : val_main_v81 (F := Ideal) x0 x1 x2 x4 x5 x6 x7 x8 x9 = GcnSpec.mm 50000 128 (val_main_v76 (F := Ideal) x0 x1 x2 x4 x5 x6 x7 x8 x9) (val_main_v78 (F := Ideal) x4) :=
  dense_eq _ _
theorem layer1 : val_main_v121 (F := Ideal) x0 x1 x2 x4 x5 x6 x7 x8 x9
    = GcnSpec.affReluBefore (val_main_v94 (F := Ideal) x0 x1 x2 x4 x5 x6 x7 x8 x9) (val_main_v79 (F := Ideal) x5) (val_main_v112 (F := Ideal) x6) (val_main_v117 (F := Ideal) x7) (val_main_v99 (F := Ideal) x8) (val_main_v104 (F := Ideal) x9) :=
  aff_before _ _ _ _ _ _

theorem dense2 : val_main_v126 (F := Ideal) x0 x1 x2 x4 x5 x6 x7 x8 x9 = GcnSpec.mm 50000 128 (val_main_v121 (F := Ideal) x0 x1 x2 x4 x5 x6 x7 x8 x9) (val_main_v123 (F := Ideal) x4) :=
  dense_eq _ _
theorem layer2 : val_main_v166 (F := Ideal) x0 x1 x2 x4 x5 x6 x7 x8 x9
    = GcnSpec.affReluBefore (val_main_v139 (F := Ideal) x0 x1 x2 x4 x5 x6 x7 x8 x9) (val_main_v124 (F := Ideal) x5) (val_main_v157 (F := Ideal) x6) (val_main_v162 (F := Ideal) x7) (val_main_v144 (F := Ideal) x8) (val_main_v149 (F := Ideal) x9) :=
  aff_before _ _ _ _ _ _

theorem dense3 : val_main_v171 (F := Ideal) x0 x1 x2 x4 x5 x6 x7 x8 x9 = GcnSpec.mm 50000 128 (val_main_v166 (F := Ideal) x0 x1 x2 x4 x5 x6 x7 x8 x9) (val_main_v168 (F := Ideal) x4) :=
  dense_eq _ _
theorem layer3 : val_main_v211 (F := Ideal) x0 x1 x2 x4 x5 x6 x7 x8 x9
    = GcnSpec.affReluAfter (val_main_v184 (F := Ideal) x0 x1 x2 x4 x5 x6 x7 x8 x9) (val_main_v169 (F := Ideal) x5) (val_main_v201 (F := Ideal) x6) (val_main_v206 (F := Ideal) x7) (val_main_v188 (F := Ideal) x8) (val_main_v193 (F := Ideal) x9) :=
  aff_after _ _ _ _ _ _

theorem dense4 : val_main_v216 (F := Ideal) x0 x1 x2 x4 x5 x6 x7 x8 x9 = GcnSpec.mm 50000 128 (val_main_v211 (F := Ideal) x0 x1 x2 x4 x5 x6 x7 x8 x9) (val_main_v213 (F := Ideal) x4) :=
  dense_eq _ _
theorem layer4 : val_main_v255 (F := Ideal) x0 x1 x2 x4 x5 x6 x7 x8 x9
    = GcnSpec.affPlain (val_main_v229 (F := Ideal) x0 x1 x2 x4 x5 x6 x7 x8 x9) (val_main_v214 (F := Ideal) x5) (val_main_v246 (F := Ideal) x6) (val_main_v251 (F := Ideal) x7) (val_main_v233 (F := Ideal) x8) (val_main_v238 (F := Ideal) x9) :=
  aff_plain _ _ _ _ _ _

theorem result (b1 : GcnSpec.Arr 1 128) (b2 : GcnSpec.Arr 1 20)
    (h1 : ∀ q : Fin 128, b1 (ix2 (0 : Fin 1) q) = x11 (ix1 q)) (h2 : ∀ q : Fin 20, b2 (ix2 (0 : Fin 1) q) = x13 (ix1 q)) :
    val_main_v268 (F := Ideal) x0 x1 x2 x3 x4 x5 x6 x7 x8 x9 x10 x11 x12 x13 = GcnSpec.head (val_main_v258 (F := Ideal) x0 x1 x2 x3 x4 x5 x6 x7 x8 x9) x10 b1 x12 b2 :=
  head_eq _ _ _ _ _ b1 b2 h1 h2

end Stages

end Cert.ReferenceIdeal.RefSpec

end
-- ==== Proof.HostStretch.lean ====
/-
  What each stretch of host operations between two kernel regions leaves in the buffers the next region reads, for
  ANY contents `V` it starts from, written as the reference's own stages:

  * the weight of layer k is the k-th [1,128,128] slice of the stacked weights, reshaped to [128,128];
  * each parameter row is the k-th [1,128] slice of its stacked parameter (a reshape to [128] and back to [1,128]
    is the identity);
  * the aggregated rows are the scatter-add, at the destination nodes, of the transformed rows gathered at the
    source nodes and scaled by the edge normalization (`aggregate`), the same term in both programs;
  * the pooled rows are the scatter-add of the last layer's rows at their graph numbers (`pool`).
-/
import proofs.«125410_j42923903156343_1_alg».proof.Proof.Gen.KernelIdeal.Frame
import proofs.«125410_j42923903156343_1_alg».proof.Proof.RefRead
import Idealize.ShloMosaic.Lib.Pipeline.Value
import Idealize.ShloMosaic.Lib.StableHlo.Run
import Idealize.ShloMosaic.PureOps.Ideal.Laws

set_option maxRecDepth 16384

noncomputable section

namespace Cert.KernelIdeal.HostStretch

open Cert.KernelIdeal Cert.KernelIdeal.Gen Idealize.ShloMosaic Idealize.ShloMosaic.TcCoe Idealize.ShloMosaic.StableHlo
open Cert.ReferenceIdeal.Read

/-- The message passing of one layer: gather the transformed rows at the edges' source nodes (a negative index
    wrapped by the node count), scale each by its edge's normalization, and add them up at the destination nodes. -/
def aggregate (lin : (⟨S50000x128, .f32⟩ : BufTy).Contents (Elt Ideal)) (src dst : (⟨S850000, .i32⟩ : BufTy).Contents (Elt Ideal))
    (norm : (⟨S850000, .f32⟩ : BufTy).Contents (Elt Ideal)) : (⟨S50000x128, .f32⟩ : BufTy).Contents (Elt Ideal) :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (mulf (Host.gather gather_S50000x128_S850000x1_S850000x128_1_0_n_n_0_1_1128 lin
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x128 ![0, 1] bcast_S850000x1_S850000x128_0_1 (broadcastInDim S850000x1 ![0] bcast_S850000_S850000x1_0 norm)))

/-- The pooling: the rows added up per graph. -/
def pool (h : (⟨S50000x128, .f32⟩ : BufTy).Contents (Elt Ideal)) (batch : (⟨S50000, .i32⟩ : BufTy).Contents (Elt Ideal)) :
    (⟨S64x128, .f32⟩ : BufTy).Contents (Elt Ideal) :=
  Host.scatterAdd scatter_S64x128_S50000x1_S50000x128_1_0_0_1
    (broadcastInDim S64x128 ![] bcast_S_S64x128 (constant (F := Ideal) S_ .f32 0x00000000#32))
    (broadcastInDim S50000x1 ![0] bcast_S50000_S50000x1_0 batch) h

/-- A node index below zero wrapped by the node count (the clamp-free form jnp indexing lowers to). -/
def wrap (s : (⟨S850000, .i32⟩ : BufTy).Contents (Elt Ideal)) : (⟨S850000, .i32⟩ : BufTy).Contents (Elt Ideal) :=
  select (cmpi .slt s (broadcastInDim S850000 ![] bcast_S_S850000 (constantI S_ 32 0#32)))
    (addi s (broadcastInDim S850000 ![] bcast_S_S850000 (constantI S_ 32 50000#32))) s

/-- The symmetric edge normalization: the inverse root degree at the source, the edge weight, the inverse root
    degree at the destination. -/
def normOf (dis : FVec Ideal S50000 .f32) (src dst : (⟨S850000, .i32⟩ : BufTy).Contents (Elt Ideal))
    (w : FVec Ideal S850000 .f32) : FVec Ideal S850000 .f32 :=
  mulf (F := Ideal) (mulf (F := Ideal) (Host.gather gather_S50000_S850000x1_S850000_n_0_n_n_0_1_1 dis (broadcastInDim S850000x1 ![0] bcast_S850000_S850000x1_0 (wrap src))) w)
    (Host.gather gather_S50000_S850000x1_S850000_n_0_n_n_0_1_1 dis (broadcastInDim S850000x1 ![0] bcast_S850000_S850000x1_0 (wrap dst)))

variable (V : Valuation τ sig (Elt Ideal))

/-! ## The three stretches before the first region

The first builds the edge lists with self loops, the edge weights with ones appended, the degrees and their
comparison and inverse roots; the second selects the inverse root where the degree is positive; the third gathers
it at both ends of every edge and slices the first weight. -/

set_option maxHeartbeats 4000000 in
theorem first_v5 : StableHlo.after (hostOps0 (F := Ideal)) V (Proc.devRef .tc main_v5) = val_main_v5 (F := Ideal) (V (Proc.devRef .tc main_arg1)) := by
  after_results_simp
  repeat (first
    | rw [nullary_result] | rw [unary_result] | rw [binary_result] | rw [ternary_result] | rw [quaternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide))
  rfl
set_option maxHeartbeats 4000000 in
theorem first_v6 : StableHlo.after (hostOps0 (F := Ideal)) V (Proc.devRef .tc main_v6) = val_main_v6 (F := Ideal) (V (Proc.devRef .tc main_arg1)) := by
  after_results_simp
  repeat (first
    | rw [nullary_result] | rw [unary_result] | rw [binary_result] | rw [ternary_result] | rw [quaternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide))
  rfl
set_option maxHeartbeats 4000000 in
theorem first_v8 : StableHlo.after (hostOps0 (F := Ideal)) V (Proc.devRef .tc main_v8) = val_main_v8 (F := Ideal) (V (Proc.devRef .tc main_arg2)) := by
  after_results_simp
  repeat (first
    | rw [nullary_result] | rw [unary_result] | rw [binary_result] | rw [ternary_result] | rw [quaternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide))
  rfl
set_option maxHeartbeats 4000000 in
theorem first_v13 : StableHlo.after (hostOps0 (F := Ideal)) V (Proc.devRef .tc main_v13) = val_main_v13 (F := Ideal) (V (Proc.devRef .tc main_arg1)) (V (Proc.devRef .tc main_arg2)) := by
  after_results_simp
  repeat (first
    | rw [nullary_result] | rw [unary_result] | rw [binary_result] | rw [ternary_result] | rw [quaternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide))
  rfl
set_option maxHeartbeats 4000000 in
theorem first_v14 : StableHlo.after (hostOps0 (F := Ideal)) V (Proc.devRef .tc main_v14) = val_main_v14 (F := Ideal) (V (Proc.devRef .tc main_arg1)) (V (Proc.devRef .tc main_arg2)) := by
  after_results_simp
  repeat (first
    | rw [nullary_result] | rw [unary_result] | rw [binary_result] | rw [ternary_result] | rw [quaternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide))
  rfl
theorem first_cst2 : StableHlo.after (hostOps0 (F := Ideal)) V (Proc.devRef .tc main_cst_2) = val_main_cst_2 (F := Ideal) := by
  after_results; rfl
theorem first_arg0 : StableHlo.after (hostOps0 (F := Ideal)) V (Proc.devRef .tc main_arg0) = (V (Proc.devRef .tc main_arg0)) := by after_results
theorem first_arg4 : StableHlo.after (hostOps0 (F := Ideal)) V (Proc.devRef .tc main_arg4) = (V (Proc.devRef .tc main_arg4)) := by after_results

/-- The inverse root degree where the degree is positive, zero elsewhere. -/
theorem second_v15 : StableHlo.after (hostOps0_1 (F := Ideal)) V (Proc.devRef .tc main_v15)
    = select (V (Proc.devRef .tc main_v13)) (V (Proc.devRef .tc main_v14)) (broadcastInDim S50000 ![] bcast_S_S50000 (V (Proc.devRef .tc main_cst_2))) := by
  after_results_simp <;> rfl
theorem second_keep_v5 : StableHlo.after (hostOps0_1 (F := Ideal)) V (Proc.devRef .tc main_v5) = (V (Proc.devRef .tc main_v5)) := by after_results
theorem second_keep_v6 : StableHlo.after (hostOps0_1 (F := Ideal)) V (Proc.devRef .tc main_v6) = (V (Proc.devRef .tc main_v6)) := by after_results
theorem second_keep_v8 : StableHlo.after (hostOps0_1 (F := Ideal)) V (Proc.devRef .tc main_v8) = (V (Proc.devRef .tc main_v8)) := by after_results
theorem second_keep_arg0 : StableHlo.after (hostOps0_1 (F := Ideal)) V (Proc.devRef .tc main_arg0) = (V (Proc.devRef .tc main_arg0)) := by after_results
theorem second_keep_arg4 : StableHlo.after (hostOps0_1 (F := Ideal)) V (Proc.devRef .tc main_arg4) = (V (Proc.devRef .tc main_arg4)) := by after_results

set_option maxHeartbeats 4000000 in
theorem third_v31 : StableHlo.after (hostOps0_2 (F := Ideal)) V (Proc.devRef .tc main_v31) = normOf (V (Proc.devRef .tc main_v15)) (V (Proc.devRef .tc main_v5)) (V (Proc.devRef .tc main_v6)) (V (Proc.devRef .tc main_v8)) := by
  after_results_simp <;> rfl
set_option maxHeartbeats 4000000 in
theorem third_v33 : StableHlo.after (hostOps0_2 (F := Ideal)) V (Proc.devRef .tc main_v33) = val_main_v33 (F := Ideal) (V (Proc.devRef .tc main_arg4)) := by
  after_results_simp <;> rfl
theorem third_keep_v5 : StableHlo.after (hostOps0_2 (F := Ideal)) V (Proc.devRef .tc main_v5) = (V (Proc.devRef .tc main_v5)) := by after_results
theorem third_keep_v6 : StableHlo.after (hostOps0_2 (F := Ideal)) V (Proc.devRef .tc main_v6) = (V (Proc.devRef .tc main_v6)) := by after_results
theorem third_keep_arg0 : StableHlo.after (hostOps0_2 (F := Ideal)) V (Proc.devRef .tc main_arg0) = (V (Proc.devRef .tc main_arg0)) := by after_results

/-- The reference's selected inverse root degree is the same term of its comparison and inverse roots. -/
theorem ref_v15 (x1 : (⟨S2x800000, .i32⟩ : BufTy).Contents (Elt Ideal)) (x2 : (⟨S800000, .f32⟩ : BufTy).Contents (Elt Ideal)) :
    val_main_v15 (F := Ideal) x1 x2 = select (val_main_v13 (F := Ideal) x1 x2) (val_main_v14 (F := Ideal) x1 x2)
      (broadcastInDim S50000 ![] bcast_S_S50000 (val_main_cst_2 (F := Ideal))) := rfl
/-- The reference's edge normalization is the same term of its pieces. -/
theorem ref_v31 (x1 : (⟨S2x800000, .i32⟩ : BufTy).Contents (Elt Ideal)) (x2 : (⟨S800000, .f32⟩ : BufTy).Contents (Elt Ideal)) :
    val_main_v31 (F := Ideal) x1 x2 = normOf (val_main_v15 (F := Ideal) x1 x2) (val_main_v5 (F := Ideal) x1) (val_main_v6 (F := Ideal) x1) (val_main_v8 (F := Ideal) x2) := rfl

/-! ## Layer 0 -/

set_option maxHeartbeats 4000000 in
theorem agg0_eq : StableHlo.after (hostOps1 (F := Ideal)) V (Proc.devRef .tc main_v47)
    = aggregate (V (Proc.devRef .tc main_v34)) (V (Proc.devRef .tc main_v5)) (V (Proc.devRef .tc main_v6)) (V (Proc.devRef .tc main_v31)) := by
  after_results_simp <;> rfl
set_option maxHeartbeats 4000000 in
theorem row0_0_eq : StableHlo.after (hostOps1 (F := Ideal)) V (Proc.devRef .tc main_v58) = val_main_v34 (F := Ideal) (V (Proc.devRef .tc main_arg5)) := by
  after_results_simp
  exact shapeCast_shapeCast _ _ _
set_option maxHeartbeats 4000000 in
theorem row0_1_eq : StableHlo.after (hostOps1 (F := Ideal)) V (Proc.devRef .tc main_v59) = val_main_v67 (F := Ideal) (V (Proc.devRef .tc main_arg6)) := by
  after_results_simp
  exact shapeCast_shapeCast _ _ _
set_option maxHeartbeats 4000000 in
theorem row0_2_eq : StableHlo.after (hostOps1 (F := Ideal)) V (Proc.devRef .tc main_v60) = val_main_v72 (F := Ideal) (V (Proc.devRef .tc main_arg7)) := by
  after_results_simp
  exact shapeCast_shapeCast _ _ _
set_option maxHeartbeats 4000000 in
theorem row0_3_eq : StableHlo.after (hostOps1 (F := Ideal)) V (Proc.devRef .tc main_v61) = val_main_v54 (F := Ideal) (V (Proc.devRef .tc main_arg8)) := by
  after_results_simp
  exact shapeCast_shapeCast _ _ _
set_option maxHeartbeats 4000000 in
theorem row0_4_eq : StableHlo.after (hostOps1 (F := Ideal)) V (Proc.devRef .tc main_v62) = val_main_v59 (F := Ideal) (V (Proc.devRef .tc main_arg9)) := by
  after_results_simp
  exact shapeCast_shapeCast _ _ _

/-- The reference's aggregated rows of layer 0 are the same term of its transformed rows. -/
theorem ref_agg0 (x0 : (⟨S50000x128, .f32⟩ : BufTy).Contents (Elt Ideal)) (x1 : (⟨S2x800000, .i32⟩ : BufTy).Contents (Elt Ideal))
    (x2 : (⟨S800000, .f32⟩ : BufTy).Contents (Elt Ideal)) (x4 : (⟨S5x128x128, .f32⟩ : BufTy).Contents (Elt Ideal)) (x5 x6 x7 x8 x9 : (⟨S5x128, .f32⟩ : BufTy).Contents (Elt Ideal)) :
    val_main_v49 (F := Ideal) x0 x1 x2 x4 = aggregate (val_main_v36 (F := Ideal) x0 x4) (val_main_v5 (F := Ideal) x1) (val_main_v6 (F := Ideal) x1) (val_main_v31 (F := Ideal) x1 x2) := rfl

/-! ## Layer 1 -/

theorem weight1_eq : StableHlo.after (hostOps2 (F := Ideal)) V (Proc.devRef .tc main_v65) = val_main_v78 (F := Ideal) (V (Proc.devRef .tc main_arg4)) := by
  after_results; rfl
theorem prev1_eq : StableHlo.after (hostOps2 (F := Ideal)) V (Proc.devRef .tc main_v63) = V (Proc.devRef .tc main_v63) := by
  after_results

set_option maxHeartbeats 4000000 in
theorem agg1_eq : StableHlo.after (hostOps3 (F := Ideal)) V (Proc.devRef .tc main_v79)
    = aggregate (V (Proc.devRef .tc main_v66)) (V (Proc.devRef .tc main_v5)) (V (Proc.devRef .tc main_v6)) (V (Proc.devRef .tc main_v31)) := by
  after_results_simp <;> rfl
set_option maxHeartbeats 4000000 in
theorem row1_0_eq : StableHlo.after (hostOps3 (F := Ideal)) V (Proc.devRef .tc main_v90) = val_main_v79 (F := Ideal) (V (Proc.devRef .tc main_arg5)) := by
  after_results_simp
  exact shapeCast_shapeCast _ _ _
set_option maxHeartbeats 4000000 in
theorem row1_1_eq : StableHlo.after (hostOps3 (F := Ideal)) V (Proc.devRef .tc main_v91) = val_main_v112 (F := Ideal) (V (Proc.devRef .tc main_arg6)) := by
  after_results_simp
  exact shapeCast_shapeCast _ _ _
set_option maxHeartbeats 4000000 in
theorem row1_2_eq : StableHlo.after (hostOps3 (F := Ideal)) V (Proc.devRef .tc main_v92) = val_main_v117 (F := Ideal) (V (Proc.devRef .tc main_arg7)) := by
  after_results_simp
  exact shapeCast_shapeCast _ _ _
set_option maxHeartbeats 4000000 in
theorem row1_3_eq : StableHlo.after (hostOps3 (F := Ideal)) V (Proc.devRef .tc main_v93) = val_main_v99 (F := Ideal) (V (Proc.devRef .tc main_arg8)) := by
  after_results_simp
  exact shapeCast_shapeCast _ _ _
set_option maxHeartbeats 4000000 in
theorem row1_4_eq : StableHlo.after (hostOps3 (F := Ideal)) V (Proc.devRef .tc main_v94) = val_main_v104 (F := Ideal) (V (Proc.devRef .tc main_arg9)) := by
  after_results_simp
  exact shapeCast_shapeCast _ _ _

/-- The reference's aggregated rows of layer 1 are the same term of its transformed rows. -/
theorem ref_agg1 (x0 : (⟨S50000x128, .f32⟩ : BufTy).Contents (Elt Ideal)) (x1 : (⟨S2x800000, .i32⟩ : BufTy).Contents (Elt Ideal))
    (x2 : (⟨S800000, .f32⟩ : BufTy).Contents (Elt Ideal)) (x4 : (⟨S5x128x128, .f32⟩ : BufTy).Contents (Elt Ideal)) (x5 x6 x7 x8 x9 : (⟨S5x128, .f32⟩ : BufTy).Contents (Elt Ideal)) :
    val_main_v94 (F := Ideal) x0 x1 x2 x4 x5 x6 x7 x8 x9 = aggregate (val_main_v81 (F := Ideal) x0 x1 x2 x4 x5 x6 x7 x8 x9) (val_main_v5 (F := Ideal) x1) (val_main_v6 (F := Ideal) x1) (val_main_v31 (F := Ideal) x1 x2) := rfl

/-! ## Layer 2 -/

theorem weight2_eq : StableHlo.after (hostOps4 (F := Ideal)) V (Proc.devRef .tc main_v97) = val_main_v123 (F := Ideal) (V (Proc.devRef .tc main_arg4)) := by
  after_results; rfl
theorem prev2_eq : StableHlo.after (hostOps4 (F := Ideal)) V (Proc.devRef .tc main_v95) = V (Proc.devRef .tc main_v95) := by
  after_results

set_option maxHeartbeats 4000000 in
theorem agg2_eq : StableHlo.after (hostOps5 (F := Ideal)) V (Proc.devRef .tc main_v111)
    = aggregate (V (Proc.devRef .tc main_v98)) (V (Proc.devRef .tc main_v5)) (V (Proc.devRef .tc main_v6)) (V (Proc.devRef .tc main_v31)) := by
  after_results_simp <;> rfl
set_option maxHeartbeats 4000000 in
theorem row2_0_eq : StableHlo.after (hostOps5 (F := Ideal)) V (Proc.devRef .tc main_v122) = val_main_v124 (F := Ideal) (V (Proc.devRef .tc main_arg5)) := by
  after_results_simp
  exact shapeCast_shapeCast _ _ _
set_option maxHeartbeats 4000000 in
theorem row2_1_eq : StableHlo.after (hostOps5 (F := Ideal)) V (Proc.devRef .tc main_v123) = val_main_v157 (F := Ideal) (V (Proc.devRef .tc main_arg6)) := by
  after_results_simp
  exact shapeCast_shapeCast _ _ _
set_option maxHeartbeats 4000000 in
theorem row2_2_eq : StableHlo.after (hostOps5 (F := Ideal)) V (Proc.devRef .tc main_v124) = val_main_v162 (F := Ideal) (V (Proc.devRef .tc main_arg7)) := by
  after_results_simp
  exact shapeCast_shapeCast _ _ _
set_option maxHeartbeats 4000000 in
theorem row2_3_eq : StableHlo.after (hostOps5 (F := Ideal)) V (Proc.devRef .tc main_v125) = val_main_v144 (F := Ideal) (V (Proc.devRef .tc main_arg8)) := by
  after_results_simp
  exact shapeCast_shapeCast _ _ _
set_option maxHeartbeats 4000000 in
theorem row2_4_eq : StableHlo.after (hostOps5 (F := Ideal)) V (Proc.devRef .tc main_v126) = val_main_v149 (F := Ideal) (V (Proc.devRef .tc main_arg9)) := by
  after_results_simp
  exact shapeCast_shapeCast _ _ _

/-- The reference's aggregated rows of layer 2 are the same term of its transformed rows. -/
theorem ref_agg2 (x0 : (⟨S50000x128, .f32⟩ : BufTy).Contents (Elt Ideal)) (x1 : (⟨S2x800000, .i32⟩ : BufTy).Contents (Elt Ideal))
    (x2 : (⟨S800000, .f32⟩ : BufTy).Contents (Elt Ideal)) (x4 : (⟨S5x128x128, .f32⟩ : BufTy).Contents (Elt Ideal)) (x5 x6 x7 x8 x9 : (⟨S5x128, .f32⟩ : BufTy).Contents (Elt Ideal)) :
    val_main_v139 (F := Ideal) x0 x1 x2 x4 x5 x6 x7 x8 x9 = aggregate (val_main_v126 (F := Ideal) x0 x1 x2 x4 x5 x6 x7 x8 x9) (val_main_v5 (F := Ideal) x1) (val_main_v6 (F := Ideal) x1) (val_main_v31 (F := Ideal) x1 x2) := rfl

/-! ## Layer 3 -/

theorem weight3_eq : StableHlo.after (hostOps6 (F := Ideal)) V (Proc.devRef .tc main_v129) = val_main_v168 (F := Ideal) (V (Proc.devRef .tc main_arg4)) := by
  after_results; rfl
theorem prev3_eq : StableHlo.after (hostOps6 (F := Ideal)) V (Proc.devRef .tc main_v127) = V (Proc.devRef .tc main_v127) := by
  after_results

set_option maxHeartbeats 4000000 in
theorem agg3_eq : StableHlo.after (hostOps7 (F := Ideal)) V (Proc.devRef .tc main_v143)
    = aggregate (V (Proc.devRef .tc main_v130)) (V (Proc.devRef .tc main_v5)) (V (Proc.devRef .tc main_v6)) (V (Proc.devRef .tc main_v31)) := by
  after_results_simp <;> rfl
set_option maxHeartbeats 4000000 in
theorem row3_0_eq : StableHlo.after (hostOps7 (F := Ideal)) V (Proc.devRef .tc main_v154) = val_main_v169 (F := Ideal) (V (Proc.devRef .tc main_arg5)) := by
  after_results_simp
  exact shapeCast_shapeCast _ _ _
set_option maxHeartbeats 4000000 in
theorem row3_1_eq : StableHlo.after (hostOps7 (F := Ideal)) V (Proc.devRef .tc main_v155) = val_main_v201 (F := Ideal) (V (Proc.devRef .tc main_arg6)) := by
  after_results_simp
  exact shapeCast_shapeCast _ _ _
set_option maxHeartbeats 4000000 in
theorem row3_2_eq : StableHlo.after (hostOps7 (F := Ideal)) V (Proc.devRef .tc main_v156) = val_main_v206 (F := Ideal) (V (Proc.devRef .tc main_arg7)) := by
  after_results_simp
  exact shapeCast_shapeCast _ _ _
set_option maxHeartbeats 4000000 in
theorem row3_3_eq : StableHlo.after (hostOps7 (F := Ideal)) V (Proc.devRef .tc main_v157) = val_main_v188 (F := Ideal) (V (Proc.devRef .tc main_arg8)) := by
  after_results_simp
  exact shapeCast_shapeCast _ _ _
set_option maxHeartbeats 4000000 in
theorem row3_4_eq : StableHlo.after (hostOps7 (F := Ideal)) V (Proc.devRef .tc main_v158) = val_main_v193 (F := Ideal) (V (Proc.devRef .tc main_arg9)) := by
  after_results_simp
  exact shapeCast_shapeCast _ _ _

/-- The reference's aggregated rows of layer 3 are the same term of its transformed rows. -/
theorem ref_agg3 (x0 : (⟨S50000x128, .f32⟩ : BufTy).Contents (Elt Ideal)) (x1 : (⟨S2x800000, .i32⟩ : BufTy).Contents (Elt Ideal))
    (x2 : (⟨S800000, .f32⟩ : BufTy).Contents (Elt Ideal)) (x4 : (⟨S5x128x128, .f32⟩ : BufTy).Contents (Elt Ideal)) (x5 x6 x7 x8 x9 : (⟨S5x128, .f32⟩ : BufTy).Contents (Elt Ideal)) :
    val_main_v184 (F := Ideal) x0 x1 x2 x4 x5 x6 x7 x8 x9 = aggregate (val_main_v171 (F := Ideal) x0 x1 x2 x4 x5 x6 x7 x8 x9) (val_main_v5 (F := Ideal) x1) (val_main_v6 (F := Ideal) x1) (val_main_v31 (F := Ideal) x1 x2) := rfl

/-! ## Layer 4 -/

theorem weight4_eq : StableHlo.after (hostOps8 (F := Ideal)) V (Proc.devRef .tc main_v161) = val_main_v213 (F := Ideal) (V (Proc.devRef .tc main_arg4)) := by
  after_results; rfl
theorem prev4_eq : StableHlo.after (hostOps8 (F := Ideal)) V (Proc.devRef .tc main_v159) = V (Proc.devRef .tc main_v159) := by
  after_results

set_option maxHeartbeats 4000000 in
theorem agg4_eq : StableHlo.after (hostOps9 (F := Ideal)) V (Proc.devRef .tc main_v175)
    = aggregate (V (Proc.devRef .tc main_v162)) (V (Proc.devRef .tc main_v5)) (V (Proc.devRef .tc main_v6)) (V (Proc.devRef .tc main_v31)) := by
  after_results_simp <;> rfl
set_option maxHeartbeats 4000000 in
theorem row4_0_eq : StableHlo.after (hostOps9 (F := Ideal)) V (Proc.devRef .tc main_v186) = val_main_v214 (F := Ideal) (V (Proc.devRef .tc main_arg5)) := by
  after_results_simp
  exact shapeCast_shapeCast _ _ _
set_option maxHeartbeats 4000000 in
theorem row4_1_eq : StableHlo.after (hostOps9 (F := Ideal)) V (Proc.devRef .tc main_v187) = val_main_v246 (F := Ideal) (V (Proc.devRef .tc main_arg6)) := by
  after_results_simp
  exact shapeCast_shapeCast _ _ _
set_option maxHeartbeats 4000000 in
theorem row4_2_eq : StableHlo.after (hostOps9 (F := Ideal)) V (Proc.devRef .tc main_v188) = val_main_v251 (F := Ideal) (V (Proc.devRef .tc main_arg7)) := by
  after_results_simp
  exact shapeCast_shapeCast _ _ _
set_option maxHeartbeats 4000000 in
theorem row4_3_eq : StableHlo.after (hostOps9 (F := Ideal)) V (Proc.devRef .tc main_v189) = val_main_v233 (F := Ideal) (V (Proc.devRef .tc main_arg8)) := by
  after_results_simp
  exact shapeCast_shapeCast _ _ _
set_option maxHeartbeats 4000000 in
theorem row4_4_eq : StableHlo.after (hostOps9 (F := Ideal)) V (Proc.devRef .tc main_v190) = val_main_v238 (F := Ideal) (V (Proc.devRef .tc main_arg9)) := by
  after_results_simp
  exact shapeCast_shapeCast _ _ _

/-- The reference's aggregated rows of layer 4 are the same term of its transformed rows. -/
theorem ref_agg4 (x0 : (⟨S50000x128, .f32⟩ : BufTy).Contents (Elt Ideal)) (x1 : (⟨S2x800000, .i32⟩ : BufTy).Contents (Elt Ideal))
    (x2 : (⟨S800000, .f32⟩ : BufTy).Contents (Elt Ideal)) (x4 : (⟨S5x128x128, .f32⟩ : BufTy).Contents (Elt Ideal)) (x5 x6 x7 x8 x9 : (⟨S5x128, .f32⟩ : BufTy).Contents (Elt Ideal)) :
    val_main_v229 (F := Ideal) x0 x1 x2 x4 x5 x6 x7 x8 x9 = aggregate (val_main_v216 (F := Ideal) x0 x1 x2 x4 x5 x6 x7 x8 x9) (val_main_v5 (F := Ideal) x1) (val_main_v6 (F := Ideal) x1) (val_main_v31 (F := Ideal) x1 x2) := rfl

/-! ## The pooling and the head's bias rows -/

theorem pool_eq : StableHlo.after (hostOps10 (F := Ideal)) V (Proc.devRef .tc main_v194) = pool (V (Proc.devRef .tc main_v191)) (V (Proc.devRef .tc main_arg3)) := by
  after_results; rfl
theorem bias1_eq : StableHlo.after (hostOps10 (F := Ideal)) V (Proc.devRef .tc main_v195) = shapeCast S1x128 (V (Proc.devRef .tc main_arg11)) shapeCasts_S128_S1x128 := by
  after_results; rfl
theorem bias2_eq : StableHlo.after (hostOps10 (F := Ideal)) V (Proc.devRef .tc main_v196) = shapeCast S1x20 (V (Proc.devRef .tc main_arg13)) shapeCasts_S20_S1x20 := by
  after_results; rfl
theorem fc1_eq : StableHlo.after (hostOps10 (F := Ideal)) V (Proc.devRef .tc main_arg10) = V (Proc.devRef .tc main_arg10) := by
  after_results
theorem fc2_eq : StableHlo.after (hostOps10 (F := Ideal)) V (Proc.devRef .tc main_arg12) = V (Proc.devRef .tc main_arg12) := by
  after_results

/-- The reference's pooled rows are the same term of its last layer's rows. -/
theorem ref_pool (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S50000, .i32⟩ : BufTy).Contents (Elt Ideal)) (x4 : (⟨S5x128x128, .f32⟩ : BufTy).Contents (Elt Ideal)) (x5 x6 x7 x8 x9 : (⟨S5x128, .f32⟩ : BufTy).Contents (Elt Ideal)) :
    val_main_v258 (F := Ideal) x0 x1 x2 x3 x4 x5 x6 x7 x8 x9 = pool (val_main_v255 (F := Ideal) x0 x1 x2 x4 x5 x6 x7 x8 x9) x3 := rfl

end Cert.KernelIdeal.HostStretch

end
-- ==== Proof.CarryA.lean ====
/-
  The stacked weights and the five stacked layer parameters are written by no host operation and by no region,
  so at every segment boundary up to their last use their buffers hold the launch contents: one step per boundary.
-/
import proofs.«125410_j42923903156343_1_alg».proof.Proof.Gen.KernelIdeal.Frame

set_option maxRecDepth 16384

noncomputable section

namespace Cert.KernelIdeal.CarryA

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg) (c : Dev nD)

/-- No operation of the stretch writes the buffer, so the stretch leaves it as it was: each operation's written
    buffer is another one, decided buffer by buffer. -/
macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ### Argument 0 -/

theorem arg0_0 : W0 m ρ c (Proc.devRef .tc main_arg0) = m ((c : Thread nD τ).loc main_arg0) := rfl
theorem arg0_1 : W1 m ρ c (Proc.devRef .tc main_arg0) = m ((c : Thread nD τ).loc main_arg0) :=
  (by host_keep hostOps0 : W1 m ρ c (Proc.devRef .tc main_arg0) = W0 m ρ c (Proc.devRef .tc main_arg0)).trans (arg0_0 m ρ c)
theorem arg0_2 : W2 m ρ c (Proc.devRef .tc main_arg0) = m ((c : Thread nD τ).loc main_arg0) :=
  (by host_keep hostOps0_1 : W2 m ρ c (Proc.devRef .tc main_arg0) = W1 m ρ c (Proc.devRef .tc main_arg0)).trans (arg0_1 m ρ c)
theorem arg0_3 : W3 m ρ c (Proc.devRef .tc main_arg0) = m ((c : Thread nD τ).loc main_arg0) :=
  (by host_keep hostOps0_2 : W3 m ρ c (Proc.devRef .tc main_arg0) = W2 m ρ c (Proc.devRef .tc main_arg0)).trans (arg0_2 m ρ c)

/-! ### Argument 4 -/

theorem arg4_0 : W0 m ρ c (Proc.devRef .tc main_arg4) = m ((c : Thread nD τ).loc main_arg4) := rfl
theorem arg4_1 : W1 m ρ c (Proc.devRef .tc main_arg4) = m ((c : Thread nD τ).loc main_arg4) :=
  (by host_keep hostOps0 : W1 m ρ c (Proc.devRef .tc main_arg4) = W0 m ρ c (Proc.devRef .tc main_arg4)).trans (arg4_0 m ρ c)
theorem arg4_2 : W2 m ρ c (Proc.devRef .tc main_arg4) = m ((c : Thread nD τ).loc main_arg4) :=
  (by host_keep hostOps0_1 : W2 m ρ c (Proc.devRef .tc main_arg4) = W1 m ρ c (Proc.devRef .tc main_arg4)).trans (arg4_1 m ρ c)
theorem arg4_3 : W3 m ρ c (Proc.devRef .tc main_arg4) = m ((c : Thread nD τ).loc main_arg4) :=
  (by host_keep hostOps0_2 : W3 m ρ c (Proc.devRef .tc main_arg4) = W2 m ρ c (Proc.devRef .tc main_arg4)).trans (arg4_2 m ρ c)
theorem arg4_4 : W4 m ρ c (Proc.devRef .tc main_arg4) = m ((c : Thread nD τ).loc main_arg4) :=
  (W4_of_ne m ρ c main_arg4 (by decide)).trans (arg4_3 m ρ c)
theorem arg4_5 : W5 m ρ c (Proc.devRef .tc main_arg4) = m ((c : Thread nD τ).loc main_arg4) :=
  (by host_keep hostOps1 : W5 m ρ c (Proc.devRef .tc main_arg4) = W4 m ρ c (Proc.devRef .tc main_arg4)).trans (arg4_4 m ρ c)
theorem arg4_6 : W6 m ρ c (Proc.devRef .tc main_arg4) = m ((c : Thread nD τ).loc main_arg4) :=
  (W6_of_ne m ρ c main_arg4 (by decide)).trans (arg4_5 m ρ c)
theorem arg4_7 : W7 m ρ c (Proc.devRef .tc main_arg4) = m ((c : Thread nD τ).loc main_arg4) :=
  (by host_keep hostOps2 : W7 m ρ c (Proc.devRef .tc main_arg4) = W6 m ρ c (Proc.devRef .tc main_arg4)).trans (arg4_6 m ρ c)
theorem arg4_8 : W8 m ρ c (Proc.devRef .tc main_arg4) = m ((c : Thread nD τ).loc main_arg4) :=
  (W8_of_ne m ρ c main_arg4 (by decide)).trans (arg4_7 m ρ c)
theorem arg4_9 : W9 m ρ c (Proc.devRef .tc main_arg4) = m ((c : Thread nD τ).loc main_arg4) :=
  (by host_keep hostOps3 : W9 m ρ c (Proc.devRef .tc main_arg4) = W8 m ρ c (Proc.devRef .tc main_arg4)).trans (arg4_8 m ρ c)
theorem arg4_10 : W10 m ρ c (Proc.devRef .tc main_arg4) = m ((c : Thread nD τ).loc main_arg4) :=
  (W10_of_ne m ρ c main_arg4 (by decide)).trans (arg4_9 m ρ c)
theorem arg4_11 : W11 m ρ c (Proc.devRef .tc main_arg4) = m ((c : Thread nD τ).loc main_arg4) :=
  (by host_keep hostOps4 : W11 m ρ c (Proc.devRef .tc main_arg4) = W10 m ρ c (Proc.devRef .tc main_arg4)).trans (arg4_10 m ρ c)
theorem arg4_12 : W12 m ρ c (Proc.devRef .tc main_arg4) = m ((c : Thread nD τ).loc main_arg4) :=
  (W12_of_ne m ρ c main_arg4 (by decide)).trans (arg4_11 m ρ c)
theorem arg4_13 : W13 m ρ c (Proc.devRef .tc main_arg4) = m ((c : Thread nD τ).loc main_arg4) :=
  (by host_keep hostOps5 : W13 m ρ c (Proc.devRef .tc main_arg4) = W12 m ρ c (Proc.devRef .tc main_arg4)).trans (arg4_12 m ρ c)
theorem arg4_14 : W14 m ρ c (Proc.devRef .tc main_arg4) = m ((c : Thread nD τ).loc main_arg4) :=
  (W14_of_ne m ρ c main_arg4 (by decide)).trans (arg4_13 m ρ c)
theorem arg4_15 : W15 m ρ c (Proc.devRef .tc main_arg4) = m ((c : Thread nD τ).loc main_arg4) :=
  (by host_keep hostOps6 : W15 m ρ c (Proc.devRef .tc main_arg4) = W14 m ρ c (Proc.devRef .tc main_arg4)).trans (arg4_14 m ρ c)
theorem arg4_16 : W16 m ρ c (Proc.devRef .tc main_arg4) = m ((c : Thread nD τ).loc main_arg4) :=
  (W16_of_ne m ρ c main_arg4 (by decide)).trans (arg4_15 m ρ c)
theorem arg4_17 : W17 m ρ c (Proc.devRef .tc main_arg4) = m ((c : Thread nD τ).loc main_arg4) :=
  (by host_keep hostOps7 : W17 m ρ c (Proc.devRef .tc main_arg4) = W16 m ρ c (Proc.devRef .tc main_arg4)).trans (arg4_16 m ρ c)
theorem arg4_18 : W18 m ρ c (Proc.devRef .tc main_arg4) = m ((c : Thread nD τ).loc main_arg4) :=
  (W18_of_ne m ρ c main_arg4 (by decide)).trans (arg4_17 m ρ c)

/-! ### Argument 5 -/

theorem arg5_0 : W0 m ρ c (Proc.devRef .tc main_arg5) = m ((c : Thread nD τ).loc main_arg5) := rfl
theorem arg5_1 : W1 m ρ c (Proc.devRef .tc main_arg5) = m ((c : Thread nD τ).loc main_arg5) :=
  (by host_keep hostOps0 : W1 m ρ c (Proc.devRef .tc main_arg5) = W0 m ρ c (Proc.devRef .tc main_arg5)).trans (arg5_0 m ρ c)
theorem arg5_2 : W2 m ρ c (Proc.devRef .tc main_arg5) = m ((c : Thread nD τ).loc main_arg5) :=
  (by host_keep hostOps0_1 : W2 m ρ c (Proc.devRef .tc main_arg5) = W1 m ρ c (Proc.devRef .tc main_arg5)).trans (arg5_1 m ρ c)
theorem arg5_3 : W3 m ρ c (Proc.devRef .tc main_arg5) = m ((c : Thread nD τ).loc main_arg5) :=
  (by host_keep hostOps0_2 : W3 m ρ c (Proc.devRef .tc main_arg5) = W2 m ρ c (Proc.devRef .tc main_arg5)).trans (arg5_2 m ρ c)
theorem arg5_4 : W4 m ρ c (Proc.devRef .tc main_arg5) = m ((c : Thread nD τ).loc main_arg5) :=
  (W4_of_ne m ρ c main_arg5 (by decide)).trans (arg5_3 m ρ c)
theorem arg5_5 : W5 m ρ c (Proc.devRef .tc main_arg5) = m ((c : Thread nD τ).loc main_arg5) :=
  (by host_keep hostOps1 : W5 m ρ c (Proc.devRef .tc main_arg5) = W4 m ρ c (Proc.devRef .tc main_arg5)).trans (arg5_4 m ρ c)
theorem arg5_6 : W6 m ρ c (Proc.devRef .tc main_arg5) = m ((c : Thread nD τ).loc main_arg5) :=
  (W6_of_ne m ρ c main_arg5 (by decide)).trans (arg5_5 m ρ c)
theorem arg5_7 : W7 m ρ c (Proc.devRef .tc main_arg5) = m ((c : Thread nD τ).loc main_arg5) :=
  (by host_keep hostOps2 : W7 m ρ c (Proc.devRef .tc main_arg5) = W6 m ρ c (Proc.devRef .tc main_arg5)).trans (arg5_6 m ρ c)
theorem arg5_8 : W8 m ρ c (Proc.devRef .tc main_arg5) = m ((c : Thread nD τ).loc main_arg5) :=
  (W8_of_ne m ρ c main_arg5 (by decide)).trans (arg5_7 m ρ c)
theorem arg5_9 : W9 m ρ c (Proc.devRef .tc main_arg5) = m ((c : Thread nD τ).loc main_arg5) :=
  (by host_keep hostOps3 : W9 m ρ c (Proc.devRef .tc main_arg5) = W8 m ρ c (Proc.devRef .tc main_arg5)).trans (arg5_8 m ρ c)
theorem arg5_10 : W10 m ρ c (Proc.devRef .tc main_arg5) = m ((c : Thread nD τ).loc main_arg5) :=
  (W10_of_ne m ρ c main_arg5 (by decide)).trans (arg5_9 m ρ c)
theorem arg5_11 : W11 m ρ c (Proc.devRef .tc main_arg5) = m ((c : Thread nD τ).loc main_arg5) :=
  (by host_keep hostOps4 : W11 m ρ c (Proc.devRef .tc main_arg5) = W10 m ρ c (Proc.devRef .tc main_arg5)).trans (arg5_10 m ρ c)
theorem arg5_12 : W12 m ρ c (Proc.devRef .tc main_arg5) = m ((c : Thread nD τ).loc main_arg5) :=
  (W12_of_ne m ρ c main_arg5 (by decide)).trans (arg5_11 m ρ c)
theorem arg5_13 : W13 m ρ c (Proc.devRef .tc main_arg5) = m ((c : Thread nD τ).loc main_arg5) :=
  (by host_keep hostOps5 : W13 m ρ c (Proc.devRef .tc main_arg5) = W12 m ρ c (Proc.devRef .tc main_arg5)).trans (arg5_12 m ρ c)
theorem arg5_14 : W14 m ρ c (Proc.devRef .tc main_arg5) = m ((c : Thread nD τ).loc main_arg5) :=
  (W14_of_ne m ρ c main_arg5 (by decide)).trans (arg5_13 m ρ c)
theorem arg5_15 : W15 m ρ c (Proc.devRef .tc main_arg5) = m ((c : Thread nD τ).loc main_arg5) :=
  (by host_keep hostOps6 : W15 m ρ c (Proc.devRef .tc main_arg5) = W14 m ρ c (Proc.devRef .tc main_arg5)).trans (arg5_14 m ρ c)
theorem arg5_16 : W16 m ρ c (Proc.devRef .tc main_arg5) = m ((c : Thread nD τ).loc main_arg5) :=
  (W16_of_ne m ρ c main_arg5 (by decide)).trans (arg5_15 m ρ c)
theorem arg5_17 : W17 m ρ c (Proc.devRef .tc main_arg5) = m ((c : Thread nD τ).loc main_arg5) :=
  (by host_keep hostOps7 : W17 m ρ c (Proc.devRef .tc main_arg5) = W16 m ρ c (Proc.devRef .tc main_arg5)).trans (arg5_16 m ρ c)
theorem arg5_18 : W18 m ρ c (Proc.devRef .tc main_arg5) = m ((c : Thread nD τ).loc main_arg5) :=
  (W18_of_ne m ρ c main_arg5 (by decide)).trans (arg5_17 m ρ c)
theorem arg5_19 : W19 m ρ c (Proc.devRef .tc main_arg5) = m ((c : Thread nD τ).loc main_arg5) :=
  (by host_keep hostOps8 : W19 m ρ c (Proc.devRef .tc main_arg5) = W18 m ρ c (Proc.devRef .tc main_arg5)).trans (arg5_18 m ρ c)
theorem arg5_20 : W20 m ρ c (Proc.devRef .tc main_arg5) = m ((c : Thread nD τ).loc main_arg5) :=
  (W20_of_ne m ρ c main_arg5 (by decide)).trans (arg5_19 m ρ c)

/-! ### Argument 6 -/

theorem arg6_0 : W0 m ρ c (Proc.devRef .tc main_arg6) = m ((c : Thread nD τ).loc main_arg6) := rfl
theorem arg6_1 : W1 m ρ c (Proc.devRef .tc main_arg6) = m ((c : Thread nD τ).loc main_arg6) :=
  (by host_keep hostOps0 : W1 m ρ c (Proc.devRef .tc main_arg6) = W0 m ρ c (Proc.devRef .tc main_arg6)).trans (arg6_0 m ρ c)
theorem arg6_2 : W2 m ρ c (Proc.devRef .tc main_arg6) = m ((c : Thread nD τ).loc main_arg6) :=
  (by host_keep hostOps0_1 : W2 m ρ c (Proc.devRef .tc main_arg6) = W1 m ρ c (Proc.devRef .tc main_arg6)).trans (arg6_1 m ρ c)
theorem arg6_3 : W3 m ρ c (Proc.devRef .tc main_arg6) = m ((c : Thread nD τ).loc main_arg6) :=
  (by host_keep hostOps0_2 : W3 m ρ c (Proc.devRef .tc main_arg6) = W2 m ρ c (Proc.devRef .tc main_arg6)).trans (arg6_2 m ρ c)
theorem arg6_4 : W4 m ρ c (Proc.devRef .tc main_arg6) = m ((c : Thread nD τ).loc main_arg6) :=
  (W4_of_ne m ρ c main_arg6 (by decide)).trans (arg6_3 m ρ c)
theorem arg6_5 : W5 m ρ c (Proc.devRef .tc main_arg6) = m ((c : Thread nD τ).loc main_arg6) :=
  (by host_keep hostOps1 : W5 m ρ c (Proc.devRef .tc main_arg6) = W4 m ρ c (Proc.devRef .tc main_arg6)).trans (arg6_4 m ρ c)
theorem arg6_6 : W6 m ρ c (Proc.devRef .tc main_arg6) = m ((c : Thread nD τ).loc main_arg6) :=
  (W6_of_ne m ρ c main_arg6 (by decide)).trans (arg6_5 m ρ c)
theorem arg6_7 : W7 m ρ c (Proc.devRef .tc main_arg6) = m ((c : Thread nD τ).loc main_arg6) :=
  (by host_keep hostOps2 : W7 m ρ c (Proc.devRef .tc main_arg6) = W6 m ρ c (Proc.devRef .tc main_arg6)).trans (arg6_6 m ρ c)
theorem arg6_8 : W8 m ρ c (Proc.devRef .tc main_arg6) = m ((c : Thread nD τ).loc main_arg6) :=
  (W8_of_ne m ρ c main_arg6 (by decide)).trans (arg6_7 m ρ c)
theorem arg6_9 : W9 m ρ c (Proc.devRef .tc main_arg6) = m ((c : Thread nD τ).loc main_arg6) :=
  (by host_keep hostOps3 : W9 m ρ c (Proc.devRef .tc main_arg6) = W8 m ρ c (Proc.devRef .tc main_arg6)).trans (arg6_8 m ρ c)
theorem arg6_10 : W10 m ρ c (Proc.devRef .tc main_arg6) = m ((c : Thread nD τ).loc main_arg6) :=
  (W10_of_ne m ρ c main_arg6 (by decide)).trans (arg6_9 m ρ c)
theorem arg6_11 : W11 m ρ c (Proc.devRef .tc main_arg6) = m ((c : Thread nD τ).loc main_arg6) :=
  (by host_keep hostOps4 : W11 m ρ c (Proc.devRef .tc main_arg6) = W10 m ρ c (Proc.devRef .tc main_arg6)).trans (arg6_10 m ρ c)
theorem arg6_12 : W12 m ρ c (Proc.devRef .tc main_arg6) = m ((c : Thread nD τ).loc main_arg6) :=
  (W12_of_ne m ρ c main_arg6 (by decide)).trans (arg6_11 m ρ c)
theorem arg6_13 : W13 m ρ c (Proc.devRef .tc main_arg6) = m ((c : Thread nD τ).loc main_arg6) :=
  (by host_keep hostOps5 : W13 m ρ c (Proc.devRef .tc main_arg6) = W12 m ρ c (Proc.devRef .tc main_arg6)).trans (arg6_12 m ρ c)
theorem arg6_14 : W14 m ρ c (Proc.devRef .tc main_arg6) = m ((c : Thread nD τ).loc main_arg6) :=
  (W14_of_ne m ρ c main_arg6 (by decide)).trans (arg6_13 m ρ c)
theorem arg6_15 : W15 m ρ c (Proc.devRef .tc main_arg6) = m ((c : Thread nD τ).loc main_arg6) :=
  (by host_keep hostOps6 : W15 m ρ c (Proc.devRef .tc main_arg6) = W14 m ρ c (Proc.devRef .tc main_arg6)).trans (arg6_14 m ρ c)
theorem arg6_16 : W16 m ρ c (Proc.devRef .tc main_arg6) = m ((c : Thread nD τ).loc main_arg6) :=
  (W16_of_ne m ρ c main_arg6 (by decide)).trans (arg6_15 m ρ c)
theorem arg6_17 : W17 m ρ c (Proc.devRef .tc main_arg6) = m ((c : Thread nD τ).loc main_arg6) :=
  (by host_keep hostOps7 : W17 m ρ c (Proc.devRef .tc main_arg6) = W16 m ρ c (Proc.devRef .tc main_arg6)).trans (arg6_16 m ρ c)
theorem arg6_18 : W18 m ρ c (Proc.devRef .tc main_arg6) = m ((c : Thread nD τ).loc main_arg6) :=
  (W18_of_ne m ρ c main_arg6 (by decide)).trans (arg6_17 m ρ c)
theorem arg6_19 : W19 m ρ c (Proc.devRef .tc main_arg6) = m ((c : Thread nD τ).loc main_arg6) :=
  (by host_keep hostOps8 : W19 m ρ c (Proc.devRef .tc main_arg6) = W18 m ρ c (Proc.devRef .tc main_arg6)).trans (arg6_18 m ρ c)
theorem arg6_20 : W20 m ρ c (Proc.devRef .tc main_arg6) = m ((c : Thread nD τ).loc main_arg6) :=
  (W20_of_ne m ρ c main_arg6 (by decide)).trans (arg6_19 m ρ c)

/-! ### Argument 7 -/

theorem arg7_0 : W0 m ρ c (Proc.devRef .tc main_arg7) = m ((c : Thread nD τ).loc main_arg7) := rfl
theorem arg7_1 : W1 m ρ c (Proc.devRef .tc main_arg7) = m ((c : Thread nD τ).loc main_arg7) :=
  (by host_keep hostOps0 : W1 m ρ c (Proc.devRef .tc main_arg7) = W0 m ρ c (Proc.devRef .tc main_arg7)).trans (arg7_0 m ρ c)
theorem arg7_2 : W2 m ρ c (Proc.devRef .tc main_arg7) = m ((c : Thread nD τ).loc main_arg7) :=
  (by host_keep hostOps0_1 : W2 m ρ c (Proc.devRef .tc main_arg7) = W1 m ρ c (Proc.devRef .tc main_arg7)).trans (arg7_1 m ρ c)
theorem arg7_3 : W3 m ρ c (Proc.devRef .tc main_arg7) = m ((c : Thread nD τ).loc main_arg7) :=
  (by host_keep hostOps0_2 : W3 m ρ c (Proc.devRef .tc main_arg7) = W2 m ρ c (Proc.devRef .tc main_arg7)).trans (arg7_2 m ρ c)
theorem arg7_4 : W4 m ρ c (Proc.devRef .tc main_arg7) = m ((c : Thread nD τ).loc main_arg7) :=
  (W4_of_ne m ρ c main_arg7 (by decide)).trans (arg7_3 m ρ c)
theorem arg7_5 : W5 m ρ c (Proc.devRef .tc main_arg7) = m ((c : Thread nD τ).loc main_arg7) :=
  (by host_keep hostOps1 : W5 m ρ c (Proc.devRef .tc main_arg7) = W4 m ρ c (Proc.devRef .tc main_arg7)).trans (arg7_4 m ρ c)
theorem arg7_6 : W6 m ρ c (Proc.devRef .tc main_arg7) = m ((c : Thread nD τ).loc main_arg7) :=
  (W6_of_ne m ρ c main_arg7 (by decide)).trans (arg7_5 m ρ c)
theorem arg7_7 : W7 m ρ c (Proc.devRef .tc main_arg7) = m ((c : Thread nD τ).loc main_arg7) :=
  (by host_keep hostOps2 : W7 m ρ c (Proc.devRef .tc main_arg7) = W6 m ρ c (Proc.devRef .tc main_arg7)).trans (arg7_6 m ρ c)
theorem arg7_8 : W8 m ρ c (Proc.devRef .tc main_arg7) = m ((c : Thread nD τ).loc main_arg7) :=
  (W8_of_ne m ρ c main_arg7 (by decide)).trans (arg7_7 m ρ c)
theorem arg7_9 : W9 m ρ c (Proc.devRef .tc main_arg7) = m ((c : Thread nD τ).loc main_arg7) :=
  (by host_keep hostOps3 : W9 m ρ c (Proc.devRef .tc main_arg7) = W8 m ρ c (Proc.devRef .tc main_arg7)).trans (arg7_8 m ρ c)
theorem arg7_10 : W10 m ρ c (Proc.devRef .tc main_arg7) = m ((c : Thread nD τ).loc main_arg7) :=
  (W10_of_ne m ρ c main_arg7 (by decide)).trans (arg7_9 m ρ c)
theorem arg7_11 : W11 m ρ c (Proc.devRef .tc main_arg7) = m ((c : Thread nD τ).loc main_arg7) :=
  (by host_keep hostOps4 : W11 m ρ c (Proc.devRef .tc main_arg7) = W10 m ρ c (Proc.devRef .tc main_arg7)).trans (arg7_10 m ρ c)
theorem arg7_12 : W12 m ρ c (Proc.devRef .tc main_arg7) = m ((c : Thread nD τ).loc main_arg7) :=
  (W12_of_ne m ρ c main_arg7 (by decide)).trans (arg7_11 m ρ c)
theorem arg7_13 : W13 m ρ c (Proc.devRef .tc main_arg7) = m ((c : Thread nD τ).loc main_arg7) :=
  (by host_keep hostOps5 : W13 m ρ c (Proc.devRef .tc main_arg7) = W12 m ρ c (Proc.devRef .tc main_arg7)).trans (arg7_12 m ρ c)
theorem arg7_14 : W14 m ρ c (Proc.devRef .tc main_arg7) = m ((c : Thread nD τ).loc main_arg7) :=
  (W14_of_ne m ρ c main_arg7 (by decide)).trans (arg7_13 m ρ c)
theorem arg7_15 : W15 m ρ c (Proc.devRef .tc main_arg7) = m ((c : Thread nD τ).loc main_arg7) :=
  (by host_keep hostOps6 : W15 m ρ c (Proc.devRef .tc main_arg7) = W14 m ρ c (Proc.devRef .tc main_arg7)).trans (arg7_14 m ρ c)
theorem arg7_16 : W16 m ρ c (Proc.devRef .tc main_arg7) = m ((c : Thread nD τ).loc main_arg7) :=
  (W16_of_ne m ρ c main_arg7 (by decide)).trans (arg7_15 m ρ c)
theorem arg7_17 : W17 m ρ c (Proc.devRef .tc main_arg7) = m ((c : Thread nD τ).loc main_arg7) :=
  (by host_keep hostOps7 : W17 m ρ c (Proc.devRef .tc main_arg7) = W16 m ρ c (Proc.devRef .tc main_arg7)).trans (arg7_16 m ρ c)
theorem arg7_18 : W18 m ρ c (Proc.devRef .tc main_arg7) = m ((c : Thread nD τ).loc main_arg7) :=
  (W18_of_ne m ρ c main_arg7 (by decide)).trans (arg7_17 m ρ c)
theorem arg7_19 : W19 m ρ c (Proc.devRef .tc main_arg7) = m ((c : Thread nD τ).loc main_arg7) :=
  (by host_keep hostOps8 : W19 m ρ c (Proc.devRef .tc main_arg7) = W18 m ρ c (Proc.devRef .tc main_arg7)).trans (arg7_18 m ρ c)
theorem arg7_20 : W20 m ρ c (Proc.devRef .tc main_arg7) = m ((c : Thread nD τ).loc main_arg7) :=
  (W20_of_ne m ρ c main_arg7 (by decide)).trans (arg7_19 m ρ c)

/-! ### Argument 8 -/

theorem arg8_0 : W0 m ρ c (Proc.devRef .tc main_arg8) = m ((c : Thread nD τ).loc main_arg8) := rfl
theorem arg8_1 : W1 m ρ c (Proc.devRef .tc main_arg8) = m ((c : Thread nD τ).loc main_arg8) :=
  (by host_keep hostOps0 : W1 m ρ c (Proc.devRef .tc main_arg8) = W0 m ρ c (Proc.devRef .tc main_arg8)).trans (arg8_0 m ρ c)
theorem arg8_2 : W2 m ρ c (Proc.devRef .tc main_arg8) = m ((c : Thread nD τ).loc main_arg8) :=
  (by host_keep hostOps0_1 : W2 m ρ c (Proc.devRef .tc main_arg8) = W1 m ρ c (Proc.devRef .tc main_arg8)).trans (arg8_1 m ρ c)
theorem arg8_3 : W3 m ρ c (Proc.devRef .tc main_arg8) = m ((c : Thread nD τ).loc main_arg8) :=
  (by host_keep hostOps0_2 : W3 m ρ c (Proc.devRef .tc main_arg8) = W2 m ρ c (Proc.devRef .tc main_arg8)).trans (arg8_2 m ρ c)
theorem arg8_4 : W4 m ρ c (Proc.devRef .tc main_arg8) = m ((c : Thread nD τ).loc main_arg8) :=
  (W4_of_ne m ρ c main_arg8 (by decide)).trans (arg8_3 m ρ c)
theorem arg8_5 : W5 m ρ c (Proc.devRef .tc main_arg8) = m ((c : Thread nD τ).loc main_arg8) :=
  (by host_keep hostOps1 : W5 m ρ c (Proc.devRef .tc main_arg8) = W4 m ρ c (Proc.devRef .tc main_arg8)).trans (arg8_4 m ρ c)
theorem arg8_6 : W6 m ρ c (Proc.devRef .tc main_arg8) = m ((c : Thread nD τ).loc main_arg8) :=
  (W6_of_ne m ρ c main_arg8 (by decide)).trans (arg8_5 m ρ c)
theorem arg8_7 : W7 m ρ c (Proc.devRef .tc main_arg8) = m ((c : Thread nD τ).loc main_arg8) :=
  (by host_keep hostOps2 : W7 m ρ c (Proc.devRef .tc main_arg8) = W6 m ρ c (Proc.devRef .tc main_arg8)).trans (arg8_6 m ρ c)
theorem arg8_8 : W8 m ρ c (Proc.devRef .tc main_arg8) = m ((c : Thread nD τ).loc main_arg8) :=
  (W8_of_ne m ρ c main_arg8 (by decide)).trans (arg8_7 m ρ c)
theorem arg8_9 : W9 m ρ c (Proc.devRef .tc main_arg8) = m ((c : Thread nD τ).loc main_arg8) :=
  (by host_keep hostOps3 : W9 m ρ c (Proc.devRef .tc main_arg8) = W8 m ρ c (Proc.devRef .tc main_arg8)).trans (arg8_8 m ρ c)
theorem arg8_10 : W10 m ρ c (Proc.devRef .tc main_arg8) = m ((c : Thread nD τ).loc main_arg8) :=
  (W10_of_ne m ρ c main_arg8 (by decide)).trans (arg8_9 m ρ c)
theorem arg8_11 : W11 m ρ c (Proc.devRef .tc main_arg8) = m ((c : Thread nD τ).loc main_arg8) :=
  (by host_keep hostOps4 : W11 m ρ c (Proc.devRef .tc main_arg8) = W10 m ρ c (Proc.devRef .tc main_arg8)).trans (arg8_10 m ρ c)
theorem arg8_12 : W12 m ρ c (Proc.devRef .tc main_arg8) = m ((c : Thread nD τ).loc main_arg8) :=
  (W12_of_ne m ρ c main_arg8 (by decide)).trans (arg8_11 m ρ c)
theorem arg8_13 : W13 m ρ c (Proc.devRef .tc main_arg8) = m ((c : Thread nD τ).loc main_arg8) :=
  (by host_keep hostOps5 : W13 m ρ c (Proc.devRef .tc main_arg8) = W12 m ρ c (Proc.devRef .tc main_arg8)).trans (arg8_12 m ρ c)
theorem arg8_14 : W14 m ρ c (Proc.devRef .tc main_arg8) = m ((c : Thread nD τ).loc main_arg8) :=
  (W14_of_ne m ρ c main_arg8 (by decide)).trans (arg8_13 m ρ c)
theorem arg8_15 : W15 m ρ c (Proc.devRef .tc main_arg8) = m ((c : Thread nD τ).loc main_arg8) :=
  (by host_keep hostOps6 : W15 m ρ c (Proc.devRef .tc main_arg8) = W14 m ρ c (Proc.devRef .tc main_arg8)).trans (arg8_14 m ρ c)
theorem arg8_16 : W16 m ρ c (Proc.devRef .tc main_arg8) = m ((c : Thread nD τ).loc main_arg8) :=
  (W16_of_ne m ρ c main_arg8 (by decide)).trans (arg8_15 m ρ c)
theorem arg8_17 : W17 m ρ c (Proc.devRef .tc main_arg8) = m ((c : Thread nD τ).loc main_arg8) :=
  (by host_keep hostOps7 : W17 m ρ c (Proc.devRef .tc main_arg8) = W16 m ρ c (Proc.devRef .tc main_arg8)).trans (arg8_16 m ρ c)
theorem arg8_18 : W18 m ρ c (Proc.devRef .tc main_arg8) = m ((c : Thread nD τ).loc main_arg8) :=
  (W18_of_ne m ρ c main_arg8 (by decide)).trans (arg8_17 m ρ c)
theorem arg8_19 : W19 m ρ c (Proc.devRef .tc main_arg8) = m ((c : Thread nD τ).loc main_arg8) :=
  (by host_keep hostOps8 : W19 m ρ c (Proc.devRef .tc main_arg8) = W18 m ρ c (Proc.devRef .tc main_arg8)).trans (arg8_18 m ρ c)
theorem arg8_20 : W20 m ρ c (Proc.devRef .tc main_arg8) = m ((c : Thread nD τ).loc main_arg8) :=
  (W20_of_ne m ρ c main_arg8 (by decide)).trans (arg8_19 m ρ c)

/-! ### Argument 9 -/

theorem arg9_0 : W0 m ρ c (Proc.devRef .tc main_arg9) = m ((c : Thread nD τ).loc main_arg9) := rfl
theorem arg9_1 : W1 m ρ c (Proc.devRef .tc main_arg9) = m ((c : Thread nD τ).loc main_arg9) :=
  (by host_keep hostOps0 : W1 m ρ c (Proc.devRef .tc main_arg9) = W0 m ρ c (Proc.devRef .tc main_arg9)).trans (arg9_0 m ρ c)
theorem arg9_2 : W2 m ρ c (Proc.devRef .tc main_arg9) = m ((c : Thread nD τ).loc main_arg9) :=
  (by host_keep hostOps0_1 : W2 m ρ c (Proc.devRef .tc main_arg9) = W1 m ρ c (Proc.devRef .tc main_arg9)).trans (arg9_1 m ρ c)
theorem arg9_3 : W3 m ρ c (Proc.devRef .tc main_arg9) = m ((c : Thread nD τ).loc main_arg9) :=
  (by host_keep hostOps0_2 : W3 m ρ c (Proc.devRef .tc main_arg9) = W2 m ρ c (Proc.devRef .tc main_arg9)).trans (arg9_2 m ρ c)
theorem arg9_4 : W4 m ρ c (Proc.devRef .tc main_arg9) = m ((c : Thread nD τ).loc main_arg9) :=
  (W4_of_ne m ρ c main_arg9 (by decide)).trans (arg9_3 m ρ c)
theorem arg9_5 : W5 m ρ c (Proc.devRef .tc main_arg9) = m ((c : Thread nD τ).loc main_arg9) :=
  (by host_keep hostOps1 : W5 m ρ c (Proc.devRef .tc main_arg9) = W4 m ρ c (Proc.devRef .tc main_arg9)).trans (arg9_4 m ρ c)
theorem arg9_6 : W6 m ρ c (Proc.devRef .tc main_arg9) = m ((c : Thread nD τ).loc main_arg9) :=
  (W6_of_ne m ρ c main_arg9 (by decide)).trans (arg9_5 m ρ c)
theorem arg9_7 : W7 m ρ c (Proc.devRef .tc main_arg9) = m ((c : Thread nD τ).loc main_arg9) :=
  (by host_keep hostOps2 : W7 m ρ c (Proc.devRef .tc main_arg9) = W6 m ρ c (Proc.devRef .tc main_arg9)).trans (arg9_6 m ρ c)
theorem arg9_8 : W8 m ρ c (Proc.devRef .tc main_arg9) = m ((c : Thread nD τ).loc main_arg9) :=
  (W8_of_ne m ρ c main_arg9 (by decide)).trans (arg9_7 m ρ c)
theorem arg9_9 : W9 m ρ c (Proc.devRef .tc main_arg9) = m ((c : Thread nD τ).loc main_arg9) :=
  (by host_keep hostOps3 : W9 m ρ c (Proc.devRef .tc main_arg9) = W8 m ρ c (Proc.devRef .tc main_arg9)).trans (arg9_8 m ρ c)
theorem arg9_10 : W10 m ρ c (Proc.devRef .tc main_arg9) = m ((c : Thread nD τ).loc main_arg9) :=
  (W10_of_ne m ρ c main_arg9 (by decide)).trans (arg9_9 m ρ c)
theorem arg9_11 : W11 m ρ c (Proc.devRef .tc main_arg9) = m ((c : Thread nD τ).loc main_arg9) :=
  (by host_keep hostOps4 : W11 m ρ c (Proc.devRef .tc main_arg9) = W10 m ρ c (Proc.devRef .tc main_arg9)).trans (arg9_10 m ρ c)
theorem arg9_12 : W12 m ρ c (Proc.devRef .tc main_arg9) = m ((c : Thread nD τ).loc main_arg9) :=
  (W12_of_ne m ρ c main_arg9 (by decide)).trans (arg9_11 m ρ c)
theorem arg9_13 : W13 m ρ c (Proc.devRef .tc main_arg9) = m ((c : Thread nD τ).loc main_arg9) :=
  (by host_keep hostOps5 : W13 m ρ c (Proc.devRef .tc main_arg9) = W12 m ρ c (Proc.devRef .tc main_arg9)).trans (arg9_12 m ρ c)
theorem arg9_14 : W14 m ρ c (Proc.devRef .tc main_arg9) = m ((c : Thread nD τ).loc main_arg9) :=
  (W14_of_ne m ρ c main_arg9 (by decide)).trans (arg9_13 m ρ c)
theorem arg9_15 : W15 m ρ c (Proc.devRef .tc main_arg9) = m ((c : Thread nD τ).loc main_arg9) :=
  (by host_keep hostOps6 : W15 m ρ c (Proc.devRef .tc main_arg9) = W14 m ρ c (Proc.devRef .tc main_arg9)).trans (arg9_14 m ρ c)
theorem arg9_16 : W16 m ρ c (Proc.devRef .tc main_arg9) = m ((c : Thread nD τ).loc main_arg9) :=
  (W16_of_ne m ρ c main_arg9 (by decide)).trans (arg9_15 m ρ c)
theorem arg9_17 : W17 m ρ c (Proc.devRef .tc main_arg9) = m ((c : Thread nD τ).loc main_arg9) :=
  (by host_keep hostOps7 : W17 m ρ c (Proc.devRef .tc main_arg9) = W16 m ρ c (Proc.devRef .tc main_arg9)).trans (arg9_16 m ρ c)
theorem arg9_18 : W18 m ρ c (Proc.devRef .tc main_arg9) = m ((c : Thread nD τ).loc main_arg9) :=
  (W18_of_ne m ρ c main_arg9 (by decide)).trans (arg9_17 m ρ c)
theorem arg9_19 : W19 m ρ c (Proc.devRef .tc main_arg9) = m ((c : Thread nD τ).loc main_arg9) :=
  (by host_keep hostOps8 : W19 m ρ c (Proc.devRef .tc main_arg9) = W18 m ρ c (Proc.devRef .tc main_arg9)).trans (arg9_18 m ρ c)
theorem arg9_20 : W20 m ρ c (Proc.devRef .tc main_arg9) = m ((c : Thread nD τ).loc main_arg9) :=
  (W20_of_ne m ρ c main_arg9 (by decide)).trans (arg9_19 m ρ c)

end Cert.KernelIdeal.CarryA

end
-- ==== Proof.CarryB.lean ====
/-
  The graph numbers, the head's weights and biases, and the three host values every layer reads again — the two
  edge lists with self loops and the edge normalization — are written once (or never) and then left alone: at every
  later segment boundary up to their last use their buffers hold what they held, one step per boundary.
-/
import proofs.«125410_j42923903156343_1_alg».proof.Proof.Gen.KernelIdeal.Frame

set_option maxRecDepth 16384

noncomputable section

namespace Cert.KernelIdeal.CarryB

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg) (c : Dev nD)

/-- No operation of the stretch writes the buffer, so the stretch leaves it as it was: each operation's written
    buffer is another one, decided buffer by buffer. -/
macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ### Argument 3 -/

theorem arg3_0 : W0 m ρ c (Proc.devRef .tc main_arg3) = m ((c : Thread nD τ).loc main_arg3) := rfl
theorem arg3_1 : W1 m ρ c (Proc.devRef .tc main_arg3) = m ((c : Thread nD τ).loc main_arg3) :=
  (by host_keep hostOps0 : W1 m ρ c (Proc.devRef .tc main_arg3) = W0 m ρ c (Proc.devRef .tc main_arg3)).trans (arg3_0 m ρ c)
theorem arg3_2 : W2 m ρ c (Proc.devRef .tc main_arg3) = m ((c : Thread nD τ).loc main_arg3) :=
  (by host_keep hostOps0_1 : W2 m ρ c (Proc.devRef .tc main_arg3) = W1 m ρ c (Proc.devRef .tc main_arg3)).trans (arg3_1 m ρ c)
theorem arg3_3 : W3 m ρ c (Proc.devRef .tc main_arg3) = m ((c : Thread nD τ).loc main_arg3) :=
  (by host_keep hostOps0_2 : W3 m ρ c (Proc.devRef .tc main_arg3) = W2 m ρ c (Proc.devRef .tc main_arg3)).trans (arg3_2 m ρ c)
theorem arg3_4 : W4 m ρ c (Proc.devRef .tc main_arg3) = m ((c : Thread nD τ).loc main_arg3) :=
  (W4_of_ne m ρ c main_arg3 (by decide)).trans (arg3_3 m ρ c)
theorem arg3_5 : W5 m ρ c (Proc.devRef .tc main_arg3) = m ((c : Thread nD τ).loc main_arg3) :=
  (by host_keep hostOps1 : W5 m ρ c (Proc.devRef .tc main_arg3) = W4 m ρ c (Proc.devRef .tc main_arg3)).trans (arg3_4 m ρ c)
theorem arg3_6 : W6 m ρ c (Proc.devRef .tc main_arg3) = m ((c : Thread nD τ).loc main_arg3) :=
  (W6_of_ne m ρ c main_arg3 (by decide)).trans (arg3_5 m ρ c)
theorem arg3_7 : W7 m ρ c (Proc.devRef .tc main_arg3) = m ((c : Thread nD τ).loc main_arg3) :=
  (by host_keep hostOps2 : W7 m ρ c (Proc.devRef .tc main_arg3) = W6 m ρ c (Proc.devRef .tc main_arg3)).trans (arg3_6 m ρ c)
theorem arg3_8 : W8 m ρ c (Proc.devRef .tc main_arg3) = m ((c : Thread nD τ).loc main_arg3) :=
  (W8_of_ne m ρ c main_arg3 (by decide)).trans (arg3_7 m ρ c)
theorem arg3_9 : W9 m ρ c (Proc.devRef .tc main_arg3) = m ((c : Thread nD τ).loc main_arg3) :=
  (by host_keep hostOps3 : W9 m ρ c (Proc.devRef .tc main_arg3) = W8 m ρ c (Proc.devRef .tc main_arg3)).trans (arg3_8 m ρ c)
theorem arg3_10 : W10 m ρ c (Proc.devRef .tc main_arg3) = m ((c : Thread nD τ).loc main_arg3) :=
  (W10_of_ne m ρ c main_arg3 (by decide)).trans (arg3_9 m ρ c)
theorem arg3_11 : W11 m ρ c (Proc.devRef .tc main_arg3) = m ((c : Thread nD τ).loc main_arg3) :=
  (by host_keep hostOps4 : W11 m ρ c (Proc.devRef .tc main_arg3) = W10 m ρ c (Proc.devRef .tc main_arg3)).trans (arg3_10 m ρ c)
theorem arg3_12 : W12 m ρ c (Proc.devRef .tc main_arg3) = m ((c : Thread nD τ).loc main_arg3) :=
  (W12_of_ne m ρ c main_arg3 (by decide)).trans (arg3_11 m ρ c)
theorem arg3_13 : W13 m ρ c (Proc.devRef .tc main_arg3) = m ((c : Thread nD τ).loc main_arg3) :=
  (by host_keep hostOps5 : W13 m ρ c (Proc.devRef .tc main_arg3) = W12 m ρ c (Proc.devRef .tc main_arg3)).trans (arg3_12 m ρ c)
theorem arg3_14 : W14 m ρ c (Proc.devRef .tc main_arg3) = m ((c : Thread nD τ).loc main_arg3) :=
  (W14_of_ne m ρ c main_arg3 (by decide)).trans (arg3_13 m ρ c)
theorem arg3_15 : W15 m ρ c (Proc.devRef .tc main_arg3) = m ((c : Thread nD τ).loc main_arg3) :=
  (by host_keep hostOps6 : W15 m ρ c (Proc.devRef .tc main_arg3) = W14 m ρ c (Proc.devRef .tc main_arg3)).trans (arg3_14 m ρ c)
theorem arg3_16 : W16 m ρ c (Proc.devRef .tc main_arg3) = m ((c : Thread nD τ).loc main_arg3) :=
  (W16_of_ne m ρ c main_arg3 (by decide)).trans (arg3_15 m ρ c)
theorem arg3_17 : W17 m ρ c (Proc.devRef .tc main_arg3) = m ((c : Thread nD τ).loc main_arg3) :=
  (by host_keep hostOps7 : W17 m ρ c (Proc.devRef .tc main_arg3) = W16 m ρ c (Proc.devRef .tc main_arg3)).trans (arg3_16 m ρ c)
theorem arg3_18 : W18 m ρ c (Proc.devRef .tc main_arg3) = m ((c : Thread nD τ).loc main_arg3) :=
  (W18_of_ne m ρ c main_arg3 (by decide)).trans (arg3_17 m ρ c)
theorem arg3_19 : W19 m ρ c (Proc.devRef .tc main_arg3) = m ((c : Thread nD τ).loc main_arg3) :=
  (by host_keep hostOps8 : W19 m ρ c (Proc.devRef .tc main_arg3) = W18 m ρ c (Proc.devRef .tc main_arg3)).trans (arg3_18 m ρ c)
theorem arg3_20 : W20 m ρ c (Proc.devRef .tc main_arg3) = m ((c : Thread nD τ).loc main_arg3) :=
  (W20_of_ne m ρ c main_arg3 (by decide)).trans (arg3_19 m ρ c)
theorem arg3_21 : W21 m ρ c (Proc.devRef .tc main_arg3) = m ((c : Thread nD τ).loc main_arg3) :=
  (by host_keep hostOps9 : W21 m ρ c (Proc.devRef .tc main_arg3) = W20 m ρ c (Proc.devRef .tc main_arg3)).trans (arg3_20 m ρ c)
theorem arg3_22 : W22 m ρ c (Proc.devRef .tc main_arg3) = m ((c : Thread nD τ).loc main_arg3) :=
  (W22_of_ne m ρ c main_arg3 (by decide)).trans (arg3_21 m ρ c)

/-! ### Argument 11 -/

theorem arg11_0 : W0 m ρ c (Proc.devRef .tc main_arg11) = m ((c : Thread nD τ).loc main_arg11) := rfl
theorem arg11_1 : W1 m ρ c (Proc.devRef .tc main_arg11) = m ((c : Thread nD τ).loc main_arg11) :=
  (by host_keep hostOps0 : W1 m ρ c (Proc.devRef .tc main_arg11) = W0 m ρ c (Proc.devRef .tc main_arg11)).trans (arg11_0 m ρ c)
theorem arg11_2 : W2 m ρ c (Proc.devRef .tc main_arg11) = m ((c : Thread nD τ).loc main_arg11) :=
  (by host_keep hostOps0_1 : W2 m ρ c (Proc.devRef .tc main_arg11) = W1 m ρ c (Proc.devRef .tc main_arg11)).trans (arg11_1 m ρ c)
theorem arg11_3 : W3 m ρ c (Proc.devRef .tc main_arg11) = m ((c : Thread nD τ).loc main_arg11) :=
  (by host_keep hostOps0_2 : W3 m ρ c (Proc.devRef .tc main_arg11) = W2 m ρ c (Proc.devRef .tc main_arg11)).trans (arg11_2 m ρ c)
theorem arg11_4 : W4 m ρ c (Proc.devRef .tc main_arg11) = m ((c : Thread nD τ).loc main_arg11) :=
  (W4_of_ne m ρ c main_arg11 (by decide)).trans (arg11_3 m ρ c)
theorem arg11_5 : W5 m ρ c (Proc.devRef .tc main_arg11) = m ((c : Thread nD τ).loc main_arg11) :=
  (by host_keep hostOps1 : W5 m ρ c (Proc.devRef .tc main_arg11) = W4 m ρ c (Proc.devRef .tc main_arg11)).trans (arg11_4 m ρ c)
theorem arg11_6 : W6 m ρ c (Proc.devRef .tc main_arg11) = m ((c : Thread nD τ).loc main_arg11) :=
  (W6_of_ne m ρ c main_arg11 (by decide)).trans (arg11_5 m ρ c)
theorem arg11_7 : W7 m ρ c (Proc.devRef .tc main_arg11) = m ((c : Thread nD τ).loc main_arg11) :=
  (by host_keep hostOps2 : W7 m ρ c (Proc.devRef .tc main_arg11) = W6 m ρ c (Proc.devRef .tc main_arg11)).trans (arg11_6 m ρ c)
theorem arg11_8 : W8 m ρ c (Proc.devRef .tc main_arg11) = m ((c : Thread nD τ).loc main_arg11) :=
  (W8_of_ne m ρ c main_arg11 (by decide)).trans (arg11_7 m ρ c)
theorem arg11_9 : W9 m ρ c (Proc.devRef .tc main_arg11) = m ((c : Thread nD τ).loc main_arg11) :=
  (by host_keep hostOps3 : W9 m ρ c (Proc.devRef .tc main_arg11) = W8 m ρ c (Proc.devRef .tc main_arg11)).trans (arg11_8 m ρ c)
theorem arg11_10 : W10 m ρ c (Proc.devRef .tc main_arg11) = m ((c : Thread nD τ).loc main_arg11) :=
  (W10_of_ne m ρ c main_arg11 (by decide)).trans (arg11_9 m ρ c)
theorem arg11_11 : W11 m ρ c (Proc.devRef .tc main_arg11) = m ((c : Thread nD τ).loc main_arg11) :=
  (by host_keep hostOps4 : W11 m ρ c (Proc.devRef .tc main_arg11) = W10 m ρ c (Proc.devRef .tc main_arg11)).trans (arg11_10 m ρ c)
theorem arg11_12 : W12 m ρ c (Proc.devRef .tc main_arg11) = m ((c : Thread nD τ).loc main_arg11) :=
  (W12_of_ne m ρ c main_arg11 (by decide)).trans (arg11_11 m ρ c)
theorem arg11_13 : W13 m ρ c (Proc.devRef .tc main_arg11) = m ((c : Thread nD τ).loc main_arg11) :=
  (by host_keep hostOps5 : W13 m ρ c (Proc.devRef .tc main_arg11) = W12 m ρ c (Proc.devRef .tc main_arg11)).trans (arg11_12 m ρ c)
theorem arg11_14 : W14 m ρ c (Proc.devRef .tc main_arg11) = m ((c : Thread nD τ).loc main_arg11) :=
  (W14_of_ne m ρ c main_arg11 (by decide)).trans (arg11_13 m ρ c)
theorem arg11_15 : W15 m ρ c (Proc.devRef .tc main_arg11) = m ((c : Thread nD τ).loc main_arg11) :=
  (by host_keep hostOps6 : W15 m ρ c (Proc.devRef .tc main_arg11) = W14 m ρ c (Proc.devRef .tc main_arg11)).trans (arg11_14 m ρ c)
theorem arg11_16 : W16 m ρ c (Proc.devRef .tc main_arg11) = m ((c : Thread nD τ).loc main_arg11) :=
  (W16_of_ne m ρ c main_arg11 (by decide)).trans (arg11_15 m ρ c)
theorem arg11_17 : W17 m ρ c (Proc.devRef .tc main_arg11) = m ((c : Thread nD τ).loc main_arg11) :=
  (by host_keep hostOps7 : W17 m ρ c (Proc.devRef .tc main_arg11) = W16 m ρ c (Proc.devRef .tc main_arg11)).trans (arg11_16 m ρ c)
theorem arg11_18 : W18 m ρ c (Proc.devRef .tc main_arg11) = m ((c : Thread nD τ).loc main_arg11) :=
  (W18_of_ne m ρ c main_arg11 (by decide)).trans (arg11_17 m ρ c)
theorem arg11_19 : W19 m ρ c (Proc.devRef .tc main_arg11) = m ((c : Thread nD τ).loc main_arg11) :=
  (by host_keep hostOps8 : W19 m ρ c (Proc.devRef .tc main_arg11) = W18 m ρ c (Proc.devRef .tc main_arg11)).trans (arg11_18 m ρ c)
theorem arg11_20 : W20 m ρ c (Proc.devRef .tc main_arg11) = m ((c : Thread nD τ).loc main_arg11) :=
  (W20_of_ne m ρ c main_arg11 (by decide)).trans (arg11_19 m ρ c)
theorem arg11_21 : W21 m ρ c (Proc.devRef .tc main_arg11) = m ((c : Thread nD τ).loc main_arg11) :=
  (by host_keep hostOps9 : W21 m ρ c (Proc.devRef .tc main_arg11) = W20 m ρ c (Proc.devRef .tc main_arg11)).trans (arg11_20 m ρ c)
theorem arg11_22 : W22 m ρ c (Proc.devRef .tc main_arg11) = m ((c : Thread nD τ).loc main_arg11) :=
  (W22_of_ne m ρ c main_arg11 (by decide)).trans (arg11_21 m ρ c)

/-! ### Argument 13 -/

theorem arg13_0 : W0 m ρ c (Proc.devRef .tc main_arg13) = m ((c : Thread nD τ).loc main_arg13) := rfl
theorem arg13_1 : W1 m ρ c (Proc.devRef .tc main_arg13) = m ((c : Thread nD τ).loc main_arg13) :=
  (by host_keep hostOps0 : W1 m ρ c (Proc.devRef .tc main_arg13) = W0 m ρ c (Proc.devRef .tc main_arg13)).trans (arg13_0 m ρ c)
theorem arg13_2 : W2 m ρ c (Proc.devRef .tc main_arg13) = m ((c : Thread nD τ).loc main_arg13) :=
  (by host_keep hostOps0_1 : W2 m ρ c (Proc.devRef .tc main_arg13) = W1 m ρ c (Proc.devRef .tc main_arg13)).trans (arg13_1 m ρ c)
theorem arg13_3 : W3 m ρ c (Proc.devRef .tc main_arg13) = m ((c : Thread nD τ).loc main_arg13) :=
  (by host_keep hostOps0_2 : W3 m ρ c (Proc.devRef .tc main_arg13) = W2 m ρ c (Proc.devRef .tc main_arg13)).trans (arg13_2 m ρ c)
theorem arg13_4 : W4 m ρ c (Proc.devRef .tc main_arg13) = m ((c : Thread nD τ).loc main_arg13) :=
  (W4_of_ne m ρ c main_arg13 (by decide)).trans (arg13_3 m ρ c)
theorem arg13_5 : W5 m ρ c (Proc.devRef .tc main_arg13) = m ((c : Thread nD τ).loc main_arg13) :=
  (by host_keep hostOps1 : W5 m ρ c (Proc.devRef .tc main_arg13) = W4 m ρ c (Proc.devRef .tc main_arg13)).trans (arg13_4 m ρ c)
theorem arg13_6 : W6 m ρ c (Proc.devRef .tc main_arg13) = m ((c : Thread nD τ).loc main_arg13) :=
  (W6_of_ne m ρ c main_arg13 (by decide)).trans (arg13_5 m ρ c)
theorem arg13_7 : W7 m ρ c (Proc.devRef .tc main_arg13) = m ((c : Thread nD τ).loc main_arg13) :=
  (by host_keep hostOps2 : W7 m ρ c (Proc.devRef .tc main_arg13) = W6 m ρ c (Proc.devRef .tc main_arg13)).trans (arg13_6 m ρ c)
theorem arg13_8 : W8 m ρ c (Proc.devRef .tc main_arg13) = m ((c : Thread nD τ).loc main_arg13) :=
  (W8_of_ne m ρ c main_arg13 (by decide)).trans (arg13_7 m ρ c)
theorem arg13_9 : W9 m ρ c (Proc.devRef .tc main_arg13) = m ((c : Thread nD τ).loc main_arg13) :=
  (by host_keep hostOps3 : W9 m ρ c (Proc.devRef .tc main_arg13) = W8 m ρ c (Proc.devRef .tc main_arg13)).trans (arg13_8 m ρ c)
theorem arg13_10 : W10 m ρ c (Proc.devRef .tc main_arg13) = m ((c : Thread nD τ).loc main_arg13) :=
  (W10_of_ne m ρ c main_arg13 (by decide)).trans (arg13_9 m ρ c)
theorem arg13_11 : W11 m ρ c (Proc.devRef .tc main_arg13) = m ((c : Thread nD τ).loc main_arg13) :=
  (by host_keep hostOps4 : W11 m ρ c (Proc.devRef .tc main_arg13) = W10 m ρ c (Proc.devRef .tc main_arg13)).trans (arg13_10 m ρ c)
theorem arg13_12 : W12 m ρ c (Proc.devRef .tc main_arg13) = m ((c : Thread nD τ).loc main_arg13) :=
  (W12_of_ne m ρ c main_arg13 (by decide)).trans (arg13_11 m ρ c)
theorem arg13_13 : W13 m ρ c (Proc.devRef .tc main_arg13) = m ((c : Thread nD τ).loc main_arg13) :=
  (by host_keep hostOps5 : W13 m ρ c (Proc.devRef .tc main_arg13) = W12 m ρ c (Proc.devRef .tc main_arg13)).trans (arg13_12 m ρ c)
theorem arg13_14 : W14 m ρ c (Proc.devRef .tc main_arg13) = m ((c : Thread nD τ).loc main_arg13) :=
  (W14_of_ne m ρ c main_arg13 (by decide)).trans (arg13_13 m ρ c)
theorem arg13_15 : W15 m ρ c (Proc.devRef .tc main_arg13) = m ((c : Thread nD τ).loc main_arg13) :=
  (by host_keep hostOps6 : W15 m ρ c (Proc.devRef .tc main_arg13) = W14 m ρ c (Proc.devRef .tc main_arg13)).trans (arg13_14 m ρ c)
theorem arg13_16 : W16 m ρ c (Proc.devRef .tc main_arg13) = m ((c : Thread nD τ).loc main_arg13) :=
  (W16_of_ne m ρ c main_arg13 (by decide)).trans (arg13_15 m ρ c)
theorem arg13_17 : W17 m ρ c (Proc.devRef .tc main_arg13) = m ((c : Thread nD τ).loc main_arg13) :=
  (by host_keep hostOps7 : W17 m ρ c (Proc.devRef .tc main_arg13) = W16 m ρ c (Proc.devRef .tc main_arg13)).trans (arg13_16 m ρ c)
theorem arg13_18 : W18 m ρ c (Proc.devRef .tc main_arg13) = m ((c : Thread nD τ).loc main_arg13) :=
  (W18_of_ne m ρ c main_arg13 (by decide)).trans (arg13_17 m ρ c)
theorem arg13_19 : W19 m ρ c (Proc.devRef .tc main_arg13) = m ((c : Thread nD τ).loc main_arg13) :=
  (by host_keep hostOps8 : W19 m ρ c (Proc.devRef .tc main_arg13) = W18 m ρ c (Proc.devRef .tc main_arg13)).trans (arg13_18 m ρ c)
theorem arg13_20 : W20 m ρ c (Proc.devRef .tc main_arg13) = m ((c : Thread nD τ).loc main_arg13) :=
  (W20_of_ne m ρ c main_arg13 (by decide)).trans (arg13_19 m ρ c)
theorem arg13_21 : W21 m ρ c (Proc.devRef .tc main_arg13) = m ((c : Thread nD τ).loc main_arg13) :=
  (by host_keep hostOps9 : W21 m ρ c (Proc.devRef .tc main_arg13) = W20 m ρ c (Proc.devRef .tc main_arg13)).trans (arg13_20 m ρ c)
theorem arg13_22 : W22 m ρ c (Proc.devRef .tc main_arg13) = m ((c : Thread nD τ).loc main_arg13) :=
  (W22_of_ne m ρ c main_arg13 (by decide)).trans (arg13_21 m ρ c)

/-! ### Argument 10 -/

theorem arg10_0 : W0 m ρ c (Proc.devRef .tc main_arg10) = m ((c : Thread nD τ).loc main_arg10) := rfl
theorem arg10_1 : W1 m ρ c (Proc.devRef .tc main_arg10) = m ((c : Thread nD τ).loc main_arg10) :=
  (by host_keep hostOps0 : W1 m ρ c (Proc.devRef .tc main_arg10) = W0 m ρ c (Proc.devRef .tc main_arg10)).trans (arg10_0 m ρ c)
theorem arg10_2 : W2 m ρ c (Proc.devRef .tc main_arg10) = m ((c : Thread nD τ).loc main_arg10) :=
  (by host_keep hostOps0_1 : W2 m ρ c (Proc.devRef .tc main_arg10) = W1 m ρ c (Proc.devRef .tc main_arg10)).trans (arg10_1 m ρ c)
theorem arg10_3 : W3 m ρ c (Proc.devRef .tc main_arg10) = m ((c : Thread nD τ).loc main_arg10) :=
  (by host_keep hostOps0_2 : W3 m ρ c (Proc.devRef .tc main_arg10) = W2 m ρ c (Proc.devRef .tc main_arg10)).trans (arg10_2 m ρ c)
theorem arg10_4 : W4 m ρ c (Proc.devRef .tc main_arg10) = m ((c : Thread nD τ).loc main_arg10) :=
  (W4_of_ne m ρ c main_arg10 (by decide)).trans (arg10_3 m ρ c)
theorem arg10_5 : W5 m ρ c (Proc.devRef .tc main_arg10) = m ((c : Thread nD τ).loc main_arg10) :=
  (by host_keep hostOps1 : W5 m ρ c (Proc.devRef .tc main_arg10) = W4 m ρ c (Proc.devRef .tc main_arg10)).trans (arg10_4 m ρ c)
theorem arg10_6 : W6 m ρ c (Proc.devRef .tc main_arg10) = m ((c : Thread nD τ).loc main_arg10) :=
  (W6_of_ne m ρ c main_arg10 (by decide)).trans (arg10_5 m ρ c)
theorem arg10_7 : W7 m ρ c (Proc.devRef .tc main_arg10) = m ((c : Thread nD τ).loc main_arg10) :=
  (by host_keep hostOps2 : W7 m ρ c (Proc.devRef .tc main_arg10) = W6 m ρ c (Proc.devRef .tc main_arg10)).trans (arg10_6 m ρ c)
theorem arg10_8 : W8 m ρ c (Proc.devRef .tc main_arg10) = m ((c : Thread nD τ).loc main_arg10) :=
  (W8_of_ne m ρ c main_arg10 (by decide)).trans (arg10_7 m ρ c)
theorem arg10_9 : W9 m ρ c (Proc.devRef .tc main_arg10) = m ((c : Thread nD τ).loc main_arg10) :=
  (by host_keep hostOps3 : W9 m ρ c (Proc.devRef .tc main_arg10) = W8 m ρ c (Proc.devRef .tc main_arg10)).trans (arg10_8 m ρ c)
theorem arg10_10 : W10 m ρ c (Proc.devRef .tc main_arg10) = m ((c : Thread nD τ).loc main_arg10) :=
  (W10_of_ne m ρ c main_arg10 (by decide)).trans (arg10_9 m ρ c)
theorem arg10_11 : W11 m ρ c (Proc.devRef .tc main_arg10) = m ((c : Thread nD τ).loc main_arg10) :=
  (by host_keep hostOps4 : W11 m ρ c (Proc.devRef .tc main_arg10) = W10 m ρ c (Proc.devRef .tc main_arg10)).trans (arg10_10 m ρ c)
theorem arg10_12 : W12 m ρ c (Proc.devRef .tc main_arg10) = m ((c : Thread nD τ).loc main_arg10) :=
  (W12_of_ne m ρ c main_arg10 (by decide)).trans (arg10_11 m ρ c)
theorem arg10_13 : W13 m ρ c (Proc.devRef .tc main_arg10) = m ((c : Thread nD τ).loc main_arg10) :=
  (by host_keep hostOps5 : W13 m ρ c (Proc.devRef .tc main_arg10) = W12 m ρ c (Proc.devRef .tc main_arg10)).trans (arg10_12 m ρ c)
theorem arg10_14 : W14 m ρ c (Proc.devRef .tc main_arg10) = m ((c : Thread nD τ).loc main_arg10) :=
  (W14_of_ne m ρ c main_arg10 (by decide)).trans (arg10_13 m ρ c)
theorem arg10_15 : W15 m ρ c (Proc.devRef .tc main_arg10) = m ((c : Thread nD τ).loc main_arg10) :=
  (by host_keep hostOps6 : W15 m ρ c (Proc.devRef .tc main_arg10) = W14 m ρ c (Proc.devRef .tc main_arg10)).trans (arg10_14 m ρ c)
theorem arg10_16 : W16 m ρ c (Proc.devRef .tc main_arg10) = m ((c : Thread nD τ).loc main_arg10) :=
  (W16_of_ne m ρ c main_arg10 (by decide)).trans (arg10_15 m ρ c)
theorem arg10_17 : W17 m ρ c (Proc.devRef .tc main_arg10) = m ((c : Thread nD τ).loc main_arg10) :=
  (by host_keep hostOps7 : W17 m ρ c (Proc.devRef .tc main_arg10) = W16 m ρ c (Proc.devRef .tc main_arg10)).trans (arg10_16 m ρ c)
theorem arg10_18 : W18 m ρ c (Proc.devRef .tc main_arg10) = m ((c : Thread nD τ).loc main_arg10) :=
  (W18_of_ne m ρ c main_arg10 (by decide)).trans (arg10_17 m ρ c)
theorem arg10_19 : W19 m ρ c (Proc.devRef .tc main_arg10) = m ((c : Thread nD τ).loc main_arg10) :=
  (by host_keep hostOps8 : W19 m ρ c (Proc.devRef .tc main_arg10) = W18 m ρ c (Proc.devRef .tc main_arg10)).trans (arg10_18 m ρ c)
theorem arg10_20 : W20 m ρ c (Proc.devRef .tc main_arg10) = m ((c : Thread nD τ).loc main_arg10) :=
  (W20_of_ne m ρ c main_arg10 (by decide)).trans (arg10_19 m ρ c)
theorem arg10_21 : W21 m ρ c (Proc.devRef .tc main_arg10) = m ((c : Thread nD τ).loc main_arg10) :=
  (by host_keep hostOps9 : W21 m ρ c (Proc.devRef .tc main_arg10) = W20 m ρ c (Proc.devRef .tc main_arg10)).trans (arg10_20 m ρ c)
theorem arg10_22 : W22 m ρ c (Proc.devRef .tc main_arg10) = m ((c : Thread nD τ).loc main_arg10) :=
  (W22_of_ne m ρ c main_arg10 (by decide)).trans (arg10_21 m ρ c)
theorem arg10_23 : W23 m ρ c (Proc.devRef .tc main_arg10) = m ((c : Thread nD τ).loc main_arg10) :=
  (by host_keep hostOps10 : W23 m ρ c (Proc.devRef .tc main_arg10) = W22 m ρ c (Proc.devRef .tc main_arg10)).trans (arg10_22 m ρ c)

/-! ### Argument 12 -/

theorem arg12_0 : W0 m ρ c (Proc.devRef .tc main_arg12) = m ((c : Thread nD τ).loc main_arg12) := rfl
theorem arg12_1 : W1 m ρ c (Proc.devRef .tc main_arg12) = m ((c : Thread nD τ).loc main_arg12) :=
  (by host_keep hostOps0 : W1 m ρ c (Proc.devRef .tc main_arg12) = W0 m ρ c (Proc.devRef .tc main_arg12)).trans (arg12_0 m ρ c)
theorem arg12_2 : W2 m ρ c (Proc.devRef .tc main_arg12) = m ((c : Thread nD τ).loc main_arg12) :=
  (by host_keep hostOps0_1 : W2 m ρ c (Proc.devRef .tc main_arg12) = W1 m ρ c (Proc.devRef .tc main_arg12)).trans (arg12_1 m ρ c)
theorem arg12_3 : W3 m ρ c (Proc.devRef .tc main_arg12) = m ((c : Thread nD τ).loc main_arg12) :=
  (by host_keep hostOps0_2 : W3 m ρ c (Proc.devRef .tc main_arg12) = W2 m ρ c (Proc.devRef .tc main_arg12)).trans (arg12_2 m ρ c)
theorem arg12_4 : W4 m ρ c (Proc.devRef .tc main_arg12) = m ((c : Thread nD τ).loc main_arg12) :=
  (W4_of_ne m ρ c main_arg12 (by decide)).trans (arg12_3 m ρ c)
theorem arg12_5 : W5 m ρ c (Proc.devRef .tc main_arg12) = m ((c : Thread nD τ).loc main_arg12) :=
  (by host_keep hostOps1 : W5 m ρ c (Proc.devRef .tc main_arg12) = W4 m ρ c (Proc.devRef .tc main_arg12)).trans (arg12_4 m ρ c)
theorem arg12_6 : W6 m ρ c (Proc.devRef .tc main_arg12) = m ((c : Thread nD τ).loc main_arg12) :=
  (W6_of_ne m ρ c main_arg12 (by decide)).trans (arg12_5 m ρ c)
theorem arg12_7 : W7 m ρ c (Proc.devRef .tc main_arg12) = m ((c : Thread nD τ).loc main_arg12) :=
  (by host_keep hostOps2 : W7 m ρ c (Proc.devRef .tc main_arg12) = W6 m ρ c (Proc.devRef .tc main_arg12)).trans (arg12_6 m ρ c)
theorem arg12_8 : W8 m ρ c (Proc.devRef .tc main_arg12) = m ((c : Thread nD τ).loc main_arg12) :=
  (W8_of_ne m ρ c main_arg12 (by decide)).trans (arg12_7 m ρ c)
theorem arg12_9 : W9 m ρ c (Proc.devRef .tc main_arg12) = m ((c : Thread nD τ).loc main_arg12) :=
  (by host_keep hostOps3 : W9 m ρ c (Proc.devRef .tc main_arg12) = W8 m ρ c (Proc.devRef .tc main_arg12)).trans (arg12_8 m ρ c)
theorem arg12_10 : W10 m ρ c (Proc.devRef .tc main_arg12) = m ((c : Thread nD τ).loc main_arg12) :=
  (W10_of_ne m ρ c main_arg12 (by decide)).trans (arg12_9 m ρ c)
theorem arg12_11 : W11 m ρ c (Proc.devRef .tc main_arg12) = m ((c : Thread nD τ).loc main_arg12) :=
  (by host_keep hostOps4 : W11 m ρ c (Proc.devRef .tc main_arg12) = W10 m ρ c (Proc.devRef .tc main_arg12)).trans (arg12_10 m ρ c)
theorem arg12_12 : W12 m ρ c (Proc.devRef .tc main_arg12) = m ((c : Thread nD τ).loc main_arg12) :=
  (W12_of_ne m ρ c main_arg12 (by decide)).trans (arg12_11 m ρ c)
theorem arg12_13 : W13 m ρ c (Proc.devRef .tc main_arg12) = m ((c : Thread nD τ).loc main_arg12) :=
  (by host_keep hostOps5 : W13 m ρ c (Proc.devRef .tc main_arg12) = W12 m ρ c (Proc.devRef .tc main_arg12)).trans (arg12_12 m ρ c)
theorem arg12_14 : W14 m ρ c (Proc.devRef .tc main_arg12) = m ((c : Thread nD τ).loc main_arg12) :=
  (W14_of_ne m ρ c main_arg12 (by decide)).trans (arg12_13 m ρ c)
theorem arg12_15 : W15 m ρ c (Proc.devRef .tc main_arg12) = m ((c : Thread nD τ).loc main_arg12) :=
  (by host_keep hostOps6 : W15 m ρ c (Proc.devRef .tc main_arg12) = W14 m ρ c (Proc.devRef .tc main_arg12)).trans (arg12_14 m ρ c)
theorem arg12_16 : W16 m ρ c (Proc.devRef .tc main_arg12) = m ((c : Thread nD τ).loc main_arg12) :=
  (W16_of_ne m ρ c main_arg12 (by decide)).trans (arg12_15 m ρ c)
theorem arg12_17 : W17 m ρ c (Proc.devRef .tc main_arg12) = m ((c : Thread nD τ).loc main_arg12) :=
  (by host_keep hostOps7 : W17 m ρ c (Proc.devRef .tc main_arg12) = W16 m ρ c (Proc.devRef .tc main_arg12)).trans (arg12_16 m ρ c)
theorem arg12_18 : W18 m ρ c (Proc.devRef .tc main_arg12) = m ((c : Thread nD τ).loc main_arg12) :=
  (W18_of_ne m ρ c main_arg12 (by decide)).trans (arg12_17 m ρ c)
theorem arg12_19 : W19 m ρ c (Proc.devRef .tc main_arg12) = m ((c : Thread nD τ).loc main_arg12) :=
  (by host_keep hostOps8 : W19 m ρ c (Proc.devRef .tc main_arg12) = W18 m ρ c (Proc.devRef .tc main_arg12)).trans (arg12_18 m ρ c)
theorem arg12_20 : W20 m ρ c (Proc.devRef .tc main_arg12) = m ((c : Thread nD τ).loc main_arg12) :=
  (W20_of_ne m ρ c main_arg12 (by decide)).trans (arg12_19 m ρ c)
theorem arg12_21 : W21 m ρ c (Proc.devRef .tc main_arg12) = m ((c : Thread nD τ).loc main_arg12) :=
  (by host_keep hostOps9 : W21 m ρ c (Proc.devRef .tc main_arg12) = W20 m ρ c (Proc.devRef .tc main_arg12)).trans (arg12_20 m ρ c)
theorem arg12_22 : W22 m ρ c (Proc.devRef .tc main_arg12) = m ((c : Thread nD τ).loc main_arg12) :=
  (W22_of_ne m ρ c main_arg12 (by decide)).trans (arg12_21 m ρ c)
theorem arg12_23 : W23 m ρ c (Proc.devRef .tc main_arg12) = m ((c : Thread nD τ).loc main_arg12) :=
  (by host_keep hostOps10 : W23 m ρ c (Proc.devRef .tc main_arg12) = W22 m ρ c (Proc.devRef .tc main_arg12)).trans (arg12_22 m ρ c)

/-! ### src -/

theorem src_4 : W4 m ρ c (Proc.devRef .tc main_v5) = W3 m ρ c (Proc.devRef .tc main_v5) :=
  (W4_of_ne m ρ c main_v5 (by decide))
theorem src_5 : W5 m ρ c (Proc.devRef .tc main_v5) = W3 m ρ c (Proc.devRef .tc main_v5) :=
  (by host_keep hostOps1 : W5 m ρ c (Proc.devRef .tc main_v5) = W4 m ρ c (Proc.devRef .tc main_v5)).trans (src_4 m ρ c)
theorem src_6 : W6 m ρ c (Proc.devRef .tc main_v5) = W3 m ρ c (Proc.devRef .tc main_v5) :=
  (W6_of_ne m ρ c main_v5 (by decide)).trans (src_5 m ρ c)
theorem src_7 : W7 m ρ c (Proc.devRef .tc main_v5) = W3 m ρ c (Proc.devRef .tc main_v5) :=
  (by host_keep hostOps2 : W7 m ρ c (Proc.devRef .tc main_v5) = W6 m ρ c (Proc.devRef .tc main_v5)).trans (src_6 m ρ c)
theorem src_8 : W8 m ρ c (Proc.devRef .tc main_v5) = W3 m ρ c (Proc.devRef .tc main_v5) :=
  (W8_of_ne m ρ c main_v5 (by decide)).trans (src_7 m ρ c)
theorem src_9 : W9 m ρ c (Proc.devRef .tc main_v5) = W3 m ρ c (Proc.devRef .tc main_v5) :=
  (by host_keep hostOps3 : W9 m ρ c (Proc.devRef .tc main_v5) = W8 m ρ c (Proc.devRef .tc main_v5)).trans (src_8 m ρ c)
theorem src_10 : W10 m ρ c (Proc.devRef .tc main_v5) = W3 m ρ c (Proc.devRef .tc main_v5) :=
  (W10_of_ne m ρ c main_v5 (by decide)).trans (src_9 m ρ c)
theorem src_11 : W11 m ρ c (Proc.devRef .tc main_v5) = W3 m ρ c (Proc.devRef .tc main_v5) :=
  (by host_keep hostOps4 : W11 m ρ c (Proc.devRef .tc main_v5) = W10 m ρ c (Proc.devRef .tc main_v5)).trans (src_10 m ρ c)
theorem src_12 : W12 m ρ c (Proc.devRef .tc main_v5) = W3 m ρ c (Proc.devRef .tc main_v5) :=
  (W12_of_ne m ρ c main_v5 (by decide)).trans (src_11 m ρ c)
theorem src_13 : W13 m ρ c (Proc.devRef .tc main_v5) = W3 m ρ c (Proc.devRef .tc main_v5) :=
  (by host_keep hostOps5 : W13 m ρ c (Proc.devRef .tc main_v5) = W12 m ρ c (Proc.devRef .tc main_v5)).trans (src_12 m ρ c)
theorem src_14 : W14 m ρ c (Proc.devRef .tc main_v5) = W3 m ρ c (Proc.devRef .tc main_v5) :=
  (W14_of_ne m ρ c main_v5 (by decide)).trans (src_13 m ρ c)
theorem src_15 : W15 m ρ c (Proc.devRef .tc main_v5) = W3 m ρ c (Proc.devRef .tc main_v5) :=
  (by host_keep hostOps6 : W15 m ρ c (Proc.devRef .tc main_v5) = W14 m ρ c (Proc.devRef .tc main_v5)).trans (src_14 m ρ c)
theorem src_16 : W16 m ρ c (Proc.devRef .tc main_v5) = W3 m ρ c (Proc.devRef .tc main_v5) :=
  (W16_of_ne m ρ c main_v5 (by decide)).trans (src_15 m ρ c)
theorem src_17 : W17 m ρ c (Proc.devRef .tc main_v5) = W3 m ρ c (Proc.devRef .tc main_v5) :=
  (by host_keep hostOps7 : W17 m ρ c (Proc.devRef .tc main_v5) = W16 m ρ c (Proc.devRef .tc main_v5)).trans (src_16 m ρ c)
theorem src_18 : W18 m ρ c (Proc.devRef .tc main_v5) = W3 m ρ c (Proc.devRef .tc main_v5) :=
  (W18_of_ne m ρ c main_v5 (by decide)).trans (src_17 m ρ c)
theorem src_19 : W19 m ρ c (Proc.devRef .tc main_v5) = W3 m ρ c (Proc.devRef .tc main_v5) :=
  (by host_keep hostOps8 : W19 m ρ c (Proc.devRef .tc main_v5) = W18 m ρ c (Proc.devRef .tc main_v5)).trans (src_18 m ρ c)
theorem src_20 : W20 m ρ c (Proc.devRef .tc main_v5) = W3 m ρ c (Proc.devRef .tc main_v5) :=
  (W20_of_ne m ρ c main_v5 (by decide)).trans (src_19 m ρ c)

/-! ### dst -/

theorem dst_4 : W4 m ρ c (Proc.devRef .tc main_v6) = W3 m ρ c (Proc.devRef .tc main_v6) :=
  (W4_of_ne m ρ c main_v6 (by decide))
theorem dst_5 : W5 m ρ c (Proc.devRef .tc main_v6) = W3 m ρ c (Proc.devRef .tc main_v6) :=
  (by host_keep hostOps1 : W5 m ρ c (Proc.devRef .tc main_v6) = W4 m ρ c (Proc.devRef .tc main_v6)).trans (dst_4 m ρ c)
theorem dst_6 : W6 m ρ c (Proc.devRef .tc main_v6) = W3 m ρ c (Proc.devRef .tc main_v6) :=
  (W6_of_ne m ρ c main_v6 (by decide)).trans (dst_5 m ρ c)
theorem dst_7 : W7 m ρ c (Proc.devRef .tc main_v6) = W3 m ρ c (Proc.devRef .tc main_v6) :=
  (by host_keep hostOps2 : W7 m ρ c (Proc.devRef .tc main_v6) = W6 m ρ c (Proc.devRef .tc main_v6)).trans (dst_6 m ρ c)
theorem dst_8 : W8 m ρ c (Proc.devRef .tc main_v6) = W3 m ρ c (Proc.devRef .tc main_v6) :=
  (W8_of_ne m ρ c main_v6 (by decide)).trans (dst_7 m ρ c)
theorem dst_9 : W9 m ρ c (Proc.devRef .tc main_v6) = W3 m ρ c (Proc.devRef .tc main_v6) :=
  (by host_keep hostOps3 : W9 m ρ c (Proc.devRef .tc main_v6) = W8 m ρ c (Proc.devRef .tc main_v6)).trans (dst_8 m ρ c)
theorem dst_10 : W10 m ρ c (Proc.devRef .tc main_v6) = W3 m ρ c (Proc.devRef .tc main_v6) :=
  (W10_of_ne m ρ c main_v6 (by decide)).trans (dst_9 m ρ c)
theorem dst_11 : W11 m ρ c (Proc.devRef .tc main_v6) = W3 m ρ c (Proc.devRef .tc main_v6) :=
  (by host_keep hostOps4 : W11 m ρ c (Proc.devRef .tc main_v6) = W10 m ρ c (Proc.devRef .tc main_v6)).trans (dst_10 m ρ c)
theorem dst_12 : W12 m ρ c (Proc.devRef .tc main_v6) = W3 m ρ c (Proc.devRef .tc main_v6) :=
  (W12_of_ne m ρ c main_v6 (by decide)).trans (dst_11 m ρ c)
theorem dst_13 : W13 m ρ c (Proc.devRef .tc main_v6) = W3 m ρ c (Proc.devRef .tc main_v6) :=
  (by host_keep hostOps5 : W13 m ρ c (Proc.devRef .tc main_v6) = W12 m ρ c (Proc.devRef .tc main_v6)).trans (dst_12 m ρ c)
theorem dst_14 : W14 m ρ c (Proc.devRef .tc main_v6) = W3 m ρ c (Proc.devRef .tc main_v6) :=
  (W14_of_ne m ρ c main_v6 (by decide)).trans (dst_13 m ρ c)
theorem dst_15 : W15 m ρ c (Proc.devRef .tc main_v6) = W3 m ρ c (Proc.devRef .tc main_v6) :=
  (by host_keep hostOps6 : W15 m ρ c (Proc.devRef .tc main_v6) = W14 m ρ c (Proc.devRef .tc main_v6)).trans (dst_14 m ρ c)
theorem dst_16 : W16 m ρ c (Proc.devRef .tc main_v6) = W3 m ρ c (Proc.devRef .tc main_v6) :=
  (W16_of_ne m ρ c main_v6 (by decide)).trans (dst_15 m ρ c)
theorem dst_17 : W17 m ρ c (Proc.devRef .tc main_v6) = W3 m ρ c (Proc.devRef .tc main_v6) :=
  (by host_keep hostOps7 : W17 m ρ c (Proc.devRef .tc main_v6) = W16 m ρ c (Proc.devRef .tc main_v6)).trans (dst_16 m ρ c)
theorem dst_18 : W18 m ρ c (Proc.devRef .tc main_v6) = W3 m ρ c (Proc.devRef .tc main_v6) :=
  (W18_of_ne m ρ c main_v6 (by decide)).trans (dst_17 m ρ c)
theorem dst_19 : W19 m ρ c (Proc.devRef .tc main_v6) = W3 m ρ c (Proc.devRef .tc main_v6) :=
  (by host_keep hostOps8 : W19 m ρ c (Proc.devRef .tc main_v6) = W18 m ρ c (Proc.devRef .tc main_v6)).trans (dst_18 m ρ c)
theorem dst_20 : W20 m ρ c (Proc.devRef .tc main_v6) = W3 m ρ c (Proc.devRef .tc main_v6) :=
  (W20_of_ne m ρ c main_v6 (by decide)).trans (dst_19 m ρ c)

/-! ### nrm -/

theorem nrm_4 : W4 m ρ c (Proc.devRef .tc main_v31) = W3 m ρ c (Proc.devRef .tc main_v31) :=
  (W4_of_ne m ρ c main_v31 (by decide))
theorem nrm_5 : W5 m ρ c (Proc.devRef .tc main_v31) = W3 m ρ c (Proc.devRef .tc main_v31) :=
  (by host_keep hostOps1 : W5 m ρ c (Proc.devRef .tc main_v31) = W4 m ρ c (Proc.devRef .tc main_v31)).trans (nrm_4 m ρ c)
theorem nrm_6 : W6 m ρ c (Proc.devRef .tc main_v31) = W3 m ρ c (Proc.devRef .tc main_v31) :=
  (W6_of_ne m ρ c main_v31 (by decide)).trans (nrm_5 m ρ c)
theorem nrm_7 : W7 m ρ c (Proc.devRef .tc main_v31) = W3 m ρ c (Proc.devRef .tc main_v31) :=
  (by host_keep hostOps2 : W7 m ρ c (Proc.devRef .tc main_v31) = W6 m ρ c (Proc.devRef .tc main_v31)).trans (nrm_6 m ρ c)
theorem nrm_8 : W8 m ρ c (Proc.devRef .tc main_v31) = W3 m ρ c (Proc.devRef .tc main_v31) :=
  (W8_of_ne m ρ c main_v31 (by decide)).trans (nrm_7 m ρ c)
theorem nrm_9 : W9 m ρ c (Proc.devRef .tc main_v31) = W3 m ρ c (Proc.devRef .tc main_v31) :=
  (by host_keep hostOps3 : W9 m ρ c (Proc.devRef .tc main_v31) = W8 m ρ c (Proc.devRef .tc main_v31)).trans (nrm_8 m ρ c)
theorem nrm_10 : W10 m ρ c (Proc.devRef .tc main_v31) = W3 m ρ c (Proc.devRef .tc main_v31) :=
  (W10_of_ne m ρ c main_v31 (by decide)).trans (nrm_9 m ρ c)
theorem nrm_11 : W11 m ρ c (Proc.devRef .tc main_v31) = W3 m ρ c (Proc.devRef .tc main_v31) :=
  (by host_keep hostOps4 : W11 m ρ c (Proc.devRef .tc main_v31) = W10 m ρ c (Proc.devRef .tc main_v31)).trans (nrm_10 m ρ c)
theorem nrm_12 : W12 m ρ c (Proc.devRef .tc main_v31) = W3 m ρ c (Proc.devRef .tc main_v31) :=
  (W12_of_ne m ρ c main_v31 (by decide)).trans (nrm_11 m ρ c)
theorem nrm_13 : W13 m ρ c (Proc.devRef .tc main_v31) = W3 m ρ c (Proc.devRef .tc main_v31) :=
  (by host_keep hostOps5 : W13 m ρ c (Proc.devRef .tc main_v31) = W12 m ρ c (Proc.devRef .tc main_v31)).trans (nrm_12 m ρ c)
theorem nrm_14 : W14 m ρ c (Proc.devRef .tc main_v31) = W3 m ρ c (Proc.devRef .tc main_v31) :=
  (W14_of_ne m ρ c main_v31 (by decide)).trans (nrm_13 m ρ c)
theorem nrm_15 : W15 m ρ c (Proc.devRef .tc main_v31) = W3 m ρ c (Proc.devRef .tc main_v31) :=
  (by host_keep hostOps6 : W15 m ρ c (Proc.devRef .tc main_v31) = W14 m ρ c (Proc.devRef .tc main_v31)).trans (nrm_14 m ρ c)
theorem nrm_16 : W16 m ρ c (Proc.devRef .tc main_v31) = W3 m ρ c (Proc.devRef .tc main_v31) :=
  (W16_of_ne m ρ c main_v31 (by decide)).trans (nrm_15 m ρ c)
theorem nrm_17 : W17 m ρ c (Proc.devRef .tc main_v31) = W3 m ρ c (Proc.devRef .tc main_v31) :=
  (by host_keep hostOps7 : W17 m ρ c (Proc.devRef .tc main_v31) = W16 m ρ c (Proc.devRef .tc main_v31)).trans (nrm_16 m ρ c)
theorem nrm_18 : W18 m ρ c (Proc.devRef .tc main_v31) = W3 m ρ c (Proc.devRef .tc main_v31) :=
  (W18_of_ne m ρ c main_v31 (by decide)).trans (nrm_17 m ρ c)
theorem nrm_19 : W19 m ρ c (Proc.devRef .tc main_v31) = W3 m ρ c (Proc.devRef .tc main_v31) :=
  (by host_keep hostOps8 : W19 m ρ c (Proc.devRef .tc main_v31) = W18 m ρ c (Proc.devRef .tc main_v31)).trans (nrm_18 m ρ c)
theorem nrm_20 : W20 m ρ c (Proc.devRef .tc main_v31) = W3 m ρ c (Proc.devRef .tc main_v31) :=
  (W20_of_ne m ρ c main_v31 (by decide)).trans (nrm_19 m ρ c)

end Cert.KernelIdeal.CarryB

end
-- ==== Proof.RegionMatmul.lean ====
/-
  The five matrix-product regions (regions 0, 2, 4, 6, 8 of the kernel program), each read as ONE whole-array
  function of the buffers the region finds.

  Each of these regions walks a grid of 10 points. At point t it takes rows 5000·t … 5000·t + 4999 of the
  [50000,128] activations and the whole [128,128] weight, multiplies the block by the weight into a zero
  accumulator, and writes the [5000,128] product back as rows 5000·t … 5000·t + 4999 of the result. On the
  extended reals the change of float format before the product is the identity, so the stored entry (r, q) of
  point t is  ∑ k < 128, x(5000·t + r, k) · w(k, q).  The ten row blocks tile the result array (row i lies in the
  block of point i / 5000), so after the region the result array is  GcnSpec.mm 50000 128 x w  at every index.

  Per region p: `payP_apply` (the stored value at an entry of the block), `idx_factsP` (the block index maps over
  the grid), `lhs_blkP` / `rhs_blkP` (an input block's entry as an entry of its array), `pointP` (the stored value
  as an entry of the whole-array product), `flushedP_eq` (what point t writes back is block t of the product),
  `mem_blkP` / `coverP` (the blocks cover the array) and `finalP` (the result array after the region).
-/
import proofs.«125410_j42923903156343_1_alg».proof.Proof.Gen.KernelIdeal.Frame
import proofs.«125410_j42923903156343_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionMatmul

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The block product at an entry -/

theorem lhs_coord0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_coord1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_coord0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_coord1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] block against the [128,128] weight into the zero accumulator, read at entry (r, q): the sum over
    the contracted axis of the block's row r against the weight's column q. -/
theorem block_product_apply (a : FVec Ideal S5000x128 .bf16) (b : FVec Ideal S128x128 .bf16) (r : Fin 5000) (q : Fin 128) :
    matmul (F := Ideal) dot_S5000x128_S128x128_S5000x128_1_0_0_1_n_n none a b (constant (F := Ideal) S5000x128 .f32 0x00000000#32) (ix2 r q)
      = ∑ k : Fin 128, a (ix2 r k) * b (ix2 k q) := by
  refine (Ideal.matmul_constant_zero_apply dot_S5000x128_S128x128_S5000x128_1_0_0_1_n_n none a b (ix2 r q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_coord0 _ _
    | ⟨1, _⟩ => exact (lhs_coord1 _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_coord0 _ _).trans hk
    | ⟨1, _⟩ => exact rhs_coord1 _ _)
  rw [el, er]

/-- The whole-array product read at entry (i, q). -/
theorem mm_at (A : GcnSpec.Arr 50000 128) (W : GcnSpec.Arr 128 128) (i : Fin 50000) (q : Fin 128) :
    GcnSpec.mm 50000 128 A W (ix2 i q) = ∑ k : Fin 128, A (ix2 i k) * W (ix2 k q) := rfl

/-! ## Region 0 -/

/-- The stored value of region 0 at entry (r, q): the change of float format is the identity on the extended reals
    and the cast to the same shape is the identity, so it is the block product. -/
theorem pay0_apply (x0 : Vec Ideal S5000x128 .f32) (x1 : Vec Ideal S128x128 .f32) (r : Fin 5000) (q : Fin 128) :
    k0_pay1 (F := Ideal) x0 x1 (ix2 r q) = ∑ k : Fin 128, x0 (ix2 r k) * x1 (ix2 k q) := by
  unfold k0_pay1
  rw [shapeCast_self]
  exact block_product_apply x0 x1 r q

/-- The block index maps over the grid: the activations' and the result's block row is the grid point and their
    block column 0; the weight's block is (0, 0) at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the activations' block at point t is row t·5000 + r of the array. -/
theorem lhs_blk0 (c : Dev nD) (t : Fin cfg0.N) (r : Fin 5000) (k : Fin 128) (i : Fin 50000) (hi : i.val = t.val * 5000 + r.val) :
    (iblk0 V c 0 t : Vec Ideal S5000x128 .f32) (ix2 r k) = (V c main_arg0 : GcnSpec.Arr 50000 128) (ix2 i k) := by
  obtain ⟨e0, e1, e2, e3, e4, e5⟩ := idx_facts0 t
  show V c main_arg0 (((cfg0.win 0).blk t).view.emb (ix2 r k)) = V c main_arg0 (ix2 i k)
  refine congrArg (V c main_arg0) (funext fun a => Fin.ext ?_)
  match a with
  | ⟨0, _⟩ => show win0_0.index t (0 : Fin 2) * 5000 + 1 * r.val = i.val; omega
  | ⟨1, _⟩ => show win0_0.index t (1 : Fin 2) * 128 + 1 * k.val = k.val; omega

/-- The weight's block at any point is the whole weight. -/
theorem rhs_blk0 (c : Dev nD) (t : Fin cfg0.N) (k : Fin 128) (q : Fin 128) :
    (iblk0 V c 1 t : Vec Ideal S128x128 .f32) (ix2 k q) = (V c main_v33 : GcnSpec.Arr 128 128) (ix2 k q) := by
  obtain ⟨e0, e1, e2, e3, e4, e5⟩ := idx_facts0 t
  show V c main_v33 (((cfg0.win 1).blk t).view.emb (ix2 k q)) = V c main_v33 (ix2 k q)
  refine congrArg (V c main_v33) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The stored value at point t, entry (r, q), is the product of the arrays at row t·5000 + r, column q. -/
theorem point0 (c : Dev nD) (t : Fin cfg0.N) (r : Fin 5000) (q : Fin 128) (i : Fin 50000) (hi : i.val = t.val * 5000 + r.val) :
    k0_pay1 (F := Ideal) (iblk0 V c 0 t) (iblk0 V c 1 t) (ix2 r q) = GcnSpec.mm 50000 128 (V c main_arg0) (V c main_v33) (ix2 i q) := by
  refine ((pay0_apply _ _ r q).trans ?_).trans (mm_at (V c main_arg0) (V c main_v33) i q).symm
  refine Finset.sum_congr rfl fun k _ => ?_
  exact congrArg₂ (· * ·) (lhs_blk0 V c t r k i hi) (rhs_blk0 V c t k q)

/-- What point t writes back is block t of the product of the two arrays. -/
theorem flushed0_eq (c : Dev nD) (t : Fin cfg0.N) :
    (dat0 (F := Ideal) V c).flushed 2 t = ((cfg0.win 2).blk t).view.read (Elt Ideal) (GcnSpec.mm 50000 128 (V c main_arg0) (V c main_v33)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := idx_facts0 t
  funext j
  have hj0 : (j 0).val < 5000 := (j 0).isLt
  have hj1 : (j 1).val < 128 := (j 1).isLt
  have ht : t.val < 10 := lt_of_lt_of_eq t.isLt N_0
  have ej : j = ix2 (⟨(j 0).val, hj0⟩ : Fin 5000) (⟨(j 1).val, hj1⟩ : Fin 128) :=
    funext fun a => Fin.ext (by match a with | ⟨0, _⟩ => rfl | ⟨1, _⟩ => rfl)
  have ei : ((cfg0.win 2).blk t).view.emb j = ix2 (⟨t.val * 5000 + (j 0).val, by omega⟩ : Fin 50000) (⟨(j 1).val, hj1⟩ : Fin 128) :=
    funext fun a => Fin.ext (by
      match a with
      | ⟨0, _⟩ => show win0_2.index t (0 : Fin 2) * 5000 + 1 * (j 0).val = t.val * 5000 + (j 0).val; omega
      | ⟨1, _⟩ => show win0_2.index t (1 : Fin 2) * 128 + 1 * (j 1).val = (j 1).val; omega)
  show k0_pay1 (F := Ideal) (iblk0 V c 0 t) (iblk0 V c 1 t) j = GcnSpec.mm 50000 128 (V c main_arg0) (V c main_v33) (((cfg0.win 2).blk t).view.emb j)
  exact (congrArg (k0_pay1 (F := Ideal) (iblk0 V c 0 t) (iblk0 V c 1 t)) ej).trans
    ((point0 V c t _ _ _ rfl).trans (congrArg (GcnSpec.mm 50000 128 (V c main_arg0) (V c main_v33)) ei.symm))

/-- An index of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Every row of the array lies in the block of the point (row / 5000). -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0 the result array is the product of the activations and the weight as the region finds them. -/
theorem final0 (c : Dev nD) :
    (dat0 (F := Ideal) V c).arrAt 2 cfg0.N = GcnSpec.mm 50000 128 (V c (Pipeline.arrRef spec0 0)) (V c (Pipeline.arrRef spec0 1)) :=
  (dat0 (F := Ideal) V c).arrAt_eq_of_cover 2 (GcnSpec.mm 50000 128 (V c main_arg0) (V c main_v33)) (fun t _ => flushed0_eq V c t) cover0

/-! ## Region 2 -/

/-- The stored value of region 2 at entry (r, q): the change of float format is the identity on the extended reals
    and the casts to the same shape are the identity, so it is the block product. -/
theorem pay2_apply (x0 : Vec Ideal S5000x128 .f32) (x1 : Vec Ideal S128x128 .f32) (r : Fin 5000) (q : Fin 128) :
    k2_pay1 (F := Ideal) x0 x1 (ix2 r q) = ∑ k : Fin 128, x0 (ix2 r k) * x1 (ix2 k q) := by
  unfold k2_pay1
  rw [shapeCast_self, shapeCast_self]
  exact block_product_apply x0 x1 r q

/-- The block index maps over the grid: the activations' and the result's block row is the grid point and their
    block column 0; the weight's block is (0, 0) at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row r of the activations' block at point t is row t·5000 + r of the array. -/
theorem lhs_blk2 (c : Dev nD) (t : Fin cfg2.N) (r : Fin 5000) (k : Fin 128) (i : Fin 50000) (hi : i.val = t.val * 5000 + r.val) :
    (iblk2 V c 0 t : Vec Ideal S5000x128 .f32) (ix2 r k) = (V c main_v63 : GcnSpec.Arr 50000 128) (ix2 i k) := by
  obtain ⟨e0, e1, e2, e3, e4, e5⟩ := idx_facts2 t
  show V c main_v63 (((cfg2.win 0).blk t).view.emb (ix2 r k)) = V c main_v63 (ix2 i k)
  refine congrArg (V c main_v63) (funext fun a => Fin.ext ?_)
  match a with
  | ⟨0, _⟩ => show win2_0.index t (0 : Fin 2) * 5000 + 1 * r.val = i.val; omega
  | ⟨1, _⟩ => show win2_0.index t (1 : Fin 2) * 128 + 1 * k.val = k.val; omega

/-- The weight's block at any point is the whole weight. -/
theorem rhs_blk2 (c : Dev nD) (t : Fin cfg2.N) (k : Fin 128) (q : Fin 128) :
    (iblk2 V c 1 t : Vec Ideal S128x128 .f32) (ix2 k q) = (V c main_v65 : GcnSpec.Arr 128 128) (ix2 k q) := by
  obtain ⟨e0, e1, e2, e3, e4, e5⟩ := idx_facts2 t
  show V c main_v65 (((cfg2.win 1).blk t).view.emb (ix2 k q)) = V c main_v65 (ix2 k q)
  refine congrArg (V c main_v65) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- The stored value at point t, entry (r, q), is the product of the arrays at row t·5000 + r, column q. -/
theorem point2 (c : Dev nD) (t : Fin cfg2.N) (r : Fin 5000) (q : Fin 128) (i : Fin 50000) (hi : i.val = t.val * 5000 + r.val) :
    k2_pay1 (F := Ideal) (iblk2 V c 0 t) (iblk2 V c 1 t) (ix2 r q) = GcnSpec.mm 50000 128 (V c main_v63) (V c main_v65) (ix2 i q) := by
  refine ((pay2_apply _ _ r q).trans ?_).trans (mm_at (V c main_v63) (V c main_v65) i q).symm
  refine Finset.sum_congr rfl fun k _ => ?_
  exact congrArg₂ (· * ·) (lhs_blk2 V c t r k i hi) (rhs_blk2 V c t k q)

/-- What point t writes back is block t of the product of the two arrays. -/
theorem flushed2_eq (c : Dev nD) (t : Fin cfg2.N) :
    (dat2 (F := Ideal) V c).flushed 2 t = ((cfg2.win 2).blk t).view.read (Elt Ideal) (GcnSpec.mm 50000 128 (V c main_v63) (V c main_v65)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := idx_facts2 t
  funext j
  have hj0 : (j 0).val < 5000 := (j 0).isLt
  have hj1 : (j 1).val < 128 := (j 1).isLt
  have ht : t.val < 10 := lt_of_lt_of_eq t.isLt N_2
  have ej : j = ix2 (⟨(j 0).val, hj0⟩ : Fin 5000) (⟨(j 1).val, hj1⟩ : Fin 128) :=
    funext fun a => Fin.ext (by match a with | ⟨0, _⟩ => rfl | ⟨1, _⟩ => rfl)
  have ei : ((cfg2.win 2).blk t).view.emb j = ix2 (⟨t.val * 5000 + (j 0).val, by omega⟩ : Fin 50000) (⟨(j 1).val, hj1⟩ : Fin 128) :=
    funext fun a => Fin.ext (by
      match a with
      | ⟨0, _⟩ => show win2_2.index t (0 : Fin 2) * 5000 + 1 * (j 0).val = t.val * 5000 + (j 0).val; omega
      | ⟨1, _⟩ => show win2_2.index t (1 : Fin 2) * 128 + 1 * (j 1).val = (j 1).val; omega)
  show k2_pay1 (F := Ideal) (iblk2 V c 0 t) (iblk2 V c 1 t) j = GcnSpec.mm 50000 128 (V c main_v63) (V c main_v65) (((cfg2.win 2).blk t).view.emb j)
  exact (congrArg (k2_pay1 (F := Ideal) (iblk2 V c 0 t) (iblk2 V c 1 t)) ej).trans
    ((point2 V c t _ _ _ rfl).trans (congrArg (GcnSpec.mm 50000 128 (V c main_v63) (V c main_v65)) ei.symm))

/-- An index of the array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v66).slice (win2_2.rect t)).set ↔ _
  rw [View.set_slice_whole, Rect.mem_set_unit]
  exact Iff.rfl

/-- Every row of the array lies in the block of the point (row / 5000). -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, e4, e5⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2 the result array is the product of the activations and the weight as the region finds them. -/
theorem final2 (c : Dev nD) :
    (dat2 (F := Ideal) V c).arrAt 2 cfg2.N = GcnSpec.mm 50000 128 (V c (Pipeline.arrRef spec2 0)) (V c (Pipeline.arrRef spec2 1)) :=
  (dat2 (F := Ideal) V c).arrAt_eq_of_cover 2 (GcnSpec.mm 50000 128 (V c main_v63) (V c main_v65)) (fun t _ => flushed2_eq V c t) cover2

/-! ## Region 4 -/

/-- The stored value of region 4 at entry (r, q): the change of float format is the identity on the extended reals
    and the casts to the same shape are the identity, so it is the block product. -/
theorem pay4_apply (x0 : Vec Ideal S5000x128 .f32) (x1 : Vec Ideal S128x128 .f32) (r : Fin 5000) (q : Fin 128) :
    k4_pay1 (F := Ideal) x0 x1 (ix2 r q) = ∑ k : Fin 128, x0 (ix2 r k) * x1 (ix2 k q) := by
  unfold k4_pay1
  rw [shapeCast_self, shapeCast_self]
  exact block_product_apply x0 x1 r q

/-- The block index maps over the grid: the activations' and the result's block row is the grid point and their
    block column 0; the weight's block is (0, 0) at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row r of the activations' block at point t is row t·5000 + r of the array. -/
theorem lhs_blk4 (c : Dev nD) (t : Fin cfg4.N) (r : Fin 5000) (k : Fin 128) (i : Fin 50000) (hi : i.val = t.val * 5000 + r.val) :
    (iblk4 V c 0 t : Vec Ideal S5000x128 .f32) (ix2 r k) = (V c main_v95 : GcnSpec.Arr 50000 128) (ix2 i k) := by
  obtain ⟨e0, e1, e2, e3, e4, e5⟩ := idx_facts4 t
  show V c main_v95 (((cfg4.win 0).blk t).view.emb (ix2 r k)) = V c main_v95 (ix2 i k)
  refine congrArg (V c main_v95) (funext fun a => Fin.ext ?_)
  match a with
  | ⟨0, _⟩ => show win4_0.index t (0 : Fin 2) * 5000 + 1 * r.val = i.val; omega
  | ⟨1, _⟩ => show win4_0.index t (1 : Fin 2) * 128 + 1 * k.val = k.val; omega

/-- The weight's block at any point is the whole weight. -/
theorem rhs_blk4 (c : Dev nD) (t : Fin cfg4.N) (k : Fin 128) (q : Fin 128) :
    (iblk4 V c 1 t : Vec Ideal S128x128 .f32) (ix2 k q) = (V c main_v97 : GcnSpec.Arr 128 128) (ix2 k q) := by
  obtain ⟨e0, e1, e2, e3, e4, e5⟩ := idx_facts4 t
  show V c main_v97 (((cfg4.win 1).blk t).view.emb (ix2 k q)) = V c main_v97 (ix2 k q)
  refine congrArg (V c main_v97) (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- The stored value at point t, entry (r, q), is the product of the arrays at row t·5000 + r, column q. -/
theorem point4 (c : Dev nD) (t : Fin cfg4.N) (r : Fin 5000) (q : Fin 128) (i : Fin 50000) (hi : i.val = t.val * 5000 + r.val) :
    k4_pay1 (F := Ideal) (iblk4 V c 0 t) (iblk4 V c 1 t) (ix2 r q) = GcnSpec.mm 50000 128 (V c main_v95) (V c main_v97) (ix2 i q) := by
  refine ((pay4_apply _ _ r q).trans ?_).trans (mm_at (V c main_v95) (V c main_v97) i q).symm
  refine Finset.sum_congr rfl fun k _ => ?_
  exact congrArg₂ (· * ·) (lhs_blk4 V c t r k i hi) (rhs_blk4 V c t k q)

/-- What point t writes back is block t of the product of the two arrays. -/
theorem flushed4_eq (c : Dev nD) (t : Fin cfg4.N) :
    (dat4 (F := Ideal) V c).flushed 2 t = ((cfg4.win 2).blk t).view.read (Elt Ideal) (GcnSpec.mm 50000 128 (V c main_v95) (V c main_v97)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  obtain ⟨e0, e1, e2, e3, e4, e5⟩ := idx_facts4 t
  funext j
  have hj0 : (j 0).val < 5000 := (j 0).isLt
  have hj1 : (j 1).val < 128 := (j 1).isLt
  have ht : t.val < 10 := lt_of_lt_of_eq t.isLt N_4
  have ej : j = ix2 (⟨(j 0).val, hj0⟩ : Fin 5000) (⟨(j 1).val, hj1⟩ : Fin 128) :=
    funext fun a => Fin.ext (by match a with | ⟨0, _⟩ => rfl | ⟨1, _⟩ => rfl)
  have ei : ((cfg4.win 2).blk t).view.emb j = ix2 (⟨t.val * 5000 + (j 0).val, by omega⟩ : Fin 50000) (⟨(j 1).val, hj1⟩ : Fin 128) :=
    funext fun a => Fin.ext (by
      match a with
      | ⟨0, _⟩ => show win4_2.index t (0 : Fin 2) * 5000 + 1 * (j 0).val = t.val * 5000 + (j 0).val; omega
      | ⟨1, _⟩ => show win4_2.index t (1 : Fin 2) * 128 + 1 * (j 1).val = (j 1).val; omega)
  show k4_pay1 (F := Ideal) (iblk4 V c 0 t) (iblk4 V c 1 t) j = GcnSpec.mm 50000 128 (V c main_v95) (V c main_v97) (((cfg4.win 2).blk t).view.emb j)
  exact (congrArg (k4_pay1 (F := Ideal) (iblk4 V c 0 t) (iblk4 V c 1 t)) ej).trans
    ((point4 V c t _ _ _ rfl).trans (congrArg (GcnSpec.mm 50000 128 (V c main_v95) (V c main_v97)) ei.symm))

/-- An index of the array is in point t's block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v98).slice (win4_2.rect t)).set ↔ _
  rw [View.set_slice_whole, Rect.mem_set_unit]
  exact Iff.rfl

/-- Every row of the array lies in the block of the point (row / 5000). -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨e0, e1, e2, e3, e4, e5⟩ := idx_facts4 t
  have ht : t.val = (i 0).val / 5000 := rfl
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After region 4 the result array is the product of the activations and the weight as the region finds them. -/
theorem final4 (c : Dev nD) :
    (dat4 (F := Ideal) V c).arrAt 2 cfg4.N = GcnSpec.mm 50000 128 (V c (Pipeline.arrRef spec4 0)) (V c (Pipeline.arrRef spec4 1)) :=
  (dat4 (F := Ideal) V c).arrAt_eq_of_cover 2 (GcnSpec.mm 50000 128 (V c main_v95) (V c main_v97)) (fun t _ => flushed4_eq V c t) cover4

/-! ## Region 6 -/

/-- The stored value of region 6 at entry (r, q): the change of float format is the identity on the extended reals
    and the casts to the same shape are the identity, so it is the block product. -/
theorem pay6_apply (x0 : Vec Ideal S5000x128 .f32) (x1 : Vec Ideal S128x128 .f32) (r : Fin 5000) (q : Fin 128) :
    k6_pay1 (F := Ideal) x0 x1 (ix2 r q) = ∑ k : Fin 128, x0 (ix2 r k) * x1 (ix2 k q) := by
  unfold k6_pay1
  rw [shapeCast_self, shapeCast_self]
  exact block_product_apply x0 x1 r q

/-- The block index maps over the grid: the activations' and the result's block row is the grid point and their
    block column 0; the weight's block is (0, 0) at every point. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row r of the activations' block at point t is row t·5000 + r of the array. -/
theorem lhs_blk6 (c : Dev nD) (t : Fin cfg6.N) (r : Fin 5000) (k : Fin 128) (i : Fin 50000) (hi : i.val = t.val * 5000 + r.val) :
    (iblk6 V c 0 t : Vec Ideal S5000x128 .f32) (ix2 r k) = (V c main_v127 : GcnSpec.Arr 50000 128) (ix2 i k) := by
  obtain ⟨e0, e1, e2, e3, e4, e5⟩ := idx_facts6 t
  show V c main_v127 (((cfg6.win 0).blk t).view.emb (ix2 r k)) = V c main_v127 (ix2 i k)
  refine congrArg (V c main_v127) (funext fun a => Fin.ext ?_)
  match a with
  | ⟨0, _⟩ => show win6_0.index t (0 : Fin 2) * 5000 + 1 * r.val = i.val; omega
  | ⟨1, _⟩ => show win6_0.index t (1 : Fin 2) * 128 + 1 * k.val = k.val; omega

/-- The weight's block at any point is the whole weight. -/
theorem rhs_blk6 (c : Dev nD) (t : Fin cfg6.N) (k : Fin 128) (q : Fin 128) :
    (iblk6 V c 1 t : Vec Ideal S128x128 .f32) (ix2 k q) = (V c main_v129 : GcnSpec.Arr 128 128) (ix2 k q) := by
  obtain ⟨e0, e1, e2, e3, e4, e5⟩ := idx_facts6 t
  show V c main_v129 (((cfg6.win 1).blk t).view.emb (ix2 k q)) = V c main_v129 (ix2 k q)
  refine congrArg (V c main_v129) (funext fun a => Fin.ext ?_)
  match a with
  | ⟨0, _⟩ => show win6_1.index t (0 : Fin 2) * 128 + 1 * k.val = k.val; omega
  | ⟨1, _⟩ => show win6_1.index t (1 : Fin 2) * 128 + 1 * q.val = q.val; omega

/-- The stored value at point t, entry (r, q), is the product of the arrays at row t·5000 + r, column q. -/
theorem point6 (c : Dev nD) (t : Fin cfg6.N) (r : Fin 5000) (q : Fin 128) (i : Fin 50000) (hi : i.val = t.val * 5000 + r.val) :
    k6_pay1 (F := Ideal) (iblk6 V c 0 t) (iblk6 V c 1 t) (ix2 r q) = GcnSpec.mm 50000 128 (V c main_v127) (V c main_v129) (ix2 i q) := by
  refine ((pay6_apply _ _ r q).trans ?_).trans (mm_at (V c main_v127) (V c main_v129) i q).symm
  refine Finset.sum_congr rfl fun k _ => ?_
  exact congrArg₂ (· * ·) (lhs_blk6 V c t r k i hi) (rhs_blk6 V c t k q)

/-- What point t writes back is block t of the product of the two arrays. -/
theorem flushed6_eq (c : Dev nD) (t : Fin cfg6.N) :
    (dat6 (F := Ideal) V c).flushed 2 t = ((cfg6.win 2).blk t).view.read (Elt Ideal) (GcnSpec.mm 50000 128 (V c main_v127) (V c main_v129)) := by
  show (cfg6.win 2).cut (grid6.coords t) ((dat6 V c).after 2 t) = _
  rw [after6_2]
  unfold out6_2
  rw [View.canon_unit_zero zero_offsets]
  simp only [View.ld_unit_zero (S := S5000x128) zero_offsets, View.ld_unit_zero (S := S128x128) zero_offsets]
  obtain ⟨e0, e1, e2, e3, e4, e5⟩ := idx_facts6 t
  funext j
  have hj0 : (j 0).val < 5000 := (j 0).isLt
  have hj1 : (j 1).val < 128 := (j 1).isLt
  have ht : t.val < 10 := lt_of_lt_of_eq t.isLt N_6
  have ej : j = ix2 (⟨(j 0).val, hj0⟩ : Fin 5000) (⟨(j 1).val, hj1⟩ : Fin 128) :=
    funext fun a => Fin.ext (by match a with | ⟨0, _⟩ => rfl | ⟨1, _⟩ => rfl)
  have ei : ((cfg6.win 2).blk t).view.emb j = ix2 (⟨t.val * 5000 + (j 0).val, by omega⟩ : Fin 50000) (⟨(j 1).val, hj1⟩ : Fin 128) :=
    funext fun a => Fin.ext (by
      match a with
      | ⟨0, _⟩ => show win6_2.index t (0 : Fin 2) * 5000 + 1 * (j 0).val = t.val * 5000 + (j 0).val; omega
      | ⟨1, _⟩ => show win6_2.index t (1 : Fin 2) * 128 + 1 * (j 1).val = (j 1).val; omega)
  show k6_pay1 (F := Ideal) (iblk6 V c 0 t) (iblk6 V c 1 t) j = GcnSpec.mm 50000 128 (V c main_v127) (V c main_v129) (((cfg6.win 2).blk t).view.emb j)
  exact (congrArg (k6_pay1 (F := Ideal) (iblk6 V c 0 t) (iblk6 V c 1 t)) ej).trans
    ((point6 V c t _ _ _ rfl).trans (congrArg (GcnSpec.mm 50000 128 (V c main_v127) (V c main_v129)) ei.symm))

/-- An index of the array is in point t's block iff each coordinate is in the block's range on its axis. -/
theorem mem_blk6 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v130).slice (win6_2.rect t)).set ↔ _
  rw [View.set_slice_whole, Rect.mem_set_unit]
  exact Iff.rfl

/-- Every row of the array lies in the block of the point (row / 5000). -/
theorem cover6 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨e0, e1, e2, e3, e4, e5⟩ := idx_facts6 t
  have ht : t.val = (i 0).val / 5000 := rfl
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- After region 6 the result array is the product of the activations and the weight as the region finds them. -/
theorem final6 (c : Dev nD) :
    (dat6 (F := Ideal) V c).arrAt 2 cfg6.N = GcnSpec.mm 50000 128 (V c (Pipeline.arrRef spec6 0)) (V c (Pipeline.arrRef spec6 1)) :=
  (dat6 (F := Ideal) V c).arrAt_eq_of_cover 2 (GcnSpec.mm 50000 128 (V c main_v127) (V c main_v129)) (fun t _ => flushed6_eq V c t) cover6

/-! ## Region 8 -/

/-- The stored value of region 8 at entry (r, q): the change of float format is the identity on the extended reals
    and the casts to the same shape are the identity, so it is the block product. -/
theorem pay8_apply (x0 : Vec Ideal S5000x128 .f32) (x1 : Vec Ideal S128x128 .f32) (r : Fin 5000) (q : Fin 128) :
    k8_pay1 (F := Ideal) x0 x1 (ix2 r q) = ∑ k : Fin 128, x0 (ix2 r k) * x1 (ix2 k q) := by
  unfold k8_pay1
  rw [shapeCast_self, shapeCast_self]
  exact block_product_apply x0 x1 r q

/-- The block index maps over the grid: the activations' and the result's block row is the grid point and their
    block column 0; the weight's block is (0, 0) at every point. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Row r of the activations' block at point t is row t·5000 + r of the array. -/
theorem lhs_blk8 (c : Dev nD) (t : Fin cfg8.N) (r : Fin 5000) (k : Fin 128) (i : Fin 50000) (hi : i.val = t.val * 5000 + r.val) :
    (iblk8 V c 0 t : Vec Ideal S5000x128 .f32) (ix2 r k) = (V c main_v159 : GcnSpec.Arr 50000 128) (ix2 i k) := by
  obtain ⟨e0, e1, e2, e3, e4, e5⟩ := idx_facts8 t
  show V c main_v159 (((cfg8.win 0).blk t).view.emb (ix2 r k)) = V c main_v159 (ix2 i k)
  refine congrArg (V c main_v159) (funext fun a => Fin.ext ?_)
  match a with
  | ⟨0, _⟩ => show win8_0.index t (0 : Fin 2) * 5000 + 1 * r.val = i.val; omega
  | ⟨1, _⟩ => show win8_0.index t (1 : Fin 2) * 128 + 1 * k.val = k.val; omega

/-- The weight's block at any point is the whole weight. -/
theorem rhs_blk8 (c : Dev nD) (t : Fin cfg8.N) (k : Fin 128) (q : Fin 128) :
    (iblk8 V c 1 t : Vec Ideal S128x128 .f32) (ix2 k q) = (V c main_v161 : GcnSpec.Arr 128 128) (ix2 k q) := by
  obtain ⟨e0, e1, e2, e3, e4, e5⟩ := idx_facts8 t
  show V c main_v161 (((cfg8.win 1).blk t).view.emb (ix2 k q)) = V c main_v161 (ix2 k q)
  refine congrArg (V c main_v161) (funext fun a => Fin.ext ?_)
  match a with
  | ⟨0, _⟩ => show win8_1.index t (0 : Fin 2) * 128 + 1 * k.val = k.val; omega
  | ⟨1, _⟩ => show win8_1.index t (1 : Fin 2) * 128 + 1 * q.val = q.val; omega

/-- The stored value at point t, entry (r, q), is the product of the arrays at row t·5000 + r, column q. -/
theorem point8 (c : Dev nD) (t : Fin cfg8.N) (r : Fin 5000) (q : Fin 128) (i : Fin 50000) (hi : i.val = t.val * 5000 + r.val) :
    k8_pay1 (F := Ideal) (iblk8 V c 0 t) (iblk8 V c 1 t) (ix2 r q) = GcnSpec.mm 50000 128 (V c main_v159) (V c main_v161) (ix2 i q) := by
  refine ((pay8_apply _ _ r q).trans ?_).trans (mm_at (V c main_v159) (V c main_v161) i q).symm
  refine Finset.sum_congr rfl fun k _ => ?_
  exact congrArg₂ (· * ·) (lhs_blk8 V c t r k i hi) (rhs_blk8 V c t k q)

/-- What point t writes back is block t of the product of the two arrays. -/
theorem flushed8_eq (c : Dev nD) (t : Fin cfg8.N) :
    (dat8 (F := Ideal) V c).flushed 2 t = ((cfg8.win 2).blk t).view.read (Elt Ideal) (GcnSpec.mm 50000 128 (V c main_v159) (V c main_v161)) := by
  show (cfg8.win 2).cut (grid8.coords t) ((dat8 V c).after 2 t) = _
  rw [after8_2]
  unfold out8_2
  rw [View.canon_unit_zero zero_offsets]
  simp only [View.ld_unit_zero (S := S5000x128) zero_offsets, View.ld_unit_zero (S := S128x128) zero_offsets]
  obtain ⟨e0, e1, e2, e3, e4, e5⟩ := idx_facts8 t
  funext j
  have hj0 : (j 0).val < 5000 := (j 0).isLt
  have hj1 : (j 1).val < 128 := (j 1).isLt
  have ht : t.val < 10 := lt_of_lt_of_eq t.isLt N_8
  have ej : j = ix2 (⟨(j 0).val, hj0⟩ : Fin 5000) (⟨(j 1).val, hj1⟩ : Fin 128) :=
    funext fun a => Fin.ext (by match a with | ⟨0, _⟩ => rfl | ⟨1, _⟩ => rfl)
  have ei : ((cfg8.win 2).blk t).view.emb j = ix2 (⟨t.val * 5000 + (j 0).val, by omega⟩ : Fin 50000) (⟨(j 1).val, hj1⟩ : Fin 128) :=
    funext fun a => Fin.ext (by
      match a with
      | ⟨0, _⟩ => show win8_2.index t (0 : Fin 2) * 5000 + 1 * (j 0).val = t.val * 5000 + (j 0).val; omega
      | ⟨1, _⟩ => show win8_2.index t (1 : Fin 2) * 128 + 1 * (j 1).val = (j 1).val; omega)
  show k8_pay1 (F := Ideal) (iblk8 V c 0 t) (iblk8 V c 1 t) j = GcnSpec.mm 50000 128 (V c main_v159) (V c main_v161) (((cfg8.win 2).blk t).view.emb j)
  exact (congrArg (k8_pay1 (F := Ideal) (iblk8 V c 0 t) (iblk8 V c 1 t)) ej).trans
    ((point8 V c t _ _ _ rfl).trans (congrArg (GcnSpec.mm 50000 128 (V c main_v159) (V c main_v161)) ei.symm))

/-- An index of the array is in point t's block iff each coordinate is in the block's range on its axis. -/
theorem mem_blk8 (t : Fin cfg8.N) (i : S50000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v162).slice (win8_2.rect t)).set ↔ _
  rw [View.set_slice_whole, Rect.mem_set_unit]
  exact Iff.rfl

/-- Every row of the array lies in the block of the point (row / 5000). -/
theorem cover8 (i : S50000x128.Idx) : ∃ t : Fin cfg8.N, (cfg8.win 2).flush t = true ∧ i ∈ ((cfg8.win 2).blk t).view.set := by
  have hi0 : (i 0).val < 50000 := (i 0).isLt
  have hi1 : (i 1).val < 128 := (i 1).isLt
  have hN : cfg8.N = 10 := N_8
  let t : Fin cfg8.N := ⟨(i 0).val / 5000, by rw [hN]; omega⟩
  obtain ⟨e0, e1, e2, e3, e4, e5⟩ := idx_facts8 t
  have ht : t.val = (i 0).val / 5000 := rfl
  refine ⟨t, flush8_2 t, ?_⟩
  rw [mem_blk8]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

/-- After region 8 the result array is the product of the activations and the weight as the region finds them. -/
theorem final8 (c : Dev nD) :
    (dat8 (F := Ideal) V c).arrAt 2 cfg8.N = GcnSpec.mm 50000 128 (V c (Pipeline.arrRef spec8 0)) (V c (Pipeline.arrRef spec8 1)) :=
  (dat8 (F := Ideal) V c).arrAt_eq_of_cover 2 (GcnSpec.mm 50000 128 (V c main_v159) (V c main_v161)) (fun t _ => flushed8_eq V c t) cover8

end Cert.KernelIdeal.RegionMatmul

end
-- ==== Proof.RegionAffine.lean ====
/-
  The five layer epilogues (regions 1, 3, 5, 7, 9), each as ONE whole-array function of the six arrays the region reads:
  entry (i, q) of the output is the batch-norm affine of the aggregated entry plus the bias, with the rectifier before the
  affine (layers 0–2), after it (layer 3) or absent (layer 4), every parameter a [1,128] row read at column q.

  Per region: the body's payload at one entry of a block; the index maps over the grid (the [5000,128] blocks of the
  aggregated rows and of the output move one block per point, each parameter row is its one block); what a point writes
  back as its block of the whole-array function; the blocks cover the output array (row i lies in block i / 5000); so the
  array ends holding the whole-array function.
-/
import proofs.«125410_j42923903156343_1_alg».proof.Proof.Spec
import proofs.«125410_j42923903156343_1_alg».proof.Proof.Gen.KernelIdeal.Frame
import Idealize.ShloMosaic.Lib.Pipeline.Value
import Idealize.ShloMosaic.Lib.ValueIdx

noncomputable section

namespace Cert.KernelIdeal.RegionAffine

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, as a constant function. -/
theorem hz : (![0, 0] : Fin 2 → Nat) = fun _ => 0 := funext fun a => by fin_cases a <;> rfl

/-- A [1,128] row broadcast over 5000 rows reads, at entry (r, q), the row's entry at column q. -/
theorem bcast_row {α : Type} (v : S1x128.Idx → α) (h : S1x128.Broadcasts S5000x128) (r : Fin 5000) (q : Fin 128) :
    broadcastTo S5000x128 v h (ix2 r q) = v (ix2 (0 : Fin 1) q) :=
  broadcastTo_apply v h (ix2 r q) (ix2 (0 : Fin 1) q) fun a => by
    match a with
    | ⟨0, _⟩ => rfl
    | ⟨1, _⟩ => rfl

-- the buffer contents when a region is entered: every statement below is at this parameter
variable (V : (c : Dev nD) → (b : Ref sig .tc) → Buf (Elt Ideal) ((c : Thread nD τ).loc b))

/-- The three layer functions at an entry (i, q): each parameter row is read at column q. -/
theorem affBefore_at (agg : GcnSpec.Arr 50000 128) (b g be mu var : GcnSpec.Arr 1 128) (i : Fin 50000) (q : Fin 128) :
    GcnSpec.affReluBefore agg b g be mu var (ix2 i q)
      = GcnSpec.bn (max (agg (ix2 i q) + b (ix2 (0 : Fin 1) q)) GcnSpec.zero) (mu (ix2 (0 : Fin 1) q)) (var (ix2 (0 : Fin 1) q))
          (g (ix2 (0 : Fin 1) q)) (be (ix2 (0 : Fin 1) q)) := rfl
theorem affAfter_at (agg : GcnSpec.Arr 50000 128) (b g be mu var : GcnSpec.Arr 1 128) (i : Fin 50000) (q : Fin 128) :
    GcnSpec.affReluAfter agg b g be mu var (ix2 i q)
      = max (GcnSpec.bn (agg (ix2 i q) + b (ix2 (0 : Fin 1) q)) (mu (ix2 (0 : Fin 1) q)) (var (ix2 (0 : Fin 1) q))
          (g (ix2 (0 : Fin 1) q)) (be (ix2 (0 : Fin 1) q))) GcnSpec.zero := rfl
theorem affPlain_at (agg : GcnSpec.Arr 50000 128) (b g be mu var : GcnSpec.Arr 1 128) (i : Fin 50000) (q : Fin 128) :
    GcnSpec.affPlain agg b g be mu var (ix2 i q)
      = GcnSpec.bn (agg (ix2 i q) + b (ix2 (0 : Fin 1) q)) (mu (ix2 (0 : Fin 1) q)) (var (ix2 (0 : Fin 1) q))
          (g (ix2 (0 : Fin 1) q)) (be (ix2 (0 : Fin 1) q)) := rfl

/-- Equal operands give equal entries, for each of the three layer shapes. -/
theorem before_congr {a a' b b' m m' v v' g g' be be' : Elt Ideal .f32} (h0 : a = a') (h1 : b = b') (h2 : g = g') (h3 : be = be')
    (h4 : m = m') (h5 : v = v') :
    GcnSpec.bn (max (a + b) GcnSpec.zero) m v g be = GcnSpec.bn (max (a' + b') GcnSpec.zero) m' v' g' be' := by
  subst h0 h1 h2 h3 h4 h5; rfl
theorem after_congr {a a' b b' m m' v v' g g' be be' : Elt Ideal .f32} (h0 : a = a') (h1 : b = b') (h2 : g = g') (h3 : be = be')
    (h4 : m = m') (h5 : v = v') :
    max (GcnSpec.bn (a + b) m v g be) GcnSpec.zero = max (GcnSpec.bn (a' + b') m' v' g' be') GcnSpec.zero := by
  subst h0 h1 h2 h3 h4 h5; rfl
theorem plain_congr {a a' b b' m m' v v' g g' be be' : Elt Ideal .f32} (h0 : a = a') (h1 : b = b') (h2 : g = g') (h3 : be = be')
    (h4 : m = m') (h5 : v = v') :
    GcnSpec.bn (a + b) m v g be = GcnSpec.bn (a' + b') m' v' g' be' := by
  subst h0 h1 h2 h3 h4 h5; rfl

/-! ## Layer 0 (region 1): bias, rectifier, batch-norm affine -/

/-- The body at one entry: bias, rectifier, then the batch-norm affine, each parameter read at the entry's column. -/
theorem pay1_apply (x0 : Vec Ideal S5000x128 .f32) (b mean var gamma beta : Vec Ideal S1x128 .f32) (r : Fin 5000) (q : Fin 128) :
    k1_pay1 (F := Ideal) x0 b mean var gamma beta (ix2 r q)
      = GcnSpec.bn (max (x0 (ix2 r q) + b (ix2 (0 : Fin 1) q)) GcnSpec.zero) (mean (ix2 (0 : Fin 1) q)) (var (ix2 (0 : Fin 1) q))
          (gamma (ix2 (0 : Fin 1) q)) (beta (ix2 (0 : Fin 1) q)) := by
  unfold k1_pay1 GcnSpec.bn
  simp only [shapeCast_self]
  simp only [addf_apply, mulf_apply, subf_apply, maximumf_apply, bcast_row, broadcast_apply]
  rfl

/-- The output block at one entry, from the six input blocks: the one store covers the block, the loads read whole blocks. -/
theorem out1_apply (x0 : Vec Ideal S5000x128 .f32) (x1 x2 x3 x4 x5 : Vec Ideal S1x128 .f32) (r : Fin 5000) (q : Fin 128) :
    out1_6 (F := Ideal) x0 x1 x2 x3 x4 x5 (ix2 r q)
      = GcnSpec.bn (max (x0 (ix2 r q) + x1 (ix2 (0 : Fin 1) q)) GcnSpec.zero) (x4 (ix2 (0 : Fin 1) q)) (x5 (ix2 (0 : Fin 1) q))
          (x2 (ix2 (0 : Fin 1) q)) (x3 (ix2 (0 : Fin 1) q)) := by
  unfold out1_6
  rw [View.canon_unit_zero hz]
  simp only [View.ld_unit_zero (S := S5000x128) hz, View.ld_unit_zero (S := S1x128) hz]
  exact pay1_apply x0 x1 x4 x5 x2 x3 r q

/-- The index maps over the grid: the aggregated rows and the output move one block of 5000 rows per point; each parameter
    row sits in its one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of block t is a row of the [50000,128] array. -/
theorem row_lt1 (t : Fin cfg1.N) (r : Fin 5000) : t.val * 5000 + r.val < 50000 := by
  have h : t.val < grid1.N := t.isLt
  rw [N_1] at h
  have := r.isLt
  omega

/-- Entry (r, q) of the output's block t is entry (5000·t + r, q) of its array. -/
theorem emb1_6 (t : Fin cfg1.N) (r : Fin 5000) (q : Fin 128) :
    ((cfg1.win 6).blk t).view.emb (ix2 r q) = (ix2 (⟨t.val * 5000 + r.val, row_lt1 t r⟩ : Fin 50000) q : S50000x128.Idx) := by
  obtain ⟨-, -, -, -, -, -, -, -, -, -, -, -, e0, e1⟩ := idx_facts1 t
  funext a; apply Fin.ext
  match a with
  | ⟨0, _⟩ => show win1_6.index t (0 : Fin 2) * 5000 + 1 * r.val = t.val * 5000 + r.val; omega
  | ⟨1, _⟩ => show win1_6.index t (1 : Fin 2) * 128 + 1 * q.val = q.val; omega

/-- Entry (r, q) of the aggregated rows' block t is entry (5000·t + r, q) of their array. -/
theorem emb1_0 (t : Fin cfg1.N) (r : Fin 5000) (q : Fin 128) :
    ((cfg1.win 0).blk t).view.emb (ix2 r q) = (ix2 (⟨t.val * 5000 + r.val, row_lt1 t r⟩ : Fin 50000) q : S50000x128.Idx) := by
  obtain ⟨e0, e1, -, -, -, -, -, -, -, -, -, -, -, -⟩ := idx_facts1 t
  funext a; apply Fin.ext
  match a with
  | ⟨0, _⟩ => show win1_0.index t (0 : Fin 2) * 5000 + 1 * r.val = t.val * 5000 + r.val; omega
  | ⟨1, _⟩ => show win1_0.index t (1 : Fin 2) * 128 + 1 * q.val = q.val; omega

/-- A parameter row's one block is the row itself. -/
theorem emb1_1 (t : Fin cfg1.N) (q : Fin 128) :
    ((cfg1.win 1).blk t).view.emb (ix2 (0 : Fin 1) q) = (ix2 (0 : Fin 1) q : S1x128.Idx) := by
  obtain ⟨-, -, e0, e1, -, -, -, -, -, -, -, -, -, -⟩ := idx_facts1 t
  funext a; apply Fin.ext
  match a with
  | ⟨0, _⟩ => show win1_1.index t (0 : Fin 2) * 1 + 1 * 0 = 0; omega
  | ⟨1, _⟩ => show win1_1.index t (1 : Fin 2) * 128 + 1 * q.val = q.val; omega
theorem emb1_2 (t : Fin cfg1.N) (q : Fin 128) :
    ((cfg1.win 2).blk t).view.emb (ix2 (0 : Fin 1) q) = (ix2 (0 : Fin 1) q : S1x128.Idx) := by
  obtain ⟨-, -, -, -, e0, e1, -, -, -, -, -, -, -, -⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * q.val = q.val; omega
theorem emb1_3 (t : Fin cfg1.N) (q : Fin 128) :
    ((cfg1.win 3).blk t).view.emb (ix2 (0 : Fin 1) q) = (ix2 (0 : Fin 1) q : S1x128.Idx) := by
  obtain ⟨-, -, -, -, -, -, e0, e1, -, -, -, -, -, -⟩ := idx_facts1 t
  funext a; apply Fin.ext
  match a with
  | ⟨0, _⟩ => show win1_3.index t (0 : Fin 2) * 1 + 1 * 0 = 0; omega
  | ⟨1, _⟩ => show win1_3.index t (1 : Fin 2) * 128 + 1 * q.val = q.val; omega
theorem emb1_4 (t : Fin cfg1.N) (q : Fin 128) :
    ((cfg1.win 4).blk t).view.emb (ix2 (0 : Fin 1) q) = (ix2 (0 : Fin 1) q : S1x128.Idx) := by
  obtain ⟨-, -, -, -, -, -, -, -, e0, e1, -, -, -, -⟩ := idx_facts1 t
  funext a; apply Fin.ext
  match a with
  | ⟨0, _⟩ => show win1_4.index t (0 : Fin 2) * 1 + 1 * 0 = 0; omega
  | ⟨1, _⟩ => show win1_4.index t (1 : Fin 2) * 128 + 1 * q.val = q.val; omega
theorem emb1_5 (t : Fin cfg1.N) (q : Fin 128) :
    ((cfg1.win 5).blk t).view.emb (ix2 (0 : Fin 1) q) = (ix2 (0 : Fin 1) q : S1x128.Idx) := by
  obtain ⟨-, -, -, -, -, -, -, -, -, -, e0, e1, -, -⟩ := idx_facts1 t
  funext a; apply Fin.ext
  match a with
  | ⟨0, _⟩ => show win1_5.index t (0 : Fin 2) * 1 + 1 * 0 = 0; omega
  | ⟨1, _⟩ => show win1_5.index t (1 : Fin 2) * 128 + 1 * q.val = q.val; omega

/-- The aggregated rows' block t at (r, q) is their array at (5000·t + r, q). -/
theorem iblk1_0_apply (c : Dev nD) (t : Fin cfg1.N) (r : Fin 5000) (q : Fin 128) :
    (iblk1 (F := Ideal) V c 0 t : Vec Ideal S5000x128 .f32) (ix2 r q)
      = (V c (main_v47) : GcnSpec.Arr 50000 128) (ix2 (⟨t.val * 5000 + r.val, row_lt1 t r⟩ : Fin 50000) q) := by
  show V c (main_v47) (((cfg1.win 0).blk t).view.emb (ix2 r q)) = _
  rw [emb1_0]
/-- A parameter row's block at (0, q) is the row at (0, q). -/
theorem iblk1_1_apply (c : Dev nD) (t : Fin cfg1.N) (q : Fin 128) :
    (iblk1 (F := Ideal) V c 1 t : Vec Ideal S1x128 .f32) (ix2 (0 : Fin 1) q) = (V c (main_v58) : GcnSpec.Arr 1 128) (ix2 (0 : Fin 1) q) := by
  show V c (main_v58) (((cfg1.win 1).blk t).view.emb (ix2 (0 : Fin 1) q)) = _
  rw [emb1_1]
theorem iblk1_2_apply (c : Dev nD) (t : Fin cfg1.N) (q : Fin 128) :
    (iblk1 (F := Ideal) V c 2 t : Vec Ideal S1x128 .f32) (ix2 (0 : Fin 1) q) = (V c (main_v59) : GcnSpec.Arr 1 128) (ix2 (0 : Fin 1) q) := by
  show V c (main_v59) (((cfg1.win 2).blk t).view.emb (ix2 (0 : Fin 1) q)) = _
  rw [emb1_2]
theorem iblk1_3_apply (c : Dev nD) (t : Fin cfg1.N) (q : Fin 128) :
    (iblk1 (F := Ideal) V c 3 t : Vec Ideal S1x128 .f32) (ix2 (0 : Fin 1) q) = (V c (main_v60) : GcnSpec.Arr 1 128) (ix2 (0 : Fin 1) q) := by
  show V c (main_v60) (((cfg1.win 3).blk t).view.emb (ix2 (0 : Fin 1) q)) = _
  rw [emb1_3]
theorem iblk1_4_apply (c : Dev nD) (t : Fin cfg1.N) (q : Fin 128) :
    (iblk1 (F := Ideal) V c 4 t : Vec Ideal S1x128 .f32) (ix2 (0 : Fin 1) q) = (V c (main_v61) : GcnSpec.Arr 1 128) (ix2 (0 : Fin 1) q) := by
  show V c (main_v61) (((cfg1.win 4).blk t).view.emb (ix2 (0 : Fin 1) q)) = _
  rw [emb1_4]
theorem iblk1_5_apply (c : Dev nD) (t : Fin cfg1.N) (q : Fin 128) :
    (iblk1 (F := Ideal) V c 5 t : Vec Ideal S1x128 .f32) (ix2 (0 : Fin 1) q) = (V c (main_v62) : GcnSpec.Arr 1 128) (ix2 (0 : Fin 1) q) := by
  show V c (main_v62) (((cfg1.win 5).blk t).view.emb (ix2 (0 : Fin 1) q)) = _
  rw [emb1_5]

/-- The output block of point t at entry (r, q) is the layer's function of the arrays at entry (5000·t + r, q). -/
theorem point1 (c : Dev nD) (t : Fin cfg1.N) (r : Fin 5000) (q : Fin 128) :
    out1_6 (F := Ideal) (iblk1 V c 0 t) (iblk1 V c 1 t) (iblk1 V c 2 t) (iblk1 V c 3 t) (iblk1 V c 4 t) (iblk1 V c 5 t) (ix2 r q)
      = GcnSpec.affReluBefore (V c main_v47) (V c main_v58) (V c main_v59) (V c main_v60) (V c main_v61) (V c main_v62) (ix2 (⟨t.val * 5000 + r.val, row_lt1 t r⟩ : Fin 50000) q) := by
  refine ((out1_apply _ _ _ _ _ _ r q).trans ?_).trans (affBefore_at (V c main_v47) (V c main_v58) (V c main_v59) (V c main_v60) (V c main_v61) (V c main_v62) _ q).symm
  exact before_congr (iblk1_0_apply V c t r q) (iblk1_1_apply V c t q) (iblk1_2_apply V c t q) (iblk1_3_apply V c t q)
    (iblk1_4_apply V c t q) (iblk1_5_apply V c t q)

/-- What point t writes back is block t of the layer's whole-array function of the region's six input arrays. -/
theorem flushed1_eq (c : Dev nD) (t : Fin cfg1.N) :
    (dat1 (F := Ideal) V c).flushed 6 t = ((cfg1.win 6).blk t).view.read (Elt Ideal) (GcnSpec.affReluBefore (V c main_v47) (V c main_v58) (V c main_v59) (V c main_v60) (V c main_v61) (V c main_v62)) := by
  show (cfg1.win 6).cut (grid1.coords t) ((dat1 (F := Ideal) V c).after 6 t) = _
  rw [after1_6]
  refine funext fun (j : S5000x128.Idx) => ?_
  obtain ⟨r, q, rfl⟩ : ∃ (r : Fin 5000) (q : Fin 128), j = ix2 r q := ⟨j 0, j 1, eq_ix2 j⟩
  exact (point1 V c t r q).trans (congrArg (GcnSpec.affReluBefore (V c main_v47) (V c main_v58) (V c main_v59) (V c main_v60) (V c main_v61) (V c main_v62)) (emb1_6 t r q).symm)

/-- An entry of the output array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v63).slice (win1_6.rect t)).set ↔ _
  rw [View.set_slice_whole, Rect.mem_set_unit]
  exact Iff.rfl

/-- Every entry of the output array is in some point's block: row i lies in block i / 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- LAYER 0: after the region the output array is the layer's function of the six input arrays as the region found them. -/
theorem final1 (c : Dev nD) :
    (dat1 (F := Ideal) V c).arrAt 6 cfg1.N = GcnSpec.affReluBefore (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 (F := Ideal) V c).arrAt_eq_of_cover 6 (GcnSpec.affReluBefore (V c main_v47) (V c main_v58) (V c main_v59) (V c main_v60) (V c main_v61) (V c main_v62)) (fun t _ => flushed1_eq V c t) cover1

/-! ## Layer 1 (region 3): bias, rectifier, batch-norm affine -/

/-- The body at one entry: bias, rectifier, then the batch-norm affine, each parameter read at the entry's column. -/
theorem pay3_apply (x0 : Vec Ideal S5000x128 .f32) (b mean var gamma beta : Vec Ideal S1x128 .f32) (r : Fin 5000) (q : Fin 128) :
    k3_pay1 (F := Ideal) x0 b mean var gamma beta (ix2 r q)
      = GcnSpec.bn (max (x0 (ix2 r q) + b (ix2 (0 : Fin 1) q)) GcnSpec.zero) (mean (ix2 (0 : Fin 1) q)) (var (ix2 (0 : Fin 1) q))
          (gamma (ix2 (0 : Fin 1) q)) (beta (ix2 (0 : Fin 1) q)) := by
  unfold k3_pay1 GcnSpec.bn
  simp only [shapeCast_self]
  simp only [addf_apply, mulf_apply, subf_apply, maximumf_apply, bcast_row, broadcast_apply]
  rfl

/-- The output block at one entry, from the six input blocks: the one store covers the block, the loads read whole blocks. -/
theorem out3_apply (x0 : Vec Ideal S5000x128 .f32) (x1 x2 x3 x4 x5 : Vec Ideal S1x128 .f32) (r : Fin 5000) (q : Fin 128) :
    out3_6 (F := Ideal) x0 x1 x2 x3 x4 x5 (ix2 r q)
      = GcnSpec.bn (max (x0 (ix2 r q) + x1 (ix2 (0 : Fin 1) q)) GcnSpec.zero) (x4 (ix2 (0 : Fin 1) q)) (x5 (ix2 (0 : Fin 1) q))
          (x2 (ix2 (0 : Fin 1) q)) (x3 (ix2 (0 : Fin 1) q)) := by
  unfold out3_6
  rw [View.canon_unit_zero hz]
  simp only [View.ld_unit_zero (S := S5000x128) hz, View.ld_unit_zero (S := S1x128) hz]
  exact pay3_apply x0 x1 x4 x5 x2 x3 r q

/-- The index maps over the grid: the aggregated rows and the output move one block of 5000 rows per point; each parameter
    row sits in its one block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row r of block t is a row of the [50000,128] array. -/
theorem row_lt3 (t : Fin cfg3.N) (r : Fin 5000) : t.val * 5000 + r.val < 50000 := by
  have h : t.val < grid3.N := t.isLt
  rw [N_3] at h
  have := r.isLt
  omega

/-- Entry (r, q) of the output's block t is entry (5000·t + r, q) of its array. -/
theorem emb3_6 (t : Fin cfg3.N) (r : Fin 5000) (q : Fin 128) :
    ((cfg3.win 6).blk t).view.emb (ix2 r q) = (ix2 (⟨t.val * 5000 + r.val, row_lt3 t r⟩ : Fin 50000) q : S50000x128.Idx) := by
  obtain ⟨-, -, -, -, -, -, -, -, -, -, -, -, e0, e1⟩ := idx_facts3 t
  funext a; apply Fin.ext
  match a with
  | ⟨0, _⟩ => show win3_6.index t (0 : Fin 2) * 5000 + 1 * r.val = t.val * 5000 + r.val; omega
  | ⟨1, _⟩ => show win3_6.index t (1 : Fin 2) * 128 + 1 * q.val = q.val; omega

/-- Entry (r, q) of the aggregated rows' block t is entry (5000·t + r, q) of their array. -/
theorem emb3_0 (t : Fin cfg3.N) (r : Fin 5000) (q : Fin 128) :
    ((cfg3.win 0).blk t).view.emb (ix2 r q) = (ix2 (⟨t.val * 5000 + r.val, row_lt3 t r⟩ : Fin 50000) q : S50000x128.Idx) := by
  obtain ⟨e0, e1, -, -, -, -, -, -, -, -, -, -, -, -⟩ := idx_facts3 t
  funext a; apply Fin.ext
  match a with
  | ⟨0, _⟩ => show win3_0.index t (0 : Fin 2) * 5000 + 1 * r.val = t.val * 5000 + r.val; omega
  | ⟨1, _⟩ => show win3_0.index t (1 : Fin 2) * 128 + 1 * q.val = q.val; omega

/-- A parameter row's one block is the row itself. -/
theorem emb3_1 (t : Fin cfg3.N) (q : Fin 128) :
    ((cfg3.win 1).blk t).view.emb (ix2 (0 : Fin 1) q) = (ix2 (0 : Fin 1) q : S1x128.Idx) := by
  obtain ⟨-, -, e0, e1, -, -, -, -, -, -, -, -, -, -⟩ := idx_facts3 t
  funext a; apply Fin.ext
  match a with
  | ⟨0, _⟩ => show win3_1.index t (0 : Fin 2) * 1 + 1 * 0 = 0; omega
  | ⟨1, _⟩ => show win3_1.index t (1 : Fin 2) * 128 + 1 * q.val = q.val; omega
theorem emb3_2 (t : Fin cfg3.N) (q : Fin 128) :
    ((cfg3.win 2).blk t).view.emb (ix2 (0 : Fin 1) q) = (ix2 (0 : Fin 1) q : S1x128.Idx) := by
  obtain ⟨-, -, -, -, e0, e1, -, -, -, -, -, -, -, -⟩ := idx_facts3 t
  funext a; apply Fin.ext
  match a with
  | ⟨0, _⟩ => show win3_2.index t (0 : Fin 2) * 1 + 1 * 0 = 0; omega
  | ⟨1, _⟩ => show win3_2.index t (1 : Fin 2) * 128 + 1 * q.val = q.val; omega
theorem emb3_3 (t : Fin cfg3.N) (q : Fin 128) :
    ((cfg3.win 3).blk t).view.emb (ix2 (0 : Fin 1) q) = (ix2 (0 : Fin 1) q : S1x128.Idx) := by
  obtain ⟨-, -, -, -, -, -, e0, e1, -, -, -, -, -, -⟩ := idx_facts3 t
  funext a; apply Fin.ext
  match a with
  | ⟨0, _⟩ => show win3_3.index t (0 : Fin 2) * 1 + 1 * 0 = 0; omega
  | ⟨1, _⟩ => show win3_3.index t (1 : Fin 2) * 128 + 1 * q.val = q.val; omega
theorem emb3_4 (t : Fin cfg3.N) (q : Fin 128) :
    ((cfg3.win 4).blk t).view.emb (ix2 (0 : Fin 1) q) = (ix2 (0 : Fin 1) q : S1x128.Idx) := by
  obtain ⟨-, -, -, -, -, -, -, -, e0, e1, -, -, -, -⟩ := idx_facts3 t
  funext a; apply Fin.ext
  match a with
  | ⟨0, _⟩ => show win3_4.index t (0 : Fin 2) * 1 + 1 * 0 = 0; omega
  | ⟨1, _⟩ => show win3_4.index t (1 : Fin 2) * 128 + 1 * q.val = q.val; omega
theorem emb3_5 (t : Fin cfg3.N) (q : Fin 128) :
    ((cfg3.win 5).blk t).view.emb (ix2 (0 : Fin 1) q) = (ix2 (0 : Fin 1) q : S1x128.Idx) := by
  obtain ⟨-, -, -, -, -, -, -, -, -, -, e0, e1, -, -⟩ := idx_facts3 t
  funext a; apply Fin.ext
  match a with
  | ⟨0, _⟩ => show win3_5.index t (0 : Fin 2) * 1 + 1 * 0 = 0; omega
  | ⟨1, _⟩ => show win3_5.index t (1 : Fin 2) * 128 + 1 * q.val = q.val; omega

/-- The aggregated rows' block t at (r, q) is their array at (5000·t + r, q). -/
theorem iblk3_0_apply (c : Dev nD) (t : Fin cfg3.N) (r : Fin 5000) (q : Fin 128) :
    (iblk3 (F := Ideal) V c 0 t : Vec Ideal S5000x128 .f32) (ix2 r q)
      = (V c (main_v79) : GcnSpec.Arr 50000 128) (ix2 (⟨t.val * 5000 + r.val, row_lt3 t r⟩ : Fin 50000) q) := by
  show V c (main_v79) (((cfg3.win 0).blk t).view.emb (ix2 r q)) = _
  rw [emb3_0]
/-- A parameter row's block at (0, q) is the row at (0, q). -/
theorem iblk3_1_apply (c : Dev nD) (t : Fin cfg3.N) (q : Fin 128) :
    (iblk3 (F := Ideal) V c 1 t : Vec Ideal S1x128 .f32) (ix2 (0 : Fin 1) q) = (V c (main_v90) : GcnSpec.Arr 1 128) (ix2 (0 : Fin 1) q) := by
  show V c (main_v90) (((cfg3.win 1).blk t).view.emb (ix2 (0 : Fin 1) q)) = _
  rw [emb3_1]
theorem iblk3_2_apply (c : Dev nD) (t : Fin cfg3.N) (q : Fin 128) :
    (iblk3 (F := Ideal) V c 2 t : Vec Ideal S1x128 .f32) (ix2 (0 : Fin 1) q) = (V c (main_v91) : GcnSpec.Arr 1 128) (ix2 (0 : Fin 1) q) := by
  show V c (main_v91) (((cfg3.win 2).blk t).view.emb (ix2 (0 : Fin 1) q)) = _
  rw [emb3_2]
theorem iblk3_3_apply (c : Dev nD) (t : Fin cfg3.N) (q : Fin 128) :
    (iblk3 (F := Ideal) V c 3 t : Vec Ideal S1x128 .f32) (ix2 (0 : Fin 1) q) = (V c (main_v92) : GcnSpec.Arr 1 128) (ix2 (0 : Fin 1) q) := by
  show V c (main_v92) (((cfg3.win 3).blk t).view.emb (ix2 (0 : Fin 1) q)) = _
  rw [emb3_3]
theorem iblk3_4_apply (c : Dev nD) (t : Fin cfg3.N) (q : Fin 128) :
    (iblk3 (F := Ideal) V c 4 t : Vec Ideal S1x128 .f32) (ix2 (0 : Fin 1) q) = (V c (main_v93) : GcnSpec.Arr 1 128) (ix2 (0 : Fin 1) q) := by
  show V c (main_v93) (((cfg3.win 4).blk t).view.emb (ix2 (0 : Fin 1) q)) = _
  rw [emb3_4]
theorem iblk3_5_apply (c : Dev nD) (t : Fin cfg3.N) (q : Fin 128) :
    (iblk3 (F := Ideal) V c 5 t : Vec Ideal S1x128 .f32) (ix2 (0 : Fin 1) q) = (V c (main_v94) : GcnSpec.Arr 1 128) (ix2 (0 : Fin 1) q) := by
  show V c (main_v94) (((cfg3.win 5).blk t).view.emb (ix2 (0 : Fin 1) q)) = _
  rw [emb3_5]

/-- The output block of point t at entry (r, q) is the layer's function of the arrays at entry (5000·t + r, q). -/
theorem point3 (c : Dev nD) (t : Fin cfg3.N) (r : Fin 5000) (q : Fin 128) :
    out3_6 (F := Ideal) (iblk3 V c 0 t) (iblk3 V c 1 t) (iblk3 V c 2 t) (iblk3 V c 3 t) (iblk3 V c 4 t) (iblk3 V c 5 t) (ix2 r q)
      = GcnSpec.affReluBefore (V c main_v79) (V c main_v90) (V c main_v91) (V c main_v92) (V c main_v93) (V c main_v94) (ix2 (⟨t.val * 5000 + r.val, row_lt3 t r⟩ : Fin 50000) q) := by
  refine ((out3_apply _ _ _ _ _ _ r q).trans ?_).trans (affBefore_at (V c main_v79) (V c main_v90) (V c main_v91) (V c main_v92) (V c main_v93) (V c main_v94) _ q).symm
  exact before_congr (iblk3_0_apply V c t r q) (iblk3_1_apply V c t q) (iblk3_2_apply V c t q) (iblk3_3_apply V c t q)
    (iblk3_4_apply V c t q) (iblk3_5_apply V c t q)

/-- What point t writes back is block t of the layer's whole-array function of the region's six input arrays. -/
theorem flushed3_eq (c : Dev nD) (t : Fin cfg3.N) :
    (dat3 (F := Ideal) V c).flushed 6 t = ((cfg3.win 6).blk t).view.read (Elt Ideal) (GcnSpec.affReluBefore (V c main_v79) (V c main_v90) (V c main_v91) (V c main_v92) (V c main_v93) (V c main_v94)) := by
  show (cfg3.win 6).cut (grid3.coords t) ((dat3 (F := Ideal) V c).after 6 t) = _
  rw [after3_6]
  refine funext fun (j : S5000x128.Idx) => ?_
  obtain ⟨r, q, rfl⟩ : ∃ (r : Fin 5000) (q : Fin 128), j = ix2 r q := ⟨j 0, j 1, eq_ix2 j⟩
  exact (point3 V c t r q).trans (congrArg (GcnSpec.affReluBefore (V c main_v79) (V c main_v90) (V c main_v91) (V c main_v92) (V c main_v93) (V c main_v94)) (emb3_6 t r q).symm)

/-- An entry of the output array is in point t's block iff each coordinate is in the block's range on its axis. -/
theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v95).slice (win3_6.rect t)).set ↔ _
  rw [View.set_slice_whole, Rect.mem_set_unit]
  exact Iff.rfl

/-- Every entry of the output array is in some point's block: row i lies in block i / 5000. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨-, -, -, -, -, -, -, -, -, -, -, -, e0, e1⟩ := idx_facts3 t
  refine ⟨t, flush3_6 t, ?_⟩
  rw [mem_blk3]
  intro a
  match a with
  | ⟨0, _⟩ =>
    show win3_6.index t (0 : Fin 2) * 5000 ≤ (i 0).val ∧ (i 0).val < win3_6.index t (0 : Fin 2) * 5000 + 5000
    rw [e0, ht]; omega
  | ⟨1, _⟩ =>
    show win3_6.index t (1 : Fin 2) * 128 ≤ (i 1).val ∧ (i 1).val < win3_6.index t (1 : Fin 2) * 128 + 128
    rw [e1]; omega

/-- LAYER 1: after the region the output array is the layer's function of the six input arrays as the region found them. -/
theorem final3 (c : Dev nD) :
    (dat3 (F := Ideal) V c).arrAt 6 cfg3.N = GcnSpec.affReluBefore (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 (GcnSpec.affReluBefore (V c main_v79) (V c main_v90) (V c main_v91) (V c main_v92) (V c main_v93) (V c main_v94)) (fun t _ => flushed3_eq V c t) cover3

/-! ## Layer 2 (region 5): bias, rectifier, batch-norm affine -/

/-- The body at one entry: bias, rectifier, then the batch-norm affine, each parameter read at the entry's column. -/
theorem pay5_apply (x0 : Vec Ideal S5000x128 .f32) (b mean var gamma beta : Vec Ideal S1x128 .f32) (r : Fin 5000) (q : Fin 128) :
    k5_pay1 (F := Ideal) x0 b mean var gamma beta (ix2 r q)
      = GcnSpec.bn (max (x0 (ix2 r q) + b (ix2 (0 : Fin 1) q)) GcnSpec.zero) (mean (ix2 (0 : Fin 1) q)) (var (ix2 (0 : Fin 1) q))
          (gamma (ix2 (0 : Fin 1) q)) (beta (ix2 (0 : Fin 1) q)) := by
  unfold k5_pay1 GcnSpec.bn
  simp only [shapeCast_self]
  simp only [addf_apply, mulf_apply, subf_apply, maximumf_apply, bcast_row, broadcast_apply]
  rfl

/-- The output block at one entry, from the six input blocks: the one store covers the block, the loads read whole blocks. -/
theorem out5_apply (x0 : Vec Ideal S5000x128 .f32) (x1 x2 x3 x4 x5 : Vec Ideal S1x128 .f32) (r : Fin 5000) (q : Fin 128) :
    out5_6 (F := Ideal) x0 x1 x2 x3 x4 x5 (ix2 r q)
      = GcnSpec.bn (max (x0 (ix2 r q) + x1 (ix2 (0 : Fin 1) q)) GcnSpec.zero) (x4 (ix2 (0 : Fin 1) q)) (x5 (ix2 (0 : Fin 1) q))
          (x2 (ix2 (0 : Fin 1) q)) (x3 (ix2 (0 : Fin 1) q)) := by
  unfold out5_6
  rw [View.canon_unit_zero hz]
  simp only [View.ld_unit_zero (S := S5000x128) hz, View.ld_unit_zero (S := S1x128) hz]
  exact pay5_apply x0 x1 x4 x5 x2 x3 r q

/-- The index maps over the grid: the aggregated rows and the output move one block of 5000 rows per point; each parameter
    row sits in its one block. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row r of block t is a row of the [50000,128] array. -/
theorem row_lt5 (t : Fin cfg5.N) (r : Fin 5000) : t.val * 5000 + r.val < 50000 := by
  have h : t.val < grid5.N := t.isLt
  rw [N_5] at h
  have := r.isLt
  omega

/-- Entry (r, q) of the output's block t is entry (5000·t + r, q) of its array. -/
theorem emb5_6 (t : Fin cfg5.N) (r : Fin 5000) (q : Fin 128) :
    ((cfg5.win 6).blk t).view.emb (ix2 r q) = (ix2 (⟨t.val * 5000 + r.val, row_lt5 t r⟩ : Fin 50000) q : S50000x128.Idx) := by
  obtain ⟨-, -, -, -, -, -, -, -, -, -, -, -, e0, e1⟩ := idx_facts5 t
  funext a; apply Fin.ext
  match a with
  | ⟨0, _⟩ => show win5_6.index t (0 : Fin 2) * 5000 + 1 * r.val = t.val * 5000 + r.val; omega
  | ⟨1, _⟩ => show win5_6.index t (1 : Fin 2) * 128 + 1 * q.val = q.val; omega

/-- Entry (r, q) of the aggregated rows' block t is entry (5000·t + r, q) of their array. -/
theorem emb5_0 (t : Fin cfg5.N) (r : Fin 5000) (q : Fin 128) :
    ((cfg5.win 0).blk t).view.emb (ix2 r q) = (ix2 (⟨t.val * 5000 + r.val, row_lt5 t r⟩ : Fin 50000) q : S50000x128.Idx) := by
  obtain ⟨e0, e1, -, -, -, -, -, -, -, -, -, -, -, -⟩ := idx_facts5 t
  funext a; apply Fin.ext
  match a with
  | ⟨0, _⟩ => show win5_0.index t (0 : Fin 2) * 5000 + 1 * r.val = t.val * 5000 + r.val; omega
  | ⟨1, _⟩ => show win5_0.index t (1 : Fin 2) * 128 + 1 * q.val = q.val; omega

/-- A parameter row's one block is the row itself. -/
theorem emb5_1 (t : Fin cfg5.N) (q : Fin 128) :
    ((cfg5.win 1).blk t).view.emb (ix2 (0 : Fin 1) q) = (ix2 (0 : Fin 1) q : S1x128.Idx) := by
  obtain ⟨-, -, e0, e1, -, -, -, -, -, -, -, -, -, -⟩ := idx_facts5 t
  funext a; apply Fin.ext
  match a with
  | ⟨0, _⟩ => show win5_1.index t (0 : Fin 2) * 1 + 1 * 0 = 0; omega
  | ⟨1, _⟩ => show win5_1.index t (1 : Fin 2) * 128 + 1 * q.val = q.val; omega
theorem emb5_2 (t : Fin cfg5.N) (q : Fin 128) :
    ((cfg5.win 2).blk t).view.emb (ix2 (0 : Fin 1) q) = (ix2 (0 : Fin 1) q : S1x128.Idx) := by
  obtain ⟨-, -, -, -, e0, e1, -, -, -, -, -, -, -, -⟩ := idx_facts5 t
  funext a; apply Fin.ext
  match a with
  | ⟨0, _⟩ => show win5_2.index t (0 : Fin 2) * 1 + 1 * 0 = 0; omega
  | ⟨1, _⟩ => show win5_2.index t (1 : Fin 2) * 128 + 1 * q.val = q.val; omega
theorem emb5_3 (t : Fin cfg5.N) (q : Fin 128) :
    ((cfg5.win 3).blk t).view.emb (ix2 (0 : Fin 1) q) = (ix2 (0 : Fin 1) q : S1x128.Idx) := by
  obtain ⟨-, -, -, -, -, -, e0, e1, -, -, -, -, -, -⟩ := idx_facts5 t
  funext a; apply Fin.ext
  match a with
  | ⟨0, _⟩ => show win5_3.index t (0 : Fin 2) * 1 + 1 * 0 = 0; omega
  | ⟨1, _⟩ => show win5_3.index t (1 : Fin 2) * 128 + 1 * q.val = q.val; omega
theorem emb5_4 (t : Fin cfg5.N) (q : Fin 128) :
    ((cfg5.win 4).blk t).view.emb (ix2 (0 : Fin 1) q) = (ix2 (0 : Fin 1) q : S1x128.Idx) := by
  obtain ⟨-, -, -, -, -, -, -, -, e0, e1, -, -, -, -⟩ := idx_facts5 t
  funext a; apply Fin.ext
  match a with
  | ⟨0, _⟩ => show win5_4.index t (0 : Fin 2) * 1 + 1 * 0 = 0; omega
  | ⟨1, _⟩ => show win5_4.index t (1 : Fin 2) * 128 + 1 * q.val = q.val; omega
theorem emb5_5 (t : Fin cfg5.N) (q : Fin 128) :
    ((cfg5.win 5).blk t).view.emb (ix2 (0 : Fin 1) q) = (ix2 (0 : Fin 1) q : S1x128.Idx) := by
  obtain ⟨-, -, -, -, -, -, -, -, -, -, e0, e1, -, -⟩ := idx_facts5 t
  funext a; apply Fin.ext
  match a with
  | ⟨0, _⟩ => show win5_5.index t (0 : Fin 2) * 1 + 1 * 0 = 0; omega
  | ⟨1, _⟩ => show win5_5.index t (1 : Fin 2) * 128 + 1 * q.val = q.val; omega

/-- The aggregated rows' block t at (r, q) is their array at (5000·t + r, q). -/
theorem iblk5_0_apply (c : Dev nD) (t : Fin cfg5.N) (r : Fin 5000) (q : Fin 128) :
    (iblk5 (F := Ideal) V c 0 t : Vec Ideal S5000x128 .f32) (ix2 r q)
      = (V c (main_v111) : GcnSpec.Arr 50000 128) (ix2 (⟨t.val * 5000 + r.val, row_lt5 t r⟩ : Fin 50000) q) := by
  show V c (main_v111) (((cfg5.win 0).blk t).view.emb (ix2 r q)) = _
  rw [emb5_0]
/-- A parameter row's block at (0, q) is the row at (0, q). -/
theorem iblk5_1_apply (c : Dev nD) (t : Fin cfg5.N) (q : Fin 128) :
    (iblk5 (F := Ideal) V c 1 t : Vec Ideal S1x128 .f32) (ix2 (0 : Fin 1) q) = (V c (main_v122) : GcnSpec.Arr 1 128) (ix2 (0 : Fin 1) q) := by
  show V c (main_v122) (((cfg5.win 1).blk t).view.emb (ix2 (0 : Fin 1) q)) = _
  rw [emb5_1]
theorem iblk5_2_apply (c : Dev nD) (t : Fin cfg5.N) (q : Fin 128) :
    (iblk5 (F := Ideal) V c 2 t : Vec Ideal S1x128 .f32) (ix2 (0 : Fin 1) q) = (V c (main_v123) : GcnSpec.Arr 1 128) (ix2 (0 : Fin 1) q) := by
  show V c (main_v123) (((cfg5.win 2).blk t).view.emb (ix2 (0 : Fin 1) q)) = _
  rw [emb5_2]
theorem iblk5_3_apply (c : Dev nD) (t : Fin cfg5.N) (q : Fin 128) :
    (iblk5 (F := Ideal) V c 3 t : Vec Ideal S1x128 .f32) (ix2 (0 : Fin 1) q) = (V c (main_v124) : GcnSpec.Arr 1 128) (ix2 (0 : Fin 1) q) := by
  show V c (main_v124) (((cfg5.win 3).blk t).view.emb (ix2 (0 : Fin 1) q)) = _
  rw [emb5_3]
theorem iblk5_4_apply (c : Dev nD) (t : Fin cfg5.N) (q : Fin 128) :
    (iblk5 (F := Ideal) V c 4 t : Vec Ideal S1x128 .f32) (ix2 (0 : Fin 1) q) = (V c (main_v125) : GcnSpec.Arr 1 128) (ix2 (0 : Fin 1) q) := by
  show V c (main_v125) (((cfg5.win 4).blk t).view.emb (ix2 (0 : Fin 1) q)) = _
  rw [emb5_4]
theorem iblk5_5_apply (c : Dev nD) (t : Fin cfg5.N) (q : Fin 128) :
    (iblk5 (F := Ideal) V c 5 t : Vec Ideal S1x128 .f32) (ix2 (0 : Fin 1) q) = (V c (main_v126) : GcnSpec.Arr 1 128) (ix2 (0 : Fin 1) q) := by
  show V c (main_v126) (((cfg5.win 5).blk t).view.emb (ix2 (0 : Fin 1) q)) = _
  rw [emb5_5]

/-- The output block of point t at entry (r, q) is the layer's function of the arrays at entry (5000·t + r, q). -/
theorem point5 (c : Dev nD) (t : Fin cfg5.N) (r : Fin 5000) (q : Fin 128) :
    out5_6 (F := Ideal) (iblk5 V c 0 t) (iblk5 V c 1 t) (iblk5 V c 2 t) (iblk5 V c 3 t) (iblk5 V c 4 t) (iblk5 V c 5 t) (ix2 r q)
      = GcnSpec.affReluBefore (V c main_v111) (V c main_v122) (V c main_v123) (V c main_v124) (V c main_v125) (V c main_v126) (ix2 (⟨t.val * 5000 + r.val, row_lt5 t r⟩ : Fin 50000) q) := by
  refine ((out5_apply _ _ _ _ _ _ r q).trans ?_).trans (affBefore_at (V c main_v111) (V c main_v122) (V c main_v123) (V c main_v124) (V c main_v125) (V c main_v126) _ q).symm
  exact before_congr (iblk5_0_apply V c t r q) (iblk5_1_apply V c t q) (iblk5_2_apply V c t q) (iblk5_3_apply V c t q)
    (iblk5_4_apply V c t q) (iblk5_5_apply V c t q)

/-- What point t writes back is block t of the layer's whole-array function of the region's six input arrays. -/
theorem flushed5_eq (c : Dev nD) (t : Fin cfg5.N) :
    (dat5 (F := Ideal) V c).flushed 6 t = ((cfg5.win 6).blk t).view.read (Elt Ideal) (GcnSpec.affReluBefore (V c main_v111) (V c main_v122) (V c main_v123) (V c main_v124) (V c main_v125) (V c main_v126)) := by
  show (cfg5.win 6).cut (grid5.coords t) ((dat5 (F := Ideal) V c).after 6 t) = _
  rw [after5_6]
  refine funext fun (j : S5000x128.Idx) => ?_
  obtain ⟨r, q, rfl⟩ : ∃ (r : Fin 5000) (q : Fin 128), j = ix2 r q := ⟨j 0, j 1, eq_ix2 j⟩
  exact (point5 V c t r q).trans (congrArg (GcnSpec.affReluBefore (V c main_v111) (V c main_v122) (V c main_v123) (V c main_v124) (V c main_v125) (V c main_v126)) (emb5_6 t r q).symm)

/-- An entry of the output array is in point t's block iff each coordinate is in the block's range on its axis. -/
theorem mem_blk5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v127).slice (win5_6.rect t)).set ↔ _
  rw [View.set_slice_whole, Rect.mem_set_unit]
  exact Iff.rfl

/-- Every entry of the output array is in some point's block: row i lies in block i / 5000. -/
theorem cover5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, ht⟩ : ∃ t : Fin cfg5.N, t.val = (i 0).val / 5000 :=
    ⟨⟨(i 0).val / 5000, by show (i 0).val / 5000 < grid5.N; rw [N_5]; omega⟩, rfl⟩
  obtain ⟨-, -, -, -, -, -, -, -, -, -, -, -, e0, e1⟩ := idx_facts5 t
  refine ⟨t, flush5_6 t, ?_⟩
  rw [mem_blk5]
  intro a
  match a with
  | ⟨0, _⟩ =>
    show win5_6.index t (0 : Fin 2) * 5000 ≤ (i 0).val ∧ (i 0).val < win5_6.index t (0 : Fin 2) * 5000 + 5000
    rw [e0, ht]; omega
  | ⟨1, _⟩ =>
    show win5_6.index t (1 : Fin 2) * 128 ≤ (i 1).val ∧ (i 1).val < win5_6.index t (1 : Fin 2) * 128 + 128
    rw [e1]; omega

/-- LAYER 2: after the region the output array is the layer's function of the six input arrays as the region found them. -/
theorem final5 (c : Dev nD) :
    (dat5 (F := Ideal) V c).arrAt 6 cfg5.N = GcnSpec.affReluBefore (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 (F := Ideal) V c).arrAt_eq_of_cover 6 (GcnSpec.affReluBefore (V c main_v111) (V c main_v122) (V c main_v123) (V c main_v124) (V c main_v125) (V c main_v126)) (fun t _ => flushed5_eq V c t) cover5

/-! ## Layer 3 (region 7): bias, batch-norm affine, rectifier -/

/-- The body at one entry: bias, the batch-norm affine, then the rectifier, each parameter read at the entry's column. -/
theorem pay7_apply (x0 : Vec Ideal S5000x128 .f32) (b mean var gamma beta : Vec Ideal S1x128 .f32) (r : Fin 5000) (q : Fin 128) :
    k7_pay1 (F := Ideal) x0 b mean var gamma beta (ix2 r q)
      = max (GcnSpec.bn (x0 (ix2 r q) + b (ix2 (0 : Fin 1) q)) (mean (ix2 (0 : Fin 1) q)) (var (ix2 (0 : Fin 1) q))
          (gamma (ix2 (0 : Fin 1) q)) (beta (ix2 (0 : Fin 1) q))) GcnSpec.zero := by
  unfold k7_pay1 GcnSpec.bn
  simp only [shapeCast_self]
  simp only [addf_apply, mulf_apply, subf_apply, maximumf_apply, bcast_row, broadcast_apply]
  rfl

/-- The output block at one entry, from the six input blocks: the one store covers the block, the loads read whole blocks. -/
theorem out7_apply (x0 : Vec Ideal S5000x128 .f32) (x1 x2 x3 x4 x5 : Vec Ideal S1x128 .f32) (r : Fin 5000) (q : Fin 128) :
    out7_6 (F := Ideal) x0 x1 x2 x3 x4 x5 (ix2 r q)
      = max (GcnSpec.bn (x0 (ix2 r q) + x1 (ix2 (0 : Fin 1) q)) (x4 (ix2 (0 : Fin 1) q)) (x5 (ix2 (0 : Fin 1) q))
          (x2 (ix2 (0 : Fin 1) q)) (x3 (ix2 (0 : Fin 1) q))) GcnSpec.zero := by
  unfold out7_6
  rw [View.canon_unit_zero hz]
  simp only [View.ld_unit_zero (S := S5000x128) hz, View.ld_unit_zero (S := S1x128) hz]
  exact pay7_apply x0 x1 x4 x5 x2 x3 r q

/-- The index maps over the grid: the aggregated rows and the output move one block of 5000 rows per point; each parameter
    row sits in its one block. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Row r of block t is a row of the [50000,128] array. -/
theorem row_lt7 (t : Fin cfg7.N) (r : Fin 5000) : t.val * 5000 + r.val < 50000 := by
  have h : t.val < grid7.N := t.isLt
  rw [N_7] at h
  have := r.isLt
  omega

/-- Entry (r, q) of the output's block t is entry (5000·t + r, q) of its array. -/
theorem emb7_6 (t : Fin cfg7.N) (r : Fin 5000) (q : Fin 128) :
    ((cfg7.win 6).blk t).view.emb (ix2 r q) = (ix2 (⟨t.val * 5000 + r.val, row_lt7 t r⟩ : Fin 50000) q : S50000x128.Idx) := by
  obtain ⟨-, -, -, -, -, -, -, -, -, -, -, -, e0, e1⟩ := idx_facts7 t
  funext a; apply Fin.ext
  match a with
  | ⟨0, _⟩ => show win7_6.index t (0 : Fin 2) * 5000 + 1 * r.val = t.val * 5000 + r.val; omega
  | ⟨1, _⟩ => show win7_6.index t (1 : Fin 2) * 128 + 1 * q.val = q.val; omega

/-- Entry (r, q) of the aggregated rows' block t is entry (5000·t + r, q) of their array. -/
theorem emb7_0 (t : Fin cfg7.N) (r : Fin 5000) (q : Fin 128) :
    ((cfg7.win 0).blk t).view.emb (ix2 r q) = (ix2 (⟨t.val * 5000 + r.val, row_lt7 t r⟩ : Fin 50000) q : S50000x128.Idx) := by
  obtain ⟨e0, e1, -, -, -, -, -, -, -, -, -, -, -, -⟩ := idx_facts7 t
  funext a; apply Fin.ext
  match a with
  | ⟨0, _⟩ => show win7_0.index t (0 : Fin 2) * 5000 + 1 * r.val = t.val * 5000 + r.val; omega
  | ⟨1, _⟩ => show win7_0.index t (1 : Fin 2) * 128 + 1 * q.val = q.val; omega

/-- A parameter row's one block is the row itself. -/
theorem emb7_1 (t : Fin cfg7.N) (q : Fin 128) :
    ((cfg7.win 1).blk t).view.emb (ix2 (0 : Fin 1) q) = (ix2 (0 : Fin 1) q : S1x128.Idx) := by
  obtain ⟨-, -, e0, e1, -, -, -, -, -, -, -, -, -, -⟩ := idx_facts7 t
  funext a; apply Fin.ext
  match a with
  | ⟨0, _⟩ => show win7_1.index t (0 : Fin 2) * 1 + 1 * 0 = 0; omega
  | ⟨1, _⟩ => show win7_1.index t (1 : Fin 2) * 128 + 1 * q.val = q.val; omega
theorem emb7_2 (t : Fin cfg7.N) (q : Fin 128) :
    ((cfg7.win 2).blk t).view.emb (ix2 (0 : Fin 1) q) = (ix2 (0 : Fin 1) q : S1x128.Idx) := by
  obtain ⟨-, -, -, -, e0, e1, -, -, -, -, -, -, -, -⟩ := idx_facts7 t
  funext a; apply Fin.ext
  match a with
  | ⟨0, _⟩ => show win7_2.index t (0 : Fin 2) * 1 + 1 * 0 = 0; omega
  | ⟨1, _⟩ => show win7_2.index t (1 : Fin 2) * 128 + 1 * q.val = q.val; omega
theorem emb7_3 (t : Fin cfg7.N) (q : Fin 128) :
    ((cfg7.win 3).blk t).view.emb (ix2 (0 : Fin 1) q) = (ix2 (0 : Fin 1) q : S1x128.Idx) := by
  obtain ⟨-, -, -, -, -, -, e0, e1, -, -, -, -, -, -⟩ := idx_facts7 t
  funext a; apply Fin.ext
  match a with
  | ⟨0, _⟩ => show win7_3.index t (0 : Fin 2) * 1 + 1 * 0 = 0; omega
  | ⟨1, _⟩ => show win7_3.index t (1 : Fin 2) * 128 + 1 * q.val = q.val; omega
theorem emb7_4 (t : Fin cfg7.N) (q : Fin 128) :
    ((cfg7.win 4).blk t).view.emb (ix2 (0 : Fin 1) q) = (ix2 (0 : Fin 1) q : S1x128.Idx) := by
  obtain ⟨-, -, -, -, -, -, -, -, e0, e1, -, -, -, -⟩ := idx_facts7 t
  funext a; apply Fin.ext
  match a with
  | ⟨0, _⟩ => show win7_4.index t (0 : Fin 2) * 1 + 1 * 0 = 0; omega
  | ⟨1, _⟩ => show win7_4.index t (1 : Fin 2) * 128 + 1 * q.val = q.val; omega
theorem emb7_5 (t : Fin cfg7.N) (q : Fin 128) :
    ((cfg7.win 5).blk t).view.emb (ix2 (0 : Fin 1) q) = (ix2 (0 : Fin 1) q : S1x128.Idx) := by
  obtain ⟨-, -, -, -, -, -, -, -, -, -, e0, e1, -, -⟩ := idx_facts7 t
  funext a; apply Fin.ext
  match a with
  | ⟨0, _⟩ => show win7_5.index t (0 : Fin 2) * 1 + 1 * 0 = 0; omega
  | ⟨1, _⟩ => show win7_5.index t (1 : Fin 2) * 128 + 1 * q.val = q.val; omega

/-- The aggregated rows' block t at (r, q) is their array at (5000·t + r, q). -/
theorem iblk7_0_apply (c : Dev nD) (t : Fin cfg7.N) (r : Fin 5000) (q : Fin 128) :
    (iblk7 (F := Ideal) V c 0 t : Vec Ideal S5000x128 .f32) (ix2 r q)
      = (V c (main_v143) : GcnSpec.Arr 50000 128) (ix2 (⟨t.val * 5000 + r.val, row_lt7 t r⟩ : Fin 50000) q) := by
  show V c (main_v143) (((cfg7.win 0).blk t).view.emb (ix2 r q)) = _
  rw [emb7_0]
/-- A parameter row's block at (0, q) is the row at (0, q). -/
theorem iblk7_1_apply (c : Dev nD) (t : Fin cfg7.N) (q : Fin 128) :
    (iblk7 (F := Ideal) V c 1 t : Vec Ideal S1x128 .f32) (ix2 (0 : Fin 1) q) = (V c (main_v154) : GcnSpec.Arr 1 128) (ix2 (0 : Fin 1) q) := by
  show V c (main_v154) (((cfg7.win 1).blk t).view.emb (ix2 (0 : Fin 1) q)) = _
  rw [emb7_1]
theorem iblk7_2_apply (c : Dev nD) (t : Fin cfg7.N) (q : Fin 128) :
    (iblk7 (F := Ideal) V c 2 t : Vec Ideal S1x128 .f32) (ix2 (0 : Fin 1) q) = (V c (main_v155) : GcnSpec.Arr 1 128) (ix2 (0 : Fin 1) q) := by
  show V c (main_v155) (((cfg7.win 2).blk t).view.emb (ix2 (0 : Fin 1) q)) = _
  rw [emb7_2]
theorem iblk7_3_apply (c : Dev nD) (t : Fin cfg7.N) (q : Fin 128) :
    (iblk7 (F := Ideal) V c 3 t : Vec Ideal S1x128 .f32) (ix2 (0 : Fin 1) q) = (V c (main_v156) : GcnSpec.Arr 1 128) (ix2 (0 : Fin 1) q) := by
  show V c (main_v156) (((cfg7.win 3).blk t).view.emb (ix2 (0 : Fin 1) q)) = _
  rw [emb7_3]
theorem iblk7_4_apply (c : Dev nD) (t : Fin cfg7.N) (q : Fin 128) :
    (iblk7 (F := Ideal) V c 4 t : Vec Ideal S1x128 .f32) (ix2 (0 : Fin 1) q) = (V c (main_v157) : GcnSpec.Arr 1 128) (ix2 (0 : Fin 1) q) := by
  show V c (main_v157) (((cfg7.win 4).blk t).view.emb (ix2 (0 : Fin 1) q)) = _
  rw [emb7_4]
theorem iblk7_5_apply (c : Dev nD) (t : Fin cfg7.N) (q : Fin 128) :
    (iblk7 (F := Ideal) V c 5 t : Vec Ideal S1x128 .f32) (ix2 (0 : Fin 1) q) = (V c (main_v158) : GcnSpec.Arr 1 128) (ix2 (0 : Fin 1) q) := by
  show V c (main_v158) (((cfg7.win 5).blk t).view.emb (ix2 (0 : Fin 1) q)) = _
  rw [emb7_5]

/-- The output block of point t at entry (r, q) is the layer's function of the arrays at entry (5000·t + r, q). -/
theorem point7 (c : Dev nD) (t : Fin cfg7.N) (r : Fin 5000) (q : Fin 128) :
    out7_6 (F := Ideal) (iblk7 V c 0 t) (iblk7 V c 1 t) (iblk7 V c 2 t) (iblk7 V c 3 t) (iblk7 V c 4 t) (iblk7 V c 5 t) (ix2 r q)
      = GcnSpec.affReluAfter (V c main_v143) (V c main_v154) (V c main_v155) (V c main_v156) (V c main_v157) (V c main_v158) (ix2 (⟨t.val * 5000 + r.val, row_lt7 t r⟩ : Fin 50000) q) := by
  refine ((out7_apply _ _ _ _ _ _ r q).trans ?_).trans (affAfter_at (V c main_v143) (V c main_v154) (V c main_v155) (V c main_v156) (V c main_v157) (V c main_v158) _ q).symm
  exact after_congr (iblk7_0_apply V c t r q) (iblk7_1_apply V c t q) (iblk7_2_apply V c t q) (iblk7_3_apply V c t q)
    (iblk7_4_apply V c t q) (iblk7_5_apply V c t q)

/-- What point t writes back is block t of the layer's whole-array function of the region's six input arrays. -/
theorem flushed7_eq (c : Dev nD) (t : Fin cfg7.N) :
    (dat7 (F := Ideal) V c).flushed 6 t = ((cfg7.win 6).blk t).view.read (Elt Ideal) (GcnSpec.affReluAfter (V c main_v143) (V c main_v154) (V c main_v155) (V c main_v156) (V c main_v157) (V c main_v158)) := by
  show (cfg7.win 6).cut (grid7.coords t) ((dat7 (F := Ideal) V c).after 6 t) = _
  rw [after7_6]
  refine funext fun (j : S5000x128.Idx) => ?_
  obtain ⟨r, q, rfl⟩ : ∃ (r : Fin 5000) (q : Fin 128), j = ix2 r q := ⟨j 0, j 1, eq_ix2 j⟩
  exact (point7 V c t r q).trans (congrArg (GcnSpec.affReluAfter (V c main_v143) (V c main_v154) (V c main_v155) (V c main_v156) (V c main_v157) (V c main_v158)) (emb7_6 t r q).symm)

/-- An entry of the output array is in point t's block iff each coordinate is in the block's range on its axis. -/
theorem mem_blk7 (t : Fin cfg7.N) (i : S50000x128.Idx) :
    i ∈ ((cfg7.win 6).blk t).view.set ↔ ∀ a : Fin 2, win7_6.index t a * S5000x128.size a ≤ (i a).val ∧ (i a).val < win7_6.index t a * S5000x128.size a + S5000x128.size a := by
  show i ∈ ((View.whole main_v159).slice (win7_6.rect t)).set ↔ _
  rw [View.set_slice_whole, Rect.mem_set_unit]
  exact Iff.rfl

/-- Every entry of the output array is in some point's block: row i lies in block i / 5000. -/
theorem cover7 (i : S50000x128.Idx) :
    ∃ t : Fin cfg7.N, (cfg7.win 6).flush t = true ∧ i ∈ ((cfg7.win 6).blk t).view.set := by
  have hi0 : (i 0).val < 50000 := (i 0).isLt
  have hi1 : (i 1).val < 128 := (i 1).isLt
  obtain ⟨t, ht⟩ : ∃ t : Fin cfg7.N, t.val = (i 0).val / 5000 :=
    ⟨⟨(i 0).val / 5000, by show (i 0).val / 5000 < grid7.N; rw [N_7]; omega⟩, rfl⟩
  obtain ⟨-, -, -, -, -, -, -, -, -, -, -, -, e0, e1⟩ := idx_facts7 t
  refine ⟨t, flush7_6 t, ?_⟩
  rw [mem_blk7]
  intro a
  match a with
  | ⟨0, _⟩ =>
    show win7_6.index t (0 : Fin 2) * 5000 ≤ (i 0).val ∧ (i 0).val < win7_6.index t (0 : Fin 2) * 5000 + 5000
    rw [e0, ht]; omega
  | ⟨1, _⟩ =>
    show win7_6.index t (1 : Fin 2) * 128 ≤ (i 1).val ∧ (i 1).val < win7_6.index t (1 : Fin 2) * 128 + 128
    rw [e1]; omega

/-- LAYER 3: after the region the output array is the layer's function of the six input arrays as the region found them. -/
theorem final7 (c : Dev nD) :
    (dat7 (F := Ideal) V c).arrAt 6 cfg7.N = GcnSpec.affReluAfter (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) :=
  (dat7 (F := Ideal) V c).arrAt_eq_of_cover 6 (GcnSpec.affReluAfter (V c main_v143) (V c main_v154) (V c main_v155) (V c main_v156) (V c main_v157) (V c main_v158)) (fun t _ => flushed7_eq V c t) cover7

/-! ## Layer 4 (region 9): bias, batch-norm affine -/

/-- The body at one entry: bias, then the batch-norm affine, each parameter read at the entry's column. -/
theorem pay9_apply (x0 : Vec Ideal S5000x128 .f32) (b mean var gamma beta : Vec Ideal S1x128 .f32) (r : Fin 5000) (q : Fin 128) :
    k9_pay1 (F := Ideal) x0 b mean var gamma beta (ix2 r q)
      = GcnSpec.bn (x0 (ix2 r q) + b (ix2 (0 : Fin 1) q)) (mean (ix2 (0 : Fin 1) q)) (var (ix2 (0 : Fin 1) q))
          (gamma (ix2 (0 : Fin 1) q)) (beta (ix2 (0 : Fin 1) q)) := by
  unfold k9_pay1 GcnSpec.bn
  simp only [shapeCast_self]
  simp only [addf_apply, mulf_apply, subf_apply, maximumf_apply, bcast_row, broadcast_apply]
  rfl

/-- The output block at one entry, from the six input blocks: the one store covers the block, the loads read whole blocks. -/
theorem out9_apply (x0 : Vec Ideal S5000x128 .f32) (x1 x2 x3 x4 x5 : Vec Ideal S1x128 .f32) (r : Fin 5000) (q : Fin 128) :
    out9_6 (F := Ideal) x0 x1 x2 x3 x4 x5 (ix2 r q)
      = GcnSpec.bn (x0 (ix2 r q) + x1 (ix2 (0 : Fin 1) q)) (x4 (ix2 (0 : Fin 1) q)) (x5 (ix2 (0 : Fin 1) q))
          (x2 (ix2 (0 : Fin 1) q)) (x3 (ix2 (0 : Fin 1) q)) := by
  unfold out9_6
  rw [View.canon_unit_zero hz]
  simp only [View.ld_unit_zero (S := S5000x128) hz, View.ld_unit_zero (S := S1x128) hz]
  exact pay9_apply x0 x1 x4 x5 x2 x3 r q

/-- The index maps over the grid: the aggregated rows and the output move one block of 5000 rows per point; each parameter
    row sits in its one block. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- Row r of block t is a row of the [50000,128] array. -/
theorem row_lt9 (t : Fin cfg9.N) (r : Fin 5000) : t.val * 5000 + r.val < 50000 := by
  have h : t.val < grid9.N := t.isLt
  rw [N_9] at h
  have := r.isLt
  omega

/-- Entry (r, q) of the output's block t is entry (5000·t + r, q) of its array. -/
theorem emb9_6 (t : Fin cfg9.N) (r : Fin 5000) (q : Fin 128) :
    ((cfg9.win 6).blk t).view.emb (ix2 r q) = (ix2 (⟨t.val * 5000 + r.val, row_lt9 t r⟩ : Fin 50000) q : S50000x128.Idx) := by
  obtain ⟨-, -, -, -, -, -, -, -, -, -, -, -, e0, e1⟩ := idx_facts9 t
  funext a; apply Fin.ext
  match a with
  | ⟨0, _⟩ => show win9_6.index t (0 : Fin 2) * 5000 + 1 * r.val = t.val * 5000 + r.val; omega
  | ⟨1, _⟩ => show win9_6.index t (1 : Fin 2) * 128 + 1 * q.val = q.val; omega

/-- Entry (r, q) of the aggregated rows' block t is entry (5000·t + r, q) of their array. -/
theorem emb9_0 (t : Fin cfg9.N) (r : Fin 5000) (q : Fin 128) :
    ((cfg9.win 0).blk t).view.emb (ix2 r q) = (ix2 (⟨t.val * 5000 + r.val, row_lt9 t r⟩ : Fin 50000) q : S50000x128.Idx) := by
  obtain ⟨e0, e1, -, -, -, -, -, -, -, -, -, -, -, -⟩ := idx_facts9 t
  funext a; apply Fin.ext
  match a with
  | ⟨0, _⟩ => show win9_0.index t (0 : Fin 2) * 5000 + 1 * r.val = t.val * 5000 + r.val; omega
  | ⟨1, _⟩ => show win9_0.index t (1 : Fin 2) * 128 + 1 * q.val = q.val; omega

/-- A parameter row's one block is the row itself. -/
theorem emb9_1 (t : Fin cfg9.N) (q : Fin 128) :
    ((cfg9.win 1).blk t).view.emb (ix2 (0 : Fin 1) q) = (ix2 (0 : Fin 1) q : S1x128.Idx) := by
  obtain ⟨-, -, e0, e1, -, -, -, -, -, -, -, -, -, -⟩ := idx_facts9 t
  funext a; apply Fin.ext
  match a with
  | ⟨0, _⟩ => show win9_1.index t (0 : Fin 2) * 1 + 1 * 0 = 0; omega
  | ⟨1, _⟩ => show win9_1.index t (1 : Fin 2) * 128 + 1 * q.val = q.val; omega
theorem emb9_2 (t : Fin cfg9.N) (q : Fin 128) :
    ((cfg9.win 2).blk t).view.emb (ix2 (0 : Fin 1) q) = (ix2 (0 : Fin 1) q : S1x128.Idx) := by
  obtain ⟨-, -, -, -, e0, e1, -, -, -, -, -, -, -, -⟩ := idx_facts9 t
  funext a; apply Fin.ext
  match a with
  | ⟨0, _⟩ => show win9_2.index t (0 : Fin 2) * 1 + 1 * 0 = 0; omega
  | ⟨1, _⟩ => show win9_2.index t (1 : Fin 2) * 128 + 1 * q.val = q.val; omega
theorem emb9_3 (t : Fin cfg9.N) (q : Fin 128) :
    ((cfg9.win 3).blk t).view.emb (ix2 (0 : Fin 1) q) = (ix2 (0 : Fin 1) q : S1x128.Idx) := by
  obtain ⟨-, -, -, -, -, -, e0, e1, -, -, -, -, -, -⟩ := idx_facts9 t
  funext a; apply Fin.ext
  match a with
  | ⟨0, _⟩ => show win9_3.index t (0 : Fin 2) * 1 + 1 * 0 = 0; omega
  | ⟨1, _⟩ => show win9_3.index t (1 : Fin 2) * 128 + 1 * q.val = q.val; omega
theorem emb9_4 (t : Fin cfg9.N) (q : Fin 128) :
    ((cfg9.win 4).blk t).view.emb (ix2 (0 : Fin 1) q) = (ix2 (0 : Fin 1) q : S1x128.Idx) := by
  obtain ⟨-, -, -, -, -, -, -, -, e0, e1, -, -, -, -⟩ := idx_facts9 t
  funext a; apply Fin.ext
  match a with
  | ⟨0, _⟩ => show win9_4.index t (0 : Fin 2) * 1 + 1 * 0 = 0; omega
  | ⟨1, _⟩ => show win9_4.index t (1 : Fin 2) * 128 + 1 * q.val = q.val; omega
theorem emb9_5 (t : Fin cfg9.N) (q : Fin 128) :
    ((cfg9.win 5).blk t).view.emb (ix2 (0 : Fin 1) q) = (ix2 (0 : Fin 1) q : S1x128.Idx) := by
  obtain ⟨-, -, -, -, -, -, -, -, -, -, e0, e1, -, -⟩ := idx_facts9 t
  funext a; apply Fin.ext
  match a with
  | ⟨0, _⟩ => show win9_5.index t (0 : Fin 2) * 1 + 1 * 0 = 0; omega
  | ⟨1, _⟩ => show win9_5.index t (1 : Fin 2) * 128 + 1 * q.val = q.val; omega

/-- The aggregated rows' block t at (r, q) is their array at (5000·t + r, q). -/
theorem iblk9_0_apply (c : Dev nD) (t : Fin cfg9.N) (r : Fin 5000) (q : Fin 128) :
    (iblk9 (F := Ideal) V c 0 t : Vec Ideal S5000x128 .f32) (ix2 r q)
      = (V c (main_v175) : GcnSpec.Arr 50000 128) (ix2 (⟨t.val * 5000 + r.val, row_lt9 t r⟩ : Fin 50000) q) := by
  show V c (main_v175) (((cfg9.win 0).blk t).view.emb (ix2 r q)) = _
  rw [emb9_0]
/-- A parameter row's block at (0, q) is the row at (0, q). -/
theorem iblk9_1_apply (c : Dev nD) (t : Fin cfg9.N) (q : Fin 128) :
    (iblk9 (F := Ideal) V c 1 t : Vec Ideal S1x128 .f32) (ix2 (0 : Fin 1) q) = (V c (main_v186) : GcnSpec.Arr 1 128) (ix2 (0 : Fin 1) q) := by
  show V c (main_v186) (((cfg9.win 1).blk t).view.emb (ix2 (0 : Fin 1) q)) = _
  rw [emb9_1]
theorem iblk9_2_apply (c : Dev nD) (t : Fin cfg9.N) (q : Fin 128) :
    (iblk9 (F := Ideal) V c 2 t : Vec Ideal S1x128 .f32) (ix2 (0 : Fin 1) q) = (V c (main_v187) : GcnSpec.Arr 1 128) (ix2 (0 : Fin 1) q) := by
  show V c (main_v187) (((cfg9.win 2).blk t).view.emb (ix2 (0 : Fin 1) q)) = _
  rw [emb9_2]
theorem iblk9_3_apply (c : Dev nD) (t : Fin cfg9.N) (q : Fin 128) :
    (iblk9 (F := Ideal) V c 3 t : Vec Ideal S1x128 .f32) (ix2 (0 : Fin 1) q) = (V c (main_v188) : GcnSpec.Arr 1 128) (ix2 (0 : Fin 1) q) := by
  show V c (main_v188) (((cfg9.win 3).blk t).view.emb (ix2 (0 : Fin 1) q)) = _
  rw [emb9_3]
theorem iblk9_4_apply (c : Dev nD) (t : Fin cfg9.N) (q : Fin 128) :
    (iblk9 (F := Ideal) V c 4 t : Vec Ideal S1x128 .f32) (ix2 (0 : Fin 1) q) = (V c (main_v189) : GcnSpec.Arr 1 128) (ix2 (0 : Fin 1) q) := by
  show V c (main_v189) (((cfg9.win 4).blk t).view.emb (ix2 (0 : Fin 1) q)) = _
  rw [emb9_4]
theorem iblk9_5_apply (c : Dev nD) (t : Fin cfg9.N) (q : Fin 128) :
    (iblk9 (F := Ideal) V c 5 t : Vec Ideal S1x128 .f32) (ix2 (0 : Fin 1) q) = (V c (main_v190) : GcnSpec.Arr 1 128) (ix2 (0 : Fin 1) q) := by
  show V c (main_v190) (((cfg9.win 5).blk t).view.emb (ix2 (0 : Fin 1) q)) = _
  rw [emb9_5]

/-- The output block of point t at entry (r, q) is the layer's function of the arrays at entry (5000·t + r, q). -/
theorem point9 (c : Dev nD) (t : Fin cfg9.N) (r : Fin 5000) (q : Fin 128) :
    out9_6 (F := Ideal) (iblk9 V c 0 t) (iblk9 V c 1 t) (iblk9 V c 2 t) (iblk9 V c 3 t) (iblk9 V c 4 t) (iblk9 V c 5 t) (ix2 r q)
      = GcnSpec.affPlain (V c main_v175) (V c main_v186) (V c main_v187) (V c main_v188) (V c main_v189) (V c main_v190) (ix2 (⟨t.val * 5000 + r.val, row_lt9 t r⟩ : Fin 50000) q) := by
  refine ((out9_apply _ _ _ _ _ _ r q).trans ?_).trans (affPlain_at (V c main_v175) (V c main_v186) (V c main_v187) (V c main_v188) (V c main_v189) (V c main_v190) _ q).symm
  exact plain_congr (iblk9_0_apply V c t r q) (iblk9_1_apply V c t q) (iblk9_2_apply V c t q) (iblk9_3_apply V c t q)
    (iblk9_4_apply V c t q) (iblk9_5_apply V c t q)

/-- What point t writes back is block t of the layer's whole-array function of the region's six input arrays. -/
theorem flushed9_eq (c : Dev nD) (t : Fin cfg9.N) :
    (dat9 (F := Ideal) V c).flushed 6 t = ((cfg9.win 6).blk t).view.read (Elt Ideal) (GcnSpec.affPlain (V c main_v175) (V c main_v186) (V c main_v187) (V c main_v188) (V c main_v189) (V c main_v190)) := by
  show (cfg9.win 6).cut (grid9.coords t) ((dat9 (F := Ideal) V c).after 6 t) = _
  rw [after9_6]
  refine funext fun (j : S5000x128.Idx) => ?_
  obtain ⟨r, q, rfl⟩ : ∃ (r : Fin 5000) (q : Fin 128), j = ix2 r q := ⟨j 0, j 1, eq_ix2 j⟩
  exact (point9 V c t r q).trans (congrArg (GcnSpec.affPlain (V c main_v175) (V c main_v186) (V c main_v187) (V c main_v188) (V c main_v189) (V c main_v190)) (emb9_6 t r q).symm)

/-- An entry of the output array is in point t's block iff each coordinate is in the block's range on its axis. -/
theorem mem_blk9 (t : Fin cfg9.N) (i : S50000x128.Idx) :
    i ∈ ((cfg9.win 6).blk t).view.set ↔ ∀ a : Fin 2, win9_6.index t a * S5000x128.size a ≤ (i a).val ∧ (i a).val < win9_6.index t a * S5000x128.size a + S5000x128.size a := by
  show i ∈ ((View.whole main_v191).slice (win9_6.rect t)).set ↔ _
  rw [View.set_slice_whole, Rect.mem_set_unit]
  exact Iff.rfl

/-- Every entry of the output array is in some point's block: row i lies in block i / 5000. -/
theorem cover9 (i : S50000x128.Idx) :
    ∃ t : Fin cfg9.N, (cfg9.win 6).flush t = true ∧ i ∈ ((cfg9.win 6).blk t).view.set := by
  have hi0 : (i 0).val < 50000 := (i 0).isLt
  have hi1 : (i 1).val < 128 := (i 1).isLt
  obtain ⟨t, ht⟩ : ∃ t : Fin cfg9.N, t.val = (i 0).val / 5000 :=
    ⟨⟨(i 0).val / 5000, by show (i 0).val / 5000 < grid9.N; rw [N_9]; omega⟩, rfl⟩
  obtain ⟨-, -, -, -, -, -, -, -, -, -, -, -, e0, e1⟩ := idx_facts9 t
  refine ⟨t, flush9_6 t, ?_⟩
  rw [mem_blk9]
  intro a
  match a with
  | ⟨0, _⟩ =>
    show win9_6.index t (0 : Fin 2) * 5000 ≤ (i 0).val ∧ (i 0).val < win9_6.index t (0 : Fin 2) * 5000 + 5000
    rw [e0, ht]; omega
  | ⟨1, _⟩ =>
    show win9_6.index t (1 : Fin 2) * 128 ≤ (i 1).val ∧ (i 1).val < win9_6.index t (1 : Fin 2) * 128 + 128
    rw [e1]; omega

/-- LAYER 4: after the region the output array is the layer's function of the six input arrays as the region found them. -/
theorem final9 (c : Dev nD) :
    (dat9 (F := Ideal) V c).arrAt 6 cfg9.N = GcnSpec.affPlain (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) :=
  (dat9 (F := Ideal) V c).arrAt_eq_of_cover 6 (GcnSpec.affPlain (V c main_v175) (V c main_v186) (V c main_v187) (V c main_v188) (V c main_v189) (V c main_v190)) (fun t _ => flushed9_eq V c t) cover9

end Cert.KernelIdeal.RegionAffine

end
-- ==== Proof.RegionHead.lean ====
/-
  The value of the last region (the dense head): the output array after the region, index by index, is the head
  function of the five argument arrays as the region finds them.

  * each product into the zero accumulator, read at (r, c), is the sum over k < 128 of a(r,k)·b(k,c);
  * a [1,n] row broadcast over the 64 rows reads the row's entry at the column;
  * so the payload at (r, q) is the head at (r, q) — the narrowing casts are the identity on the extended reals;
  * the grid has one point and every window's block there is its whole array (block index (0,0)), so what the
    point writes back is the head of the arrays, and its block covers the output array.
-/
import proofs.«125410_j42923903156343_1_alg».proof.Proof.Gen.KernelIdeal.Frame
import proofs.«125410_j42923903156343_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.RegionHead

open Idealize.ShloMosaic Idealize.ShloMosaic.ValueIdx Idealize.ShloMosaic.TcCoe
open Idealize.ShloMosaic.Pipeline (Dat Cfg Window)
open Cert.KernelIdeal.Gen

/-! ## The two products, read at an entry -/

theorem lhsA_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhsA_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhsA_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhsA_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The first product into the zero accumulator, at (r, c): the sum over k of a(r,k)·b(k,c). -/
theorem mmA_apply {φ₁ φ₂ : FTy} (a : FVec Ideal S64x128 φ₁) (b : FVec Ideal S128x128 φ₂) (r : Fin 64) (c : Fin 128) :
    matmul dot_S64x128_S128x128_S64x128_1_0_0_1_n_n none a b (constant S64x128 .f32 0x00000000#32) (ix2 r c)
      = ∑ k : Fin 128, a (ix2 r k) * b (ix2 k c) := by
  simp only [matmul]
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 r c) ((ValueIdx.contrEquiv1 dot_S64x128_S128x128_S64x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S64x128_S128x128_S64x128_1_0_0_1_n_n.rhsIdx (ix2 r c) ((ValueIdx.contrEquiv1 dot_S64x128_S128x128_S64x128_1_0_0_1_n_n 128 rfl rfl).symm k) = ix2 k c := funext fun a => Fin.ext (by
    match a with
    | ⟨0, _⟩ => exact (rhsA_0 _ _).trans hk
    | ⟨1, _⟩ => exact rhsA_1 _ _)
  rw [el, er]

theorem lhsB_0 (i : S64x20.Idx) (q : dot_S64x128_S128x20_S64x20_1_0_0_1_n_n.contr.Idx) :
    (dot_S64x128_S128x20_S64x20_1_0_0_1_n_n.lhsIdx i q 0).val = (i 0).val := by
  unfold DotDims.lhsIdx
  rw [dif_neg (show ¬(0 : Fin S64x128.rank) ∈ dot_S64x128_S128x20_S64x20_1_0_0_1_n_n.lhsBatch by decide), dif_pos (show (0 : Fin S64x128.rank) ∈ dot_S64x128_S128x20_S64x20_1_0_0_1_n_n.lhsNonContracting by decide)]
  rfl
theorem lhsB_1 (i : S64x20.Idx) (q : dot_S64x128_S128x20_S64x20_1_0_0_1_n_n.contr.Idx) :
    (dot_S64x128_S128x20_S64x20_1_0_0_1_n_n.lhsIdx i q 1).val = (q ⟨0, by decide⟩).val :=
  dot_S64x128_S128x20_S64x20_1_0_0_1_n_n.lhsIdx_val_of_single rfl i q
theorem rhsB_0 (i : S64x20.Idx) (q : dot_S64x128_S128x20_S64x20_1_0_0_1_n_n.contr.Idx) :
    (dot_S64x128_S128x20_S64x20_1_0_0_1_n_n.rhsIdx i q 0).val = (q ⟨0, by decide⟩).val :=
  dot_S64x128_S128x20_S64x20_1_0_0_1_n_n.rhsIdx_val_of_single rfl i q
theorem rhsB_1 (i : S64x20.Idx) (q : dot_S64x128_S128x20_S64x20_1_0_0_1_n_n.contr.Idx) :
    (dot_S64x128_S128x20_S64x20_1_0_0_1_n_n.rhsIdx i q 1).val = (i 1).val := by
  unfold DotDims.rhsIdx
  rw [dif_neg (show ¬(1 : Fin S128x20.rank) ∈ dot_S64x128_S128x20_S64x20_1_0_0_1_n_n.rhsBatch by decide), dif_pos (show (1 : Fin S128x20.rank) ∈ dot_S64x128_S128x20_S64x20_1_0_0_1_n_n.rhsNonContracting by decide)]
  rfl

/-- The second product into the zero accumulator, at (r, c): the sum over k of a(r,k)·b(k,c). -/
theorem mmB_apply {φ₁ φ₂ : FTy} (a : FVec Ideal S64x128 φ₁) (b : FVec Ideal S128x20 φ₂) (r : Fin 64) (c : Fin 20) :
    matmul dot_S64x128_S128x20_S64x20_1_0_0_1_n_n none a b (constant S64x20 .f32 0x00000000#32) (ix2 r c)
      = ∑ k : Fin 128, a (ix2 r k) * b (ix2 k c) := by
  simp only [matmul]
  rw [Ideal.matmul_constant_zero_apply, ← Equiv.sum_comp (ValueIdx.contrEquiv1 dot_S64x128_S128x20_S64x20_1_0_0_1_n_n 128 rfl rfl).symm]
  refine Finset.sum_congr rfl fun k _ => ?_
  have hk := ValueIdx.contrEquiv1_symm_val dot_S64x128_S128x20_S64x20_1_0_0_1_n_n 128 rfl rfl k
  have el : dot_S64x128_S128x20_S64x20_1_0_0_1_n_n.lhsIdx (ix2 r c) ((ValueIdx.contrEquiv1 dot_S64x128_S128x20_S64x20_1_0_0_1_n_n 128 rfl rfl).symm k) = ix2 r k := funext fun a => Fin.ext (by
    match a with
    | ⟨0, _⟩ => exact lhsB_0 _ _
    | ⟨1, _⟩ => exact (lhsB_1 _ _).trans hk)
  have er : dot_S64x128_S128x20_S64x20_1_0_0_1_n_n.rhsIdx (ix2 r c) ((ValueIdx.contrEquiv1 dot_S64x128_S128x20_S64x20_1_0_0_1_n_n 128 rfl rfl).symm k) = ix2 k c := funext fun a => Fin.ext (by
    match a with
    | ⟨0, _⟩ => exact (rhsB_0 _ _).trans hk
    | ⟨1, _⟩ => exact rhsB_1 _ _)
  rw [el, er]

/-! ## The payload at an entry -/

/-- A [1,n] row broadcast over 64 rows reads the row's entry at the column. -/
theorem rowA_apply (x : FVec Ideal S1x128 .f32) (h : S1x128.Broadcasts S64x128) (r : Fin 64) (c : Fin 128) :
    broadcastTo S64x128 x h (ix2 r c) = x (ix2 (0 : Fin 1) c) :=
  broadcastTo_apply x h (ix2 r c) (ix2 (0 : Fin 1) c) (fun a => by
    match a with
    | ⟨0, _⟩ => rfl
    | ⟨1, _⟩ => rfl)
theorem rowB_apply (x : FVec Ideal S1x20 .f32) (h : S1x20.Broadcasts S64x20) (r : Fin 64) (c : Fin 20) :
    broadcastTo S64x20 x h (ix2 r c) = x (ix2 (0 : Fin 1) c) :=
  broadcastTo_apply x h (ix2 r c) (ix2 (0 : Fin 1) c) (fun a => by
    match a with
    | ⟨0, _⟩ => rfl
    | ⟨1, _⟩ => rfl)

/-- The kernel's payload at (r, q) is the head at (r, q). -/
theorem pay10_apply (x0 : Vec Ideal S64x128 .f32) (x1 : Vec Ideal S128x128 .f32) (x2 : Vec Ideal S1x128 .f32)
    (x3 : Vec Ideal S128x20 .f32) (x4 : Vec Ideal S1x20 .f32) (r : Fin 64) (q : Fin 20) :
    k10_pay1 (F := Ideal) x0 x1 x2 x3 x4 (ix2 r q) = GcnSpec.head x0 x1 x2 x3 x4 (ix2 r q) := by
  unfold k10_pay1
  simp only [shapeCast_self]
  -- the outer sum: the second product at (r, q) plus the bias row at column q
  refine (congrArg₂ (· + ·) (mmB_apply _ _ r q) (rowB_apply x4 _ r q)).trans ?_
  unfold GcnSpec.head GcnSpec.mm
  refine congrArg₂ (· + ·) (Finset.sum_congr rfl fun k _ => congrArg₂ (· * ·) ?_ rfl) rfl
  -- the hidden layer at (r, k): the first product plus its bias row, rectified
  exact congrArg₂ max (congrArg₂ (· + ·) (mmA_apply _ _ r k) (rowA_apply x2 _ r k)) rfl

/-! ## The one grid point: every block is its whole array -/

section Region

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: every window's block index is (0, 0). -/
theorem idx_facts10 : ∀ t : Fin cfg10.N, win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0 :=
  (by decide +kernel : ∀ t : Fin grid10.N, _)

/-- Window 0's block at the point is the pooled-feature array. -/
theorem iblk10_0_eq (c : Dev nD) (t : Fin cfg10.N) :
    (iblk10 (F := Ideal) V c 0 t : Vec Ideal S64x128 .f32) = V c (Pipeline.arrRef spec10 0) := by
  obtain ⟨e0, e1, -⟩ := idx_facts10 t
  funext j
  show V c (Pipeline.arrRef spec10 0) (((cfg10.win 0).blk t).view.emb j) = V c (Pipeline.arrRef spec10 0) j
  refine congrArg _ (funext fun a => Fin.ext ?_)
  match a with
  | ⟨0, _⟩ => show win10_0.index t (0 : Fin 2) * 64 + 1 * (j 0).val = (j 0).val; omega
  | ⟨1, _⟩ => show win10_0.index t (1 : Fin 2) * 128 + 1 * (j 1).val = (j 1).val; omega

/-- Window 1's block at the point is the first weight array. -/
theorem iblk10_1_eq (c : Dev nD) (t : Fin cfg10.N) :
    (iblk10 (F := Ideal) V c 1 t : Vec Ideal S128x128 .f32) = V c (Pipeline.arrRef spec10 1) := by
  obtain ⟨-, -, e0, e1, -⟩ := idx_facts10 t
  funext j
  show V c (Pipeline.arrRef spec10 1) (((cfg10.win 1).blk t).view.emb j) = V c (Pipeline.arrRef spec10 1) j
  refine congrArg _ (funext fun a => Fin.ext ?_)
  match a with
  | ⟨0, _⟩ => show win10_1.index t (0 : Fin 2) * 128 + 1 * (j 0).val = (j 0).val; omega
  | ⟨1, _⟩ => show win10_1.index t (1 : Fin 2) * 128 + 1 * (j 1).val = (j 1).val; omega

/-- Window 2's block at the point is the first bias row. -/
theorem iblk10_2_eq (c : Dev nD) (t : Fin cfg10.N) :
    (iblk10 (F := Ideal) V c 2 t : Vec Ideal S1x128 .f32) = V c (Pipeline.arrRef spec10 2) := by
  obtain ⟨-, -, -, -, e0, e1, -⟩ := idx_facts10 t
  funext j
  show V c (Pipeline.arrRef spec10 2) (((cfg10.win 2).blk t).view.emb j) = V c (Pipeline.arrRef spec10 2) j
  refine congrArg _ (funext fun a => Fin.ext ?_)
  match a with
  | ⟨0, _⟩ => show win10_2.index t (0 : Fin 2) * 1 + 1 * (j 0).val = (j 0).val; omega
  | ⟨1, _⟩ => show win10_2.index t (1 : Fin 2) * 128 + 1 * (j 1).val = (j 1).val; omega

/-- Window 3's block at the point is the second weight array. -/
theorem iblk10_3_eq (c : Dev nD) (t : Fin cfg10.N) :
    (iblk10 (F := Ideal) V c 3 t : Vec Ideal S128x20 .f32) = V c (Pipeline.arrRef spec10 3) := by
  obtain ⟨-, -, -, -, -, -, e0, e1, -⟩ := idx_facts10 t
  funext j
  show V c (Pipeline.arrRef spec10 3) (((cfg10.win 3).blk t).view.emb j) = V c (Pipeline.arrRef spec10 3) j
  refine congrArg _ (funext fun a => Fin.ext ?_)
  match a with
  | ⟨0, _⟩ => show win10_3.index t (0 : Fin 2) * 128 + 1 * (j 0).val = (j 0).val; omega
  | ⟨1, _⟩ => show win10_3.index t (1 : Fin 2) * 20 + 1 * (j 1).val = (j 1).val; omega

/-- Window 4's block at the point is the second bias row. -/
theorem iblk10_4_eq (c : Dev nD) (t : Fin cfg10.N) :
    (iblk10 (F := Ideal) V c 4 t : Vec Ideal S1x20 .f32) = V c (Pipeline.arrRef spec10 4) := by
  obtain ⟨-, -, -, -, -, -, -, -, e0, e1, -⟩ := idx_facts10 t
  funext j
  show V c (Pipeline.arrRef spec10 4) (((cfg10.win 4).blk t).view.emb j) = V c (Pipeline.arrRef spec10 4) j
  refine congrArg _ (funext fun a => Fin.ext ?_)
  match a with
  | ⟨0, _⟩ => show win10_4.index t (0 : Fin 2) * 1 + 1 * (j 0).val = (j 0).val; omega
  | ⟨1, _⟩ => show win10_4.index t (1 : Fin 2) * 20 + 1 * (j 1).val = (j 1).val; omega

/-- The head of the five argument arrays as the region finds them. -/
abbrev G10 (c : Dev nD) : S64x20.Idx → Elt Ideal .f32 :=
  GcnSpec.head (V c (Pipeline.arrRef spec10 0)) (V c (Pipeline.arrRef spec10 1)) (V c (Pipeline.arrRef spec10 2))
    (V c (Pipeline.arrRef spec10 3)) (V c (Pipeline.arrRef spec10 4))

/-- The payload of the blocks at the point, at (r, q), is the head of the arrays at (r, q). -/
theorem pay10_blocks (c : Dev nD) (t : Fin cfg10.N) (r : Fin 64) (q : Fin 20) :
    k10_pay1 (F := Ideal) (iblk10 V c 0 t) (iblk10 V c 1 t) (iblk10 V c 2 t) (iblk10 V c 3 t) (iblk10 V c 4 t) (ix2 r q)
      = G10 V c (ix2 r q) := by
  refine (pay10_apply _ _ _ _ _ r q).trans ?_
  rw [iblk10_0_eq V c t, iblk10_1_eq V c t, iblk10_2_eq V c t, iblk10_3_eq V c t, iblk10_4_eq V c t]

/-- What the body leaves at entry j of the output block is the head of the arrays at j's place in the array. -/
theorem wrote10_at (c : Dev nD) (t : Fin cfg10.N) (j : S64x20.Idx) :
    k10_pay1 (F := Ideal) (iblk10 V c 0 t) (iblk10 V c 1 t) (iblk10 V c 2 t) (iblk10 V c 3 t) (iblk10 V c 4 t) j
      = G10 V c (((cfg10.win 5).blk t).view.emb j) := by
  obtain ⟨-, -, -, -, -, -, -, -, -, -, e0, e1⟩ := idx_facts10 t
  have he : ((cfg10.win 5).blk t).view.emb j = ix2 (j 0) (j 1) := funext fun a => Fin.ext (by
    match a with
    | ⟨0, _⟩ => show win10_5.index t (0 : Fin 2) * 64 + 1 * (j 0).val = (j 0).val; omega
    | ⟨1, _⟩ => show win10_5.index t (1 : Fin 2) * 20 + 1 * (j 1).val = (j 1).val; omega)
  rw [he]
  exact (congrArg _ (eq_ix2 j)).trans (pay10_blocks V c t (j 0) (j 1))

/-- WHAT THE POINT WRITES BACK is its block of the head of the arrays. -/
theorem flushed10_eq (c : Dev nD) (t : Fin cfg10.N) :
    (dat10 (F := Ideal) V c).flushed 5 t = ((cfg10.win 5).blk t).view.read (Elt Ideal) (G10 V c) := by
  show (cfg10.win 5).cut (grid10.coords t) ((dat10 (F := Ideal) V c).after 5 t) = _
  rw [after10_5]
  unfold out10_5
  rw [View.canon_unit_zero hz]
  simp only [View.ld_unit_zero (S := S64x128) hz, View.ld_unit_zero (S := S128x128) hz, View.ld_unit_zero (S := S1x128) hz,
    View.ld_unit_zero (S := S128x20) hz, View.ld_unit_zero (S := S1x20) hz]
  funext j
  exact wrote10_at V c t j

/-- An index of the output array is in the point's block iff each coordinate is in the block's range on its axis. -/
theorem mem_blk10 (t : Fin cfg10.N) (i : S64x20.Idx) :
    i ∈ ((cfg10.win 5).blk t).view.set ↔ ∀ a : Fin 2, win10_5.index t a * S64x20.size a ≤ (i a).val ∧ (i a).val < win10_5.index t a * S64x20.size a + S64x20.size a := by
  show i ∈ ((View.whole main_v197).slice (win10_5.rect t)).set ↔ _
  rw [View.set_slice_whole, Rect.mem_set_unit]
  exact Iff.rfl

/-- The point's block covers the output array. -/
theorem cover10 (i : S64x20.Idx) : ∃ t : Fin cfg10.N, (cfg10.win 5).flush t = true ∧ i ∈ ((cfg10.win 5).blk t).view.set := by
  have t : Fin cfg10.N := ⟨0, by decide⟩
  obtain ⟨-, -, -, -, -, -, -, -, -, -, e0, e1⟩ := idx_facts10 t
  refine ⟨t, flush10_5 t, ?_⟩
  rw [mem_blk10]
  intro a
  match a with
  | ⟨0, _⟩ => show win10_5.index t (0 : Fin 2) * 64 ≤ (i 0).val ∧ (i 0).val < win10_5.index t (0 : Fin 2) * 64 + 64; have h0 : (i 0).val < 64 := (i 0).isLt; omega
  | ⟨1, _⟩ => show win10_5.index t (1 : Fin 2) * 20 ≤ (i 1).val ∧ (i 1).val < win10_5.index t (1 : Fin 2) * 20 + 20; have h1 : (i 1).val < 20 := (i 1).isLt; omega

/-- THE OUTPUT ARRAY after the region: the head of the five argument arrays as the region finds them. -/
theorem final10 (c : Dev nD) :
    (dat10 (F := Ideal) V c).arrAt 5 cfg10.N = GcnSpec.head (V c (Pipeline.arrRef spec10 0)) (V c (Pipeline.arrRef spec10 1))
      (V c (Pipeline.arrRef spec10 2)) (V c (Pipeline.arrRef spec10 3)) (V c (Pipeline.arrRef spec10 4)) :=
  (dat10 (F := Ideal) V c).arrAt_eq_of_cover 5 (G10 V c) (fun t _ => flushed10_eq V c t) cover10

end Region

end Cert.KernelIdeal.RegionHead

end
-- ==== Proof.Stages.lean ====
/-
  The idealized kernel's result, stage by stage, against the reference's stages. At each boundary between a host
  stretch and a kernel region the buffers the next segment reads hold the reference's intermediate values of the
  launch arguments:

  * before the first region: the edge lists with self loops, the edge normalization, the first weight slice;
  * after a dense region: the rows against the layer's weight (the region's blocks cover the array);
  * after the next host stretch: the aggregated rows and the layer's five parameter slices;
  * after an epilogue region: the layer's output;
  * after the last host stretch: the pooled rows and the head's two bias rows; after the last region: the result.

  Every step is one region's whole-array value or one host stretch's result, rewritten with the previous step.
-/
import proofs.«125410_j42923903156343_1_alg».proof.Proof.Gen.KernelIdeal.Frame
import proofs.«125410_j42923903156343_1_alg».proof.Proof.Spec
import proofs.«125410_j42923903156343_1_alg».proof.Proof.RefSpec
import proofs.«125410_j42923903156343_1_alg».proof.Proof.HostStretch
import proofs.«125410_j42923903156343_1_alg».proof.Proof.CarryA
import proofs.«125410_j42923903156343_1_alg».proof.Proof.CarryB
import proofs.«125410_j42923903156343_1_alg».proof.Proof.RegionMatmul
import proofs.«125410_j42923903156343_1_alg».proof.Proof.RegionAffine
import proofs.«125410_j42923903156343_1_alg».proof.Proof.RegionHead

set_option maxRecDepth 16384

noncomputable section

namespace Cert.KernelIdeal.Stages

open Cert.KernelIdeal Cert.KernelIdeal.Gen Idealize.ShloMosaic Idealize.ShloMosaic.TcCoe Idealize.ShloMosaic.ValueIdx
open Cert.ReferenceIdeal.Read

variable (m : (ℓ : Loc nD τ sig) → Buf (Elt Ideal) ℓ) (ρ : Dev nD → PrngReg) (c : Dev nD)

/-! ## Before the first region

The three stretches, composed: each value at the third boundary is the third stretch's result of the second's of
the first's, from the launch memory. -/

theorem src_1 : W1 m ρ c (Proc.devRef .tc main_v5) = val_main_v5 (F := Ideal) (m ((c : Thread nD τ).loc main_arg1)) := HostStretch.first_v5 (W0 m ρ c)
theorem dst_1 : W1 m ρ c (Proc.devRef .tc main_v6) = val_main_v6 (F := Ideal) (m ((c : Thread nD τ).loc main_arg1)) := HostStretch.first_v6 (W0 m ρ c)
theorem wts_1 : W1 m ρ c (Proc.devRef .tc main_v8) = val_main_v8 (F := Ideal) (m ((c : Thread nD τ).loc main_arg2)) := HostStretch.first_v8 (W0 m ρ c)
theorem src_3 : W3 m ρ c (Proc.devRef .tc main_v5) = val_main_v5 (F := Ideal) (m ((c : Thread nD τ).loc main_arg1)) :=
  (HostStretch.third_keep_v5 (W2 m ρ c)).trans ((HostStretch.second_keep_v5 (W1 m ρ c)).trans (src_1 m ρ c))
theorem dst_3 : W3 m ρ c (Proc.devRef .tc main_v6) = val_main_v6 (F := Ideal) (m ((c : Thread nD τ).loc main_arg1)) :=
  (HostStretch.third_keep_v6 (W2 m ρ c)).trans ((HostStretch.second_keep_v6 (W1 m ρ c)).trans (dst_1 m ρ c))
theorem cmp_1 : W1 m ρ c (Proc.devRef .tc main_v13) = val_main_v13 (F := Ideal) (m ((c : Thread nD τ).loc main_arg1)) (m ((c : Thread nD τ).loc main_arg2)) := HostStretch.first_v13 (W0 m ρ c)
theorem rsq_1 : W1 m ρ c (Proc.devRef .tc main_v14) = val_main_v14 (F := Ideal) (m ((c : Thread nD τ).loc main_arg1)) (m ((c : Thread nD τ).loc main_arg2)) := HostStretch.first_v14 (W0 m ρ c)
theorem zero_1 : W1 m ρ c (Proc.devRef .tc main_cst_2) = val_main_cst_2 (F := Ideal) := HostStretch.first_cst2 (W0 m ρ c)
theorem src_2 : W2 m ρ c (Proc.devRef .tc main_v5) = val_main_v5 (F := Ideal) (m ((c : Thread nD τ).loc main_arg1)) := (HostStretch.second_keep_v5 (W1 m ρ c)).trans (src_1 m ρ c)
theorem dst_2 : W2 m ρ c (Proc.devRef .tc main_v6) = val_main_v6 (F := Ideal) (m ((c : Thread nD τ).loc main_arg1)) := (HostStretch.second_keep_v6 (W1 m ρ c)).trans (dst_1 m ρ c)
theorem wts_2 : W2 m ρ c (Proc.devRef .tc main_v8) = val_main_v8 (F := Ideal) (m ((c : Thread nD τ).loc main_arg2)) := (HostStretch.second_keep_v8 (W1 m ρ c)).trans (wts_1 m ρ c)
theorem dis_2 : W2 m ρ c (Proc.devRef .tc main_v15) = val_main_v15 (F := Ideal) (m ((c : Thread nD τ).loc main_arg1)) (m ((c : Thread nD τ).loc main_arg2)) := by
  refine (HostStretch.second_v15 (W1 m ρ c)).trans ?_
  rw [cmp_1 m ρ c, rsq_1 m ρ c, zero_1 m ρ c]
  exact (HostStretch.ref_v15 (m ((c : Thread nD τ).loc main_arg1)) (m ((c : Thread nD τ).loc main_arg2))).symm
theorem nrm_3 : W3 m ρ c (Proc.devRef .tc main_v31) = val_main_v31 (F := Ideal) (m ((c : Thread nD τ).loc main_arg1)) (m ((c : Thread nD τ).loc main_arg2)) := by
  refine (HostStretch.third_v31 (W2 m ρ c)).trans ?_
  rw [dis_2 m ρ c, src_2 m ρ c, dst_2 m ρ c, wts_2 m ρ c]
  exact (HostStretch.ref_v31 (m ((c : Thread nD τ).loc main_arg1)) (m ((c : Thread nD τ).loc main_arg2))).symm
theorem w_3 : W3 m ρ c (Proc.devRef .tc main_v33) = val_main_v33 (F := Ideal) (m ((c : Thread nD τ).loc main_arg4)) :=
  (HostStretch.third_v33 (W2 m ρ c)).trans (congrArg (val_main_v33 (F := Ideal))
    ((HostStretch.second_keep_arg4 (W1 m ρ c)).trans (HostStretch.first_arg4 (W0 m ρ c))))
theorem x_3 : W3 m ρ c (Proc.devRef .tc main_arg0) = (m ((c : Thread nD τ).loc main_arg0)) :=
  (HostStretch.third_keep_arg0 (W2 m ρ c)).trans ((HostStretch.second_keep_arg0 (W1 m ρ c)).trans (HostStretch.first_arg0 (W0 m ρ c)))

/-! ## Layer 0 -/

/-- The dense region's output: the layer's input rows against the layer's weight. -/
theorem lin_4 : W4 m ρ c (Proc.devRef .tc main_v34) = (val_main_v36 (F := Ideal) (m ((c : Thread nD τ).loc main_arg0)) (m ((c : Thread nD τ).loc main_arg4))) := by
  refine (W4_arr m ρ c 2).trans ((RegionMatmul.final0 (V3 m ρ) c).trans ?_)
  show GcnSpec.mm 50000 128 (W3 m ρ c (Proc.devRef .tc main_arg0)) (W3 m ρ c (Proc.devRef .tc main_v33)) = _
  rw [x_3 m ρ c, w_3 m ρ c]
  exact (Cert.ReferenceIdeal.RefSpec.dense0 (m ((c : Thread nD τ).loc main_arg0)) (m ((c : Thread nD τ).loc main_arg4))).symm

/-- The aggregated rows. -/
theorem agg_5 : W5 m ρ c (Proc.devRef .tc main_v47) = (val_main_v49 (F := Ideal) (m ((c : Thread nD τ).loc main_arg0)) (m ((c : Thread nD τ).loc main_arg1)) (m ((c : Thread nD τ).loc main_arg2)) (m ((c : Thread nD τ).loc main_arg4))) := by
  refine (HostStretch.agg0_eq (W4 m ρ c)).trans ?_
  rw [lin_4 m ρ c, CarryB.src_4 m ρ c, CarryB.dst_4 m ρ c, CarryB.nrm_4 m ρ c, src_3 m ρ c, dst_3 m ρ c, nrm_3 m ρ c]
  exact (HostStretch.ref_agg0 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm
theorem row0_5 : W5 m ρ c (Proc.devRef .tc main_v58) = val_main_v34 (F := Ideal) (m ((c : Thread nD τ).loc main_arg5)) :=
  (HostStretch.row0_0_eq (W4 m ρ c)).trans (congrArg (val_main_v34 (F := Ideal)) (CarryA.arg5_4 m ρ c))
theorem row1_5 : W5 m ρ c (Proc.devRef .tc main_v59) = val_main_v67 (F := Ideal) (m ((c : Thread nD τ).loc main_arg6)) :=
  (HostStretch.row0_1_eq (W4 m ρ c)).trans (congrArg (val_main_v67 (F := Ideal)) (CarryA.arg6_4 m ρ c))
theorem row2_5 : W5 m ρ c (Proc.devRef .tc main_v60) = val_main_v72 (F := Ideal) (m ((c : Thread nD τ).loc main_arg7)) :=
  (HostStretch.row0_2_eq (W4 m ρ c)).trans (congrArg (val_main_v72 (F := Ideal)) (CarryA.arg7_4 m ρ c))
theorem row3_5 : W5 m ρ c (Proc.devRef .tc main_v61) = val_main_v54 (F := Ideal) (m ((c : Thread nD τ).loc main_arg8)) :=
  (HostStretch.row0_3_eq (W4 m ρ c)).trans (congrArg (val_main_v54 (F := Ideal)) (CarryA.arg8_4 m ρ c))
theorem row4_5 : W5 m ρ c (Proc.devRef .tc main_v62) = val_main_v59 (F := Ideal) (m ((c : Thread nD τ).loc main_arg9)) :=
  (HostStretch.row0_4_eq (W4 m ρ c)).trans (congrArg (val_main_v59 (F := Ideal)) (CarryA.arg9_4 m ρ c))

/-- The layer's output: the epilogue of the aggregated rows and the layer's parameter slices. -/
theorem out_6 : W6 m ρ c (Proc.devRef .tc main_v63) = (val_main_v76 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W6_arr m ρ c 6).trans ((RegionAffine.final1 (V5 m ρ) c).trans ?_)
  show GcnSpec.affReluBefore (W5 m ρ c (Proc.devRef .tc main_v47)) (W5 m ρ c (Proc.devRef .tc main_v58)) (W5 m ρ c (Proc.devRef .tc main_v59)) (W5 m ρ c (Proc.devRef .tc main_v60)) (W5 m ρ c (Proc.devRef .tc main_v61)) (W5 m ρ c (Proc.devRef .tc main_v62)) = _
  rw [agg_5 m ρ c, row0_5 m ρ c, row1_5 m ρ c, row2_5 m ρ c, row3_5 m ρ c, row4_5 m ρ c]
  exact (Cert.ReferenceIdeal.RefSpec.layer0 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-! ## Layer 1 -/

theorem w_7 : W7 m ρ c (Proc.devRef .tc main_v65) = val_main_v78 (F := Ideal) (m ((c : Thread nD τ).loc main_arg4)) :=
  (HostStretch.weight1_eq (W6 m ρ c)).trans (congrArg (val_main_v78 (F := Ideal)) (CarryA.arg4_6 m ρ c))
theorem x_7 : W7 m ρ c (Proc.devRef .tc main_v63) = (val_main_v76 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (HostStretch.prev1_eq (W6 m ρ c)).trans (out_6 m ρ c)

/-- The dense region's output: the layer's input rows against the layer's weight. -/
theorem lin_8 : W8 m ρ c (Proc.devRef .tc main_v66) = (val_main_v81 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W8_arr m ρ c 2).trans ((RegionMatmul.final2 (V7 m ρ) c).trans ?_)
  show GcnSpec.mm 50000 128 (W7 m ρ c (Proc.devRef .tc main_v63)) (W7 m ρ c (Proc.devRef .tc main_v65)) = _
  rw [x_7 m ρ c, w_7 m ρ c]
  exact (Cert.ReferenceIdeal.RefSpec.dense1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-- The aggregated rows. -/
theorem agg_9 : W9 m ρ c (Proc.devRef .tc main_v79) = (val_main_v94 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (HostStretch.agg1_eq (W8 m ρ c)).trans ?_
  rw [lin_8 m ρ c, CarryB.src_8 m ρ c, CarryB.dst_8 m ρ c, CarryB.nrm_8 m ρ c, src_3 m ρ c, dst_3 m ρ c, nrm_3 m ρ c]
  exact (HostStretch.ref_agg1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm
theorem row0_9 : W9 m ρ c (Proc.devRef .tc main_v90) = val_main_v79 (F := Ideal) (m ((c : Thread nD τ).loc main_arg5)) :=
  (HostStretch.row1_0_eq (W8 m ρ c)).trans (congrArg (val_main_v79 (F := Ideal)) (CarryA.arg5_8 m ρ c))
theorem row1_9 : W9 m ρ c (Proc.devRef .tc main_v91) = val_main_v112 (F := Ideal) (m ((c : Thread nD τ).loc main_arg6)) :=
  (HostStretch.row1_1_eq (W8 m ρ c)).trans (congrArg (val_main_v112 (F := Ideal)) (CarryA.arg6_8 m ρ c))
theorem row2_9 : W9 m ρ c (Proc.devRef .tc main_v92) = val_main_v117 (F := Ideal) (m ((c : Thread nD τ).loc main_arg7)) :=
  (HostStretch.row1_2_eq (W8 m ρ c)).trans (congrArg (val_main_v117 (F := Ideal)) (CarryA.arg7_8 m ρ c))
theorem row3_9 : W9 m ρ c (Proc.devRef .tc main_v93) = val_main_v99 (F := Ideal) (m ((c : Thread nD τ).loc main_arg8)) :=
  (HostStretch.row1_3_eq (W8 m ρ c)).trans (congrArg (val_main_v99 (F := Ideal)) (CarryA.arg8_8 m ρ c))
theorem row4_9 : W9 m ρ c (Proc.devRef .tc main_v94) = val_main_v104 (F := Ideal) (m ((c : Thread nD τ).loc main_arg9)) :=
  (HostStretch.row1_4_eq (W8 m ρ c)).trans (congrArg (val_main_v104 (F := Ideal)) (CarryA.arg9_8 m ρ c))

/-- The layer's output: the epilogue of the aggregated rows and the layer's parameter slices. -/
theorem out_10 : W10 m ρ c (Proc.devRef .tc main_v95) = (val_main_v121 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W10_arr m ρ c 6).trans ((RegionAffine.final3 (V9 m ρ) c).trans ?_)
  show GcnSpec.affReluBefore (W9 m ρ c (Proc.devRef .tc main_v79)) (W9 m ρ c (Proc.devRef .tc main_v90)) (W9 m ρ c (Proc.devRef .tc main_v91)) (W9 m ρ c (Proc.devRef .tc main_v92)) (W9 m ρ c (Proc.devRef .tc main_v93)) (W9 m ρ c (Proc.devRef .tc main_v94)) = _
  rw [agg_9 m ρ c, row0_9 m ρ c, row1_9 m ρ c, row2_9 m ρ c, row3_9 m ρ c, row4_9 m ρ c]
  exact (Cert.ReferenceIdeal.RefSpec.layer1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-! ## Layer 2 -/

theorem w_11 : W11 m ρ c (Proc.devRef .tc main_v97) = val_main_v123 (F := Ideal) (m ((c : Thread nD τ).loc main_arg4)) :=
  (HostStretch.weight2_eq (W10 m ρ c)).trans (congrArg (val_main_v123 (F := Ideal)) (CarryA.arg4_10 m ρ c))
theorem x_11 : W11 m ρ c (Proc.devRef .tc main_v95) = (val_main_v121 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (HostStretch.prev2_eq (W10 m ρ c)).trans (out_10 m ρ c)

/-- The dense region's output: the layer's input rows against the layer's weight. -/
theorem lin_12 : W12 m ρ c (Proc.devRef .tc main_v98) = (val_main_v126 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W12_arr m ρ c 2).trans ((RegionMatmul.final4 (V11 m ρ) c).trans ?_)
  show GcnSpec.mm 50000 128 (W11 m ρ c (Proc.devRef .tc main_v95)) (W11 m ρ c (Proc.devRef .tc main_v97)) = _
  rw [x_11 m ρ c, w_11 m ρ c]
  exact (Cert.ReferenceIdeal.RefSpec.dense2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-- The aggregated rows. -/
theorem agg_13 : W13 m ρ c (Proc.devRef .tc main_v111) = (val_main_v139 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (HostStretch.agg2_eq (W12 m ρ c)).trans ?_
  rw [lin_12 m ρ c, CarryB.src_12 m ρ c, CarryB.dst_12 m ρ c, CarryB.nrm_12 m ρ c, src_3 m ρ c, dst_3 m ρ c, nrm_3 m ρ c]
  exact (HostStretch.ref_agg2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm
theorem row0_13 : W13 m ρ c (Proc.devRef .tc main_v122) = val_main_v124 (F := Ideal) (m ((c : Thread nD τ).loc main_arg5)) :=
  (HostStretch.row2_0_eq (W12 m ρ c)).trans (congrArg (val_main_v124 (F := Ideal)) (CarryA.arg5_12 m ρ c))
theorem row1_13 : W13 m ρ c (Proc.devRef .tc main_v123) = val_main_v157 (F := Ideal) (m ((c : Thread nD τ).loc main_arg6)) :=
  (HostStretch.row2_1_eq (W12 m ρ c)).trans (congrArg (val_main_v157 (F := Ideal)) (CarryA.arg6_12 m ρ c))
theorem row2_13 : W13 m ρ c (Proc.devRef .tc main_v124) = val_main_v162 (F := Ideal) (m ((c : Thread nD τ).loc main_arg7)) :=
  (HostStretch.row2_2_eq (W12 m ρ c)).trans (congrArg (val_main_v162 (F := Ideal)) (CarryA.arg7_12 m ρ c))
theorem row3_13 : W13 m ρ c (Proc.devRef .tc main_v125) = val_main_v144 (F := Ideal) (m ((c : Thread nD τ).loc main_arg8)) :=
  (HostStretch.row2_3_eq (W12 m ρ c)).trans (congrArg (val_main_v144 (F := Ideal)) (CarryA.arg8_12 m ρ c))
theorem row4_13 : W13 m ρ c (Proc.devRef .tc main_v126) = val_main_v149 (F := Ideal) (m ((c : Thread nD τ).loc main_arg9)) :=
  (HostStretch.row2_4_eq (W12 m ρ c)).trans (congrArg (val_main_v149 (F := Ideal)) (CarryA.arg9_12 m ρ c))

/-- The layer's output: the epilogue of the aggregated rows and the layer's parameter slices. -/
theorem out_14 : W14 m ρ c (Proc.devRef .tc main_v127) = (val_main_v166 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W14_arr m ρ c 6).trans ((RegionAffine.final5 (V13 m ρ) c).trans ?_)
  show GcnSpec.affReluBefore (W13 m ρ c (Proc.devRef .tc main_v111)) (W13 m ρ c (Proc.devRef .tc main_v122)) (W13 m ρ c (Proc.devRef .tc main_v123)) (W13 m ρ c (Proc.devRef .tc main_v124)) (W13 m ρ c (Proc.devRef .tc main_v125)) (W13 m ρ c (Proc.devRef .tc main_v126)) = _
  rw [agg_13 m ρ c, row0_13 m ρ c, row1_13 m ρ c, row2_13 m ρ c, row3_13 m ρ c, row4_13 m ρ c]
  exact (Cert.ReferenceIdeal.RefSpec.layer2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-! ## Layer 3 -/

theorem w_15 : W15 m ρ c (Proc.devRef .tc main_v129) = val_main_v168 (F := Ideal) (m ((c : Thread nD τ).loc main_arg4)) :=
  (HostStretch.weight3_eq (W14 m ρ c)).trans (congrArg (val_main_v168 (F := Ideal)) (CarryA.arg4_14 m ρ c))
theorem x_15 : W15 m ρ c (Proc.devRef .tc main_v127) = (val_main_v166 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (HostStretch.prev3_eq (W14 m ρ c)).trans (out_14 m ρ c)

/-- The dense region's output: the layer's input rows against the layer's weight. -/
theorem lin_16 : W16 m ρ c (Proc.devRef .tc main_v130) = (val_main_v171 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W16_arr m ρ c 2).trans ((RegionMatmul.final6 (V15 m ρ) c).trans ?_)
  show GcnSpec.mm 50000 128 (W15 m ρ c (Proc.devRef .tc main_v127)) (W15 m ρ c (Proc.devRef .tc main_v129)) = _
  rw [x_15 m ρ c, w_15 m ρ c]
  exact (Cert.ReferenceIdeal.RefSpec.dense3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-- The aggregated rows. -/
theorem agg_17 : W17 m ρ c (Proc.devRef .tc main_v143) = (val_main_v184 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (HostStretch.agg3_eq (W16 m ρ c)).trans ?_
  rw [lin_16 m ρ c, CarryB.src_16 m ρ c, CarryB.dst_16 m ρ c, CarryB.nrm_16 m ρ c, src_3 m ρ c, dst_3 m ρ c, nrm_3 m ρ c]
  exact (HostStretch.ref_agg3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm
theorem row0_17 : W17 m ρ c (Proc.devRef .tc main_v154) = val_main_v169 (F := Ideal) (m ((c : Thread nD τ).loc main_arg5)) :=
  (HostStretch.row3_0_eq (W16 m ρ c)).trans (congrArg (val_main_v169 (F := Ideal)) (CarryA.arg5_16 m ρ c))
theorem row1_17 : W17 m ρ c (Proc.devRef .tc main_v155) = val_main_v201 (F := Ideal) (m ((c : Thread nD τ).loc main_arg6)) :=
  (HostStretch.row3_1_eq (W16 m ρ c)).trans (congrArg (val_main_v201 (F := Ideal)) (CarryA.arg6_16 m ρ c))
theorem row2_17 : W17 m ρ c (Proc.devRef .tc main_v156) = val_main_v206 (F := Ideal) (m ((c : Thread nD τ).loc main_arg7)) :=
  (HostStretch.row3_2_eq (W16 m ρ c)).trans (congrArg (val_main_v206 (F := Ideal)) (CarryA.arg7_16 m ρ c))
theorem row3_17 : W17 m ρ c (Proc.devRef .tc main_v157) = val_main_v188 (F := Ideal) (m ((c : Thread nD τ).loc main_arg8)) :=
  (HostStretch.row3_3_eq (W16 m ρ c)).trans (congrArg (val_main_v188 (F := Ideal)) (CarryA.arg8_16 m ρ c))
theorem row4_17 : W17 m ρ c (Proc.devRef .tc main_v158) = val_main_v193 (F := Ideal) (m ((c : Thread nD τ).loc main_arg9)) :=
  (HostStretch.row3_4_eq (W16 m ρ c)).trans (congrArg (val_main_v193 (F := Ideal)) (CarryA.arg9_16 m ρ c))

/-- The layer's output: the epilogue of the aggregated rows and the layer's parameter slices. -/
theorem out_18 : W18 m ρ c (Proc.devRef .tc main_v159) = (val_main_v211 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W18_arr m ρ c 6).trans ((RegionAffine.final7 (V17 m ρ) c).trans ?_)
  show GcnSpec.affReluAfter (W17 m ρ c (Proc.devRef .tc main_v143)) (W17 m ρ c (Proc.devRef .tc main_v154)) (W17 m ρ c (Proc.devRef .tc main_v155)) (W17 m ρ c (Proc.devRef .tc main_v156)) (W17 m ρ c (Proc.devRef .tc main_v157)) (W17 m ρ c (Proc.devRef .tc main_v158)) = _
  rw [agg_17 m ρ c, row0_17 m ρ c, row1_17 m ρ c, row2_17 m ρ c, row3_17 m ρ c, row4_17 m ρ c]
  exact (Cert.ReferenceIdeal.RefSpec.layer3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-! ## Layer 4 -/

theorem w_19 : W19 m ρ c (Proc.devRef .tc main_v161) = val_main_v213 (F := Ideal) (m ((c : Thread nD τ).loc main_arg4)) :=
  (HostStretch.weight4_eq (W18 m ρ c)).trans (congrArg (val_main_v213 (F := Ideal)) (CarryA.arg4_18 m ρ c))
theorem x_19 : W19 m ρ c (Proc.devRef .tc main_v159) = (val_main_v211 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (HostStretch.prev4_eq (W18 m ρ c)).trans (out_18 m ρ c)

/-- The dense region's output: the layer's input rows against the layer's weight. -/
theorem lin_20 : W20 m ρ c (Proc.devRef .tc main_v162) = (val_main_v216 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W20_arr m ρ c 2).trans ((RegionMatmul.final8 (V19 m ρ) c).trans ?_)
  show GcnSpec.mm 50000 128 (W19 m ρ c (Proc.devRef .tc main_v159)) (W19 m ρ c (Proc.devRef .tc main_v161)) = _
  rw [x_19 m ρ c, w_19 m ρ c]
  exact (Cert.ReferenceIdeal.RefSpec.dense4 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-- The aggregated rows. -/
theorem agg_21 : W21 m ρ c (Proc.devRef .tc main_v175) = (val_main_v229 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (HostStretch.agg4_eq (W20 m ρ c)).trans ?_
  rw [lin_20 m ρ c, CarryB.src_20 m ρ c, CarryB.dst_20 m ρ c, CarryB.nrm_20 m ρ c, src_3 m ρ c, dst_3 m ρ c, nrm_3 m ρ c]
  exact (HostStretch.ref_agg4 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm
theorem row0_21 : W21 m ρ c (Proc.devRef .tc main_v186) = val_main_v214 (F := Ideal) (m ((c : Thread nD τ).loc main_arg5)) :=
  (HostStretch.row4_0_eq (W20 m ρ c)).trans (congrArg (val_main_v214 (F := Ideal)) (CarryA.arg5_20 m ρ c))
theorem row1_21 : W21 m ρ c (Proc.devRef .tc main_v187) = val_main_v246 (F := Ideal) (m ((c : Thread nD τ).loc main_arg6)) :=
  (HostStretch.row4_1_eq (W20 m ρ c)).trans (congrArg (val_main_v246 (F := Ideal)) (CarryA.arg6_20 m ρ c))
theorem row2_21 : W21 m ρ c (Proc.devRef .tc main_v188) = val_main_v251 (F := Ideal) (m ((c : Thread nD τ).loc main_arg7)) :=
  (HostStretch.row4_2_eq (W20 m ρ c)).trans (congrArg (val_main_v251 (F := Ideal)) (CarryA.arg7_20 m ρ c))
theorem row3_21 : W21 m ρ c (Proc.devRef .tc main_v189) = val_main_v233 (F := Ideal) (m ((c : Thread nD τ).loc main_arg8)) :=
  (HostStretch.row4_3_eq (W20 m ρ c)).trans (congrArg (val_main_v233 (F := Ideal)) (CarryA.arg8_20 m ρ c))
theorem row4_21 : W21 m ρ c (Proc.devRef .tc main_v190) = val_main_v238 (F := Ideal) (m ((c : Thread nD τ).loc main_arg9)) :=
  (HostStretch.row4_4_eq (W20 m ρ c)).trans (congrArg (val_main_v238 (F := Ideal)) (CarryA.arg9_20 m ρ c))

/-- The layer's output: the epilogue of the aggregated rows and the layer's parameter slices. -/
theorem out_22 : W22 m ρ c (Proc.devRef .tc main_v191) = (val_main_v255 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W22_arr m ρ c 6).trans ((RegionAffine.final9 (V21 m ρ) c).trans ?_)
  show GcnSpec.affPlain (W21 m ρ c (Proc.devRef .tc main_v175)) (W21 m ρ c (Proc.devRef .tc main_v186)) (W21 m ρ c (Proc.devRef .tc main_v187)) (W21 m ρ c (Proc.devRef .tc main_v188)) (W21 m ρ c (Proc.devRef .tc main_v189)) (W21 m ρ c (Proc.devRef .tc main_v190)) = _
  rw [agg_21 m ρ c, row0_21 m ρ c, row1_21 m ρ c, row2_21 m ρ c, row3_21 m ρ c, row4_21 m ρ c]
  exact (Cert.ReferenceIdeal.RefSpec.layer4 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-! ## The pooling and the head -/

theorem pool_23 : W23 m ρ c (Proc.devRef .tc main_v194) = (val_main_v258 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (HostStretch.pool_eq (W22 m ρ c)).trans ?_
  rw [out_22 m ρ c, CarryB.arg3_22 m ρ c]
  exact (HostStretch.ref_pool (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm
theorem b1_23 : W23 m ρ c (Proc.devRef .tc main_v195) = shapeCast S1x128 (m ((c : Thread nD τ).loc main_arg11)) shapeCasts_S128_S1x128 :=
  (HostStretch.bias1_eq (W22 m ρ c)).trans (congrArg (fun v => shapeCast S1x128 v shapeCasts_S128_S1x128) (CarryB.arg11_22 m ρ c))
theorem b2_23 : W23 m ρ c (Proc.devRef .tc main_v196) = shapeCast S1x20 (m ((c : Thread nD τ).loc main_arg13)) shapeCasts_S20_S1x20 :=
  (HostStretch.bias2_eq (W22 m ρ c)).trans (congrArg (fun v => shapeCast S1x20 v shapeCasts_S20_S1x20) (CarryB.arg13_22 m ρ c))

/-- A [128] row reshaped to [1,128]: entry (0, q) is the row's entry q. -/
theorem row128_apply (v : (⟨S128, .f32⟩ : BufTy).Contents (Elt Ideal)) (q : Fin 128) :
    shapeCast S1x128 v shapeCasts_S128_S1x128 (ix2 (0 : Fin 1) q) = v (ix1 q) :=
  shapeCast_apply v shapeCasts_S128_S1x128 (ix2 (0 : Fin 1) q) (ix1 q)
    (by rewrite [Shape.rowMajor_val_two, Shape.rowMajor_val_one]; show q.val = 0 * 128 + q.val; omega)
/-- A [20] row reshaped to [1,20]: entry (0, q) is the row's entry q. -/
theorem row20_apply (v : (⟨S20, .f32⟩ : BufTy).Contents (Elt Ideal)) (q : Fin 20) :
    shapeCast S1x20 v shapeCasts_S20_S1x20 (ix2 (0 : Fin 1) q) = v (ix1 q) :=
  shapeCast_apply v shapeCasts_S20_S1x20 (ix2 (0 : Fin 1) q) (ix1 q)
    (by rewrite [Shape.rowMajor_val_two, Shape.rowMajor_val_one]; show q.val = 0 * 20 + q.val; omega)

/-- THE RESULT: the kernel's result array holds the reference's result of the launch arguments. -/
theorem result : W24 m ρ c (Proc.devRef .tc main_v197) = (val_main_v268 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  refine (W24_arr m ρ c 5).trans ((RegionHead.final10 (V23 m ρ) c).trans ?_)
  show GcnSpec.head (W23 m ρ c (Proc.devRef .tc main_v194)) (W23 m ρ c (Proc.devRef .tc main_arg10)) (W23 m ρ c (Proc.devRef .tc main_v195)) (W23 m ρ c (Proc.devRef .tc main_arg12)) (W23 m ρ c (Proc.devRef .tc main_v196)) = _
  rw [pool_23 m ρ c, CarryB.arg10_23 m ρ c, b1_23 m ρ c, CarryB.arg12_23 m ρ c, b2_23 m ρ c]
  exact (Cert.ReferenceIdeal.RefSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (shapeCast S1x128 (m ((c : Thread nD τ).loc main_arg11)) shapeCasts_S128_S1x128) (shapeCast S1x20 (m ((c : Thread nD τ).loc main_arg13)) shapeCasts_S20_S1x20)
    (row128_apply (m ((c : Thread nD τ).loc main_arg11))) (row20_apply (m ((c : Thread nD τ).loc main_arg13)))).symm

end Cert.KernelIdeal.Stages

end
-- ==== Proof.lean ====
/-
  The certificate of a five-layer graph convolution network with batch-norm epilogues, sum pooling and a two-layer
  head, computed by eleven tiled kernel regions among host gathers and scatter-adds, against its plain reference.

  At the ideal instance both programs are the same function of the arguments. The host preamble (edge lists with
  self loops, degrees, the symmetric normalization) and the per-layer gather, scaling and scatter-add are the same
  host operations in both. A dense region multiplies [5000,128] blocks of rows into the layer's [128,128] weight —
  the reference's one contraction, block by block, the casts to a narrower format being the identity on extended
  reals. An epilogue region adds the bias row, applies the rectifier and the batch-norm affine
  (h − mean)·(var + ε)^(-1/2)·γ + β to [5000,128] blocks with [1,128] parameter rows — the reference's whole-array
  broadcasts, entry by entry. The head region is the reference's last five operations on one block. No law of
  arithmetic beyond this rearrangement of where a value is computed is used, so finiteness of the inputs is never
  opened. The ideal pass rewrote nothing, so the idealization claim is trivial.

  The three frames: the two kernels' are the generated frame certificates; the reference's is its generated run with
  the result dropped.
-/
import proofs.«125410_j42923903156343_1_alg».proof.Defs
import proofs.«125410_j42923903156343_1_alg».proof.Proof.Gen.Kernel
import proofs.«125410_j42923903156343_1_alg».proof.Proof.Gen.Kernel.Skeleton
import proofs.«125410_j42923903156343_1_alg».proof.Proof.Gen.Kernel.Launch
import proofs.«125410_j42923903156343_1_alg».proof.Proof.Gen.Kernel.Points
import proofs.«125410_j42923903156343_1_alg».proof.Proof.Gen.Kernel.Frame
import proofs.«125410_j42923903156343_1_alg».proof.Proof.Gen.KernelIdeal
import proofs.«125410_j42923903156343_1_alg».proof.Proof.Gen.KernelIdeal.Skeleton
import proofs.«125410_j42923903156343_1_alg».proof.Proof.Gen.KernelIdeal.Launch
import proofs.«125410_j42923903156343_1_alg».proof.Proof.Gen.KernelIdeal.Points
import proofs.«125410_j42923903156343_1_alg».proof.Proof.Gen.KernelIdeal.Frame
import proofs.«125410_j42923903156343_1_alg».proof.Proof.Gen.ReferenceIdeal
import proofs.«125410_j42923903156343_1_alg».proof.Proof.RefRun
import proofs.«125410_j42923903156343_1_alg».proof.Proof.RefRead
import proofs.«125410_j42923903156343_1_alg».proof.Proof.Gen.Pre_finite_inputs
import proofs.«125410_j42923903156343_1_alg».proof.Proof.KernelRun
import proofs.«125410_j42923903156343_1_alg».proof.Proof.Stages
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's result term of the kernel's launch arguments: the
    kernel's by its stages, the reference's by its run and the agreement of the two memories on the arguments. -/
theorem algebraic : Cert.algebraic_KernelIdeal_ReferenceIdeal := by
  intro m ρ m' ρ' _ hagree
  refine ⟨fun c => Cert.KernelIdeal.Gen.W24 m ρ c (Proc.devRef .tc Cert.KernelIdeal.main_v197),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v268_eq, h0, h1, h2, h3, h4, h5, h6, h7, h8, h9, h10, h11, h12, h13]
  exact (Cert.KernelIdeal.Stages.result m ρ c).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
